-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  IdealRules.named_const.Statement Cert.KernelIdeal.κ "inv_tau" .f32 0x40555555#32 ((16777216 / 5033165 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x50000x256 : Shape := ⟨3, ![8, 50000, 256]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S128x2 : Shape := ⟨2, ![128, 2]⟩
abbrev S2 : Shape := ⟨1, ![2]⟩
abbrev S128x64 : Shape := ⟨2, ![128, 64]⟩
abbrev S64 : Shape := ⟨1, ![64]⟩
abbrev S64x1 : Shape := ⟨2, ![64, 1]⟩
abbrev S_ : Shape := ⟨0, ![]⟩

class Facts : Prop where
  bcast_S_S8x50000x256 : S_.BroadcastsInDim S8x50000x256 (![] : Fin 0 → Fin S8x50000x256.rank)
  reducesTo_S8x50000x256_S_d0_1_2 : S8x50000x256.ReducesTo [0, 1, 2] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_

variable [Facts]

def fn_part6 {F : FTy → Type} [FloatOps F] (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  main_v103

def fn_part5 {F : FTy → Type} [FloatOps F] (main_arg18 : FVec F S64 .f32) (main_arg19 : FVec F S64x1 .f32) (main_arg20 : FVec F S1 .f32) (main_v83 : IVec S_ 1) (main_v84 : FVec F S128x64 .f32) (main_cst_32 : FVec F S_ .f32) : IVec S_ 1 :=
  let main_v85 : FVec F S128x64 .f32 := broadcastInDim S128x64 ![] bcast_S_S128x64 main_cst_32
  let main_v86 : IVec S128x64 1 := cmpf .olt main_v84 main_v85
  let main_c_33 : IVec S_ 1 := constantI S_ 1 1#1
  let main_v87 : IVec S_ 1 := (fun x v => Host.reduce IntOp.andi x v reducesTo_S128x64_S_d0_1 h_S_) main_v86 main_c_33
  let main_v88 : IVec S_ 1 := andi main_v83 main_v87
  let main_v89 : FVec F S64 .f32 := Host.absf main_arg18
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x1 .f32 := Host.absf main_arg19
  let main_cst_36 : FVec F S_ .f32 := constant S_ .f32 0x7F800000#32
  let main_v95 : FVec F S64x1 .f32 := broadcastInDim S64x1 ![] bcast_S_S64x1 main_cst_36
  let main_v96 : IVec S64x1 1 := cmpf .olt main_v94 main_v95
  let main_c_37 : IVec S_ 1 := constantI S_ 1 1#1
  let main_v97 : IVec S_ 1 := (fun x v => Host.reduce IntOp.andi x v reducesTo_S64x1_S_d0_1 h_S_) main_v96 main_c_37
  let main_v98 : IVec S_ 1 := andi main_v93 main_v97
  let main_v99 : FVec F S1 .f32 := Host.absf main_arg20
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_v98 main_v101 main_c_39

def fn_part4 {F : FTy → Type} [FloatOps F] (main_arg14 : FVec F S128 .f32) (main_arg15 : FVec F S128x2 .f32) (main_arg16 : FVec F S2 .f32) (main_arg17 : FVec F S128x64 .f32) (main_arg18 : FVec F S64 .f32) (main_arg19 : FVec F S64x1 .f32) (main_arg20 : FVec F S1 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x2 .f32 := Host.absf main_arg15
  let main_cst_28 : FVec F S_ .f32 := constant S_ .f32 0x7F800000#32
  let main_v75 : FVec F S128x2 .f32 := broadcastInDim S128x2 ![] bcast_S_S128x2 main_cst_28
  let main_v76 : IVec S128x2 1 := cmpf .olt main_v74 main_v75
  let main_c_29 : IVec S_ 1 := constantI S_ 1 1#1
  let main_v77 : IVec S_ 1 := (fun x v => Host.reduce IntOp.andi x v reducesTo_S128x2_S_d0_1 h_S_) main_v76 main_c_29
  let main_v78 : IVec S_ 1 := andi main_v73 main_v77
  let main_v79 : FVec F S2 .f32 := Host.absf main_arg16
  let main_cst_30 : FVec F S_ .f32 := constant S_ .f32 0x7F800000#32
  let main_v80 : FVec F S2 .f32 := broadcastInDim S2 ![] bcast_S_S2 main_cst_30
  let main_v81 : IVec S2 1 := cmpf .olt main_v79 main_v80
  let main_c_31 : IVec S_ 1 := constantI S_ 1 1#1
  let main_v82 : IVec S_ 1 := (fun x v => Host.reduce IntOp.andi x v reducesTo_S2_S_d0 h_S_) main_v81 main_c_31
  let main_v83 : IVec S_ 1 := andi main_v78 main_v82
  let main_v84 : FVec F S128x64 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S128x1 .f32) (main_arg12 : FVec F S1 .f32) (main_arg13 : FVec F S128x128 .f32) (main_arg14 : FVec F S128 .f32) (main_arg15 : FVec F S128x2 .f32) (main_arg16 : FVec F S2 .f32) (main_arg17 : FVec F S128x64 .f32) (main_arg18 : FVec F S64 .f32) (main_arg19 : FVec F S64x1 .f32) (main_arg20 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg11
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S128 .f32) (main_arg8 : FVec F S128 .f32) (main_arg9 : FVec F S128x128 .f32) (main_arg10 : FVec F S128 .f32) (main_arg11 : FVec F S128x1 .f32) (main_arg12 : FVec F S1 .f32) (main_arg13 : FVec F S128x128 .f32) (main_arg14 : FVec F S128 .f32) (main_arg15 : FVec F S128x2 .f32) (main_arg16 : FVec F S2 .f32) (main_arg17 : FVec F S128x64 .f32) (main_arg18 : FVec F S64 .f32) (main_arg19 : FVec F S64x1 .f32) (main_arg20 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S128 .f32) (main_arg5 : FVec F S128x128 .f32) (main_arg6 : FVec F S128 .f32) (main_arg7 : FVec F S128 .f32) (main_arg8 : FVec F S128 .f32) (main_arg9 : FVec F S128x128 .f32) (main_arg10 : FVec F S128 .f32) (main_arg11 : FVec F S128x1 .f32) (main_arg12 : FVec F S1 .f32) (main_arg13 : FVec F S128x128 .f32) (main_arg14 : FVec F S128 .f32) (main_arg15 : FVec F S128x2 .f32) (main_arg16 : FVec F S2 .f32) (main_arg17 : FVec F S128x64 .f32) (main_arg18 : FVec F S64 .f32) (main_arg19 : FVec F S64x1 .f32) (main_arg20 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S8x50000x256 .f32) (main_arg1 : FVec F S256x128 .f32) (main_arg2 : FVec F S128 .f32) (main_arg3 : FVec F S128 .f32) (main_arg4 : FVec F S128 .f32) (main_arg5 : FVec F S128x128 .f32) (main_arg6 : FVec F S128 .f32) (main_arg7 : FVec F S128 .f32) (main_arg8 : FVec F S128 .f32) (main_arg9 : FVec F S128x128 .f32) (main_arg10 : FVec F S128 .f32) (main_arg11 : FVec F S128x1 .f32) (main_arg12 : FVec F S1 .f32) (main_arg13 : FVec F S128x128 .f32) (main_arg14 : FVec F S128 .f32) (main_arg15 : FVec F S128x2 .f32) (main_arg16 : FVec F S2 .f32) (main_arg17 : FVec F S128x64 .f32) (main_arg18 : FVec F S64 .f32) (main_arg19 : FVec F S64x1 .f32) (main_arg20 : FVec F S1 .f32) : IVec S_ 1 :=
  let main_v0 : FVec F S8x50000x256 .f32 := Host.absf main_arg0
  let main_cst : FVec F S_ .f32 := constant S_ .f32 0x7F800000#32
  let main_v1 : FVec F S8x50000x256 .f32 := broadcastInDim S8x50000x256 ![] bcast_S_S8x50000x256 main_cst
  let main_v2 : IVec S8x50000x256 1 := cmpf .olt main_v0 main_v1
  let main_c : IVec S_ 1 := constantI S_ 1 1#1
  let main_v3 : IVec S_ 1 := (fun x v => Host.reduce IntOp.andi x v reducesTo_S8x50000x256_S_d0_1_2 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S8x50000x256 : Shape := ⟨3, ![8, 50000, 256]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S128x2 : Shape := ⟨2, ![128, 2]⟩
abbrev S2 : Shape := ⟨1, ![2]⟩
abbrev S128x64 : Shape := ⟨2, ![128, 64]⟩
abbrev S64 : Shape := ⟨1, ![64]⟩
abbrev S64x1 : Shape := ⟨2, ![64, 1]⟩
abbrev S1x128 : Shape := ⟨2, ![1, 128]⟩
abbrev S8x1x2 : Shape := ⟨3, ![8, 1, 2]⟩
abbrev S8x1x1 : Shape := ⟨3, ![8, 1, 1]⟩
abbrev S1x5000x256 : Shape := ⟨3, ![1, 5000, 256]⟩
abbrev S1x1x2 : Shape := ⟨3, ![1, 1, 2]⟩
abbrev S1x1x1 : Shape := ⟨3, ![1, 1, 1]⟩
abbrev S1x1 : Shape := ⟨2, ![1, 1]⟩
abbrev S5000x256 : Shape := ⟨2, ![5000, 256]⟩
abbrev S5000x128 : Shape := ⟨2, ![5000, 128]⟩
abbrev S5000 : Shape := ⟨1, ![5000]⟩
abbrev S5000x1 : Shape := ⟨2, ![5000, 1]⟩
abbrev S1x2 : Shape := ⟨2, ![1, 2]⟩
abbrev S1x64 : Shape := ⟨2, ![1, 64]⟩
abbrev S8x2 : Shape := ⟨2, ![8, 2]⟩
abbrev S8 : Shape := ⟨1, ![8]⟩

abbrev nBuf : Space → Nat
  | .hbm => 26
  | .vmem => 29
  | .smem => 0
  | _ => 0

abbrev bufTy : (tb : Table) → Fin (tcTables nBuf tb) → BufTy
  | .hbm, ⟨0, _⟩ => ⟨S8x50000x256, .f32⟩
  | .hbm, ⟨1, _⟩ => ⟨S256x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S128x128, .f32⟩
  | .hbm, ⟨14, _⟩ => ⟨S128, .f32⟩
  | .hbm, ⟨15, _⟩ => ⟨S128x2, .f32⟩
  | .hbm, ⟨16, _⟩ => ⟨S2, .f32⟩
  | .hbm, ⟨17, _⟩ => ⟨S128x64, .f32⟩
  | .hbm, ⟨18, _⟩ => ⟨S64, .f32⟩
  | .hbm, ⟨19, _⟩ => ⟨S64x1, .f32⟩
  | .hbm, ⟨20, _⟩ => ⟨S1, .f32⟩
  | .hbm, ⟨21, _⟩ => ⟨S1x128, .f32⟩
  | .hbm, ⟨22, _⟩ => ⟨S8x1x2, .f32⟩
  | .hbm, ⟨23, _⟩ => ⟨S8x1x1, .f32⟩
  | .hbm, ⟨24, _⟩ => ⟨S8x2, .f32⟩
  | .hbm, ⟨25, _⟩ => ⟨S8, .f32⟩
  | .local _ .vmem, ⟨0, _⟩ => ⟨S1x5000x256, .f32⟩
  | .local _ .vmem, ⟨1, _⟩ => ⟨S1x5000x256, .f32⟩
  | .local _ .vmem, ⟨2, _⟩ => ⟨S256x128, .f32⟩
  | .local _ .vmem, ⟨3, _⟩ => ⟨S128, .f32⟩
  | .local _ .vmem, ⟨4, _⟩ => ⟨S128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S1x128, .f32⟩
  | .local _ .vmem, ⟨13, _⟩ => ⟨S1, .f32⟩
  | .local _ .vmem, ⟨14, _⟩ => ⟨S128x128, .f32⟩
  | .local _ .vmem, ⟨15, _⟩ => ⟨S128, .f32⟩
  | .local _ .vmem, ⟨16, _⟩ => ⟨S128x2, .f32⟩
  | .local _ .vmem, ⟨17, _⟩ => ⟨S2, .f32⟩
  | .local _ .vmem, ⟨18, _⟩ => ⟨S128x64, .f32⟩
  | .local _ .vmem, ⟨19, _⟩ => ⟨S64, .f32⟩
  | .local _ .vmem, ⟨20, _⟩ => ⟨S64x1, .f32⟩
  | .local _ .vmem, ⟨21, _⟩ => ⟨S1, .f32⟩
  | .local _ .vmem, ⟨22, _⟩ => ⟨S1x1x2, .f32⟩
  | .local _ .vmem, ⟨23, _⟩ => ⟨S1x1x2, .f32⟩
  | .local _ .vmem, ⟨24, _⟩ => ⟨S1x1x1, .f32⟩
  | .local _ .vmem, ⟨25, _⟩ => ⟨S1x1x1, .f32⟩
  | .local _ .vmem, ⟨26, _⟩ => ⟨S1x1, .f32⟩
  | .local _ .vmem, ⟨27, _⟩ => ⟨S1x1, .f32⟩
  | .local _ .vmem, ⟨28, _⟩ => ⟨S1x128, .f32⟩
  | _, _ => ⟨S8x50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1_0 : Ref sig .tc := ⟨.hbm, 22, rfl⟩
abbrev main_v1_1 : Ref sig .tc := ⟨.hbm, 23, rfl⟩
abbrev main_v2 : Ref sig .tc := ⟨.hbm, 24, rfl⟩
abbrev main_v3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg21_1 : Ref sig .tc := ⟨.vmem, 23, rfl⟩
abbrev cc0_stg22_0 : Ref sig .tc := ⟨.vmem, 24, rfl⟩
abbrev cc0_stg22_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem21_1 : DmaSem sig := 23
abbrev cc0_sem22_0 : DmaSem sig := 24
abbrev cc0_sem22_1 : DmaSem sig := 25

abbrev nD : Nat := 1
abbrev τ : Topo := Topo.v7x

variable {F : FTy → Type} [FloatOps F]

abbrev grid0 : Pipeline.Grid := ⟨2, ![8, 10], ![false, false]⟩

def k0_cond2 (i : grid0.Coords) : BitVec 1 :=
  let arg1 : BitVec 32 := BitVec.ofNat 32 (i 1).val
  let c9_i32 : BitVec 32 := 9#32
  let v130 : BitVec 1 := Scalar.cmpi .eq arg1 c9_i32
  let v131 : BitVec 32 := Scalar.extui v130
  let c0_i32_52 : BitVec 32 := 0#32
  let v132 : BitVec 1 := Scalar.cmpi .ne v131 c0_i32_52
  v132

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x2 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S2 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S128x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S64x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 2 → Memref sig .tc .vmem S1x1x2 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]

abbrev stage0_22 : Fin 2 → Memref sig .tc .vmem S1x1x1 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, false]

class Facts₀ : Prop where
  transposes_S128x1_S1x128_1_0 : S128x1.Transposes [1, 0] S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x5000x256_S1x5000x256_0_0_0 : ∀ a, (![0, 0, 0] : Fin 3 → Nat) a + S1x5000x256.size a ≤ S1x5000x256.size a
  h_S1x5000x256 : 0 < S1x5000x256.numel
  shapeCasts_S1x5000x256_S5000x256 : S1x5000x256.ShapeCasts S5000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  reduces_S5000x1_S1 : S5000x1.Reduces [0] S1
  broadcasts_S1x1_S1x128 : S1x1.Broadcasts S1x128
  reduces_S5000x128_S128 : S5000x128.Reduces [0] S128
  inb_S128x2_S128x2_0_0 : ∀ a, (![0, 0] : Fin 2 → Nat) a + S128x2.size a ≤ S128x2.size a
  h_S128x2 : 0 < S128x2.numel
  inb_S2_S2_0 : ∀ a, (![0] : Fin 1 → Nat) a + S2.size a ≤ S2.size a
  h_S2 : 0 < S2.numel
  shapeCasts_S2_S1x2 : S2.ShapeCasts S1x2
  shapeCasts_S1x2_S1x1x2 : S1x2.ShapeCasts S1x1x2
  inb_S1x1x2_S1x1x2_0_0_0 : ∀ a, (![0, 0, 0] : Fin 3 → Nat) a + S1x1x2.size a ≤ S1x1x2.size a
  h_S1x1x2 : 0 < S1x1x2.numel
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  inb_S64x1_S64x1_0_0 : ∀ a, (![0, 0] : Fin 2 → Nat) a + S64x1.size a ≤ S64x1.size a
  h_S64x1 : 0 < S64x1.numel
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S8x1x2_S8x2 : S8x1x2.ShapeCasts S8x2
  shapeCasts_S8x1x1_S8 : S8x1x1.ShapeCasts S8
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  dot_S1x128_S128x128_S1x128_1_0_0_1_n_n_wf : DotDims.WF S1x128 S128x128 S1x128 [1] [0] [0] [1] [] []
  dot_S1x128_S128x2_S1x2_1_0_0_1_n_n_wf : DotDims.WF S1x128 S128x2 S1x2 [1] [0] [0] [1] [] []
  dot_S1x128_S128x64_S1x64_1_0_0_1_n_n_wf : DotDims.WF S1x128 S128x64 S1x64 [1] [0] [0] [1] [] []
  dot_S1x64_S64x1_S1x1_1_0_0_1_n_n_wf : DotDims.WF S1x64 S64x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x256.size a ≤ S8x50000x256.size a
  hwx0_0 : ∀ i : grid0.Coords, EltTy.bits .f32 = 32 ∨ (Rect.block (s := S8x50000x256) S1x5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1.size a ≤ S1.size a
  hwx0_12 : ∀ i : grid0.Coords, EltTy.bits .f32 = 32 ∨ (Rect.block (s := S1) S1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x128.size a
  hwx0_13 : ∀ i : grid0.Coords, EltTy.bits .f32 = 32 ∨ (Rect.block (s := S128x128) S128x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128.size a ≤ S128.size a
  hwx0_14 : ∀ i : grid0.Coords, EltTy.bits .f32 = 32 ∨ (Rect.block (s := S128) S128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x2.size a ≤ S128x2.size a
  hwx0_15 : ∀ i : grid0.Coords, EltTy.bits .f32 = 32 ∨ (Rect.block (s := S128x2) S128x2.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S2.size a ≤ S2.size a
  hwx0_16 : ∀ i : grid0.Coords, EltTy.bits .f32 = 32 ∨ (Rect.block (s := S2) S2.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x64.size a ≤ S128x64.size a
  hwx0_17 : ∀ i : grid0.Coords, EltTy.bits .f32 = 32 ∨ (Rect.block (s := S128x64) S128x64.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S64.size a ≤ S64.size a
  hwx0_18 : ∀ i : grid0.Coords, EltTy.bits .f32 = 32 ∨ (Rect.block (s := S64) S64.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S64x1.size a ≤ S64x1.size a
  hwx0_19 : ∀ i : grid0.Coords, EltTy.bits .f32 = 32 ∨ (Rect.block (s := S64x1) S64x1.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1.size a ≤ S1.size a
  hwx0_20 : ∀ i : grid0.Coords, EltTy.bits .f32 = 32 ∨ (Rect.block (s := S1) S1.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S1x1x2.size a ≤ S8x1x2.size a
  hwx0_21 : ∀ i : grid0.Coords, EltTy.bits .f32 = 32 ∨ (Rect.block (s := S8x1x2) S1x1x2.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S1x1x1.size a ≤ S8x1x1.size a
  hwx0_22 : ∀ i : grid0.Coords, EltTy.bits .f32 = 32 ∨ (Rect.block (s := S8x1x1) S1x1x1.size (cc0_transform_22 i) (hinb0_22 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1x128_S128x2_S1x2_1_0_0_1_n_n : DotDims S1x128 S128x2 S1x2 where
  lhsContracting := [1]
  rhsContracting := [0]
  lhsNonContracting := [0]
  rhsNonContracting := [1]
  lhsBatch := []
  rhsBatch := []
  wf := dot_S1x128_S128x2_S1x2_1_0_0_1_n_n_wf
def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

abbrev win0_0 : Pipeline.Window sig grid0 :=
  Pipeline.Window.ofSpec (Memref.whole main_arg0) S1x5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S128x2.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S2.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S128x64.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S64.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S64x1.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S1.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v1_0) S1x1x2.size cc0_transform_21 reads0_21 true false 2 stage0_21 sem0_21
    hrank0 hreads0_21 hinb0_21 nbuf0_21 (Memref.isWhole_whole _) hwx0_21 hstage0_21

abbrev win0_22 : Pipeline.Window sig grid0 :=
  Pipeline.Window.ofSpec (Memref.whole main_v1_1) S1x1x1.size cc0_transform_22 reads0_22 true false 2 stage0_22 sem0_22
    hrank0 hreads0_22 hinb0_22 nbuf0_22 (Memref.isWhole_whole _) hwx0_22 hstage0_22

abbrev win0 : Fin 23 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | ⟨_ + 23, h⟩ => absurd h (Nat.not_lt.2 (Nat.le_add_left _ _))
abbrev spec0 : Fin 23 → Pipeline.WinSpec sig grid0.rank := fun w => (win0 w).toWinSpec

abbrev idle0 : Fin 23 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun _ => false | 20 => fun _ => false | 21 => fun i => !(k0_cond2 i == 1#1) | 22 => fun i => !(k0_cond2 i == 1#1) | ⟨_ + 23, h⟩ => absurd h (Nat.not_lt.2 (Nat.le_add_left _ _))

class Facts : Prop extends Facts₀ where

variable [Facts]
-- ==== ReferenceIdeal.lean ====
abbrev S8x50000x256 : Shape := ⟨3, ![8, 50000, 256]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S128x2 : Shape := ⟨2, ![128, 2]⟩
abbrev S2 : Shape := ⟨1, ![2]⟩
abbrev S128x64 : Shape := ⟨2, ![128, 64]⟩
abbrev S64 : Shape := ⟨1, ![64]⟩
abbrev S64x1 : Shape := ⟨2, ![64, 1]⟩
abbrev S8x50000x128 : Shape := ⟨3, ![8, 50000, 128]⟩
abbrev S1x1x128 : Shape := ⟨3, ![1, 1, 128]⟩
abbrev S_ : Shape := ⟨0, ![]⟩
abbrev S8x50000 : Shape := ⟨2, ![8, 50000]⟩
abbrev S8x50000x1 : Shape := ⟨3, ![8, 50000, 1]⟩
abbrev S1x1x1 : Shape := ⟨3, ![1, 1, 1]⟩
abbrev S8x1 : Shape := ⟨2, ![8, 1]⟩
abbrev S8x1x1 : Shape := ⟨3, ![8, 1, 1]⟩
abbrev S8x128 : Shape := ⟨2, ![8, 128]⟩
abbrev S1x128 : Shape := ⟨2, ![1, 128]⟩
abbrev S8x2 : Shape := ⟨2, ![8, 2]⟩
abbrev S1x2 : Shape := ⟨2, ![1, 2]⟩
abbrev S8x64 : Shape := ⟨2, ![8, 64]⟩
abbrev S1x64 : Shape := ⟨2, ![1, 64]⟩
abbrev S1x1 : Shape := ⟨2, ![1, 1]⟩
abbrev S8 : Shape := ⟨1, ![8]⟩

abbrev nBuf : Space → Nat
  | .hbm => 146
  | .vmem => 0
  | .smem => 0
  | _ => 0

abbrev hbmTy0_0 (i : Nat) : BufTy := match i % 128 with
  | 0 => ⟨S8x50000x256, .f32⟩
  | 1 => ⟨S256x128, .f32⟩
  | 2 => ⟨S128, .f32⟩
  | 3 => ⟨S128, .f32⟩
  | 4 => ⟨S128, .f32⟩
  | 5 => ⟨S128x128, .f32⟩
  | 6 => ⟨S128, .f32⟩
  | 7 => ⟨S128, .f32⟩
  | 8 => ⟨S128, .f32⟩
  | 9 => ⟨S128x128, .f32⟩
  | 10 => ⟨S128, .f32⟩
  | 11 => ⟨S128x1, .f32⟩
  | 12 => ⟨S1, .f32⟩
  | 13 => ⟨S128x128, .f32⟩
  | 14 => ⟨S128, .f32⟩
  | 15 => ⟨S128x2, .f32⟩
  | 16 => ⟨S2, .f32⟩
  | 17 => ⟨S128x64, .f32⟩
  | 18 => ⟨S64, .f32⟩
  | 19 => ⟨S64x1, .f32⟩
  | 20 => ⟨S1, .f32⟩
  | 21 => ⟨S8x50000x128, .f32⟩
  | 22 => ⟨S1x1x128, .f32⟩
  | 23 => ⟨S8x50000x128, .f32⟩
  | 24 => ⟨S8x50000x128, .f32⟩
  | 25 => ⟨S_, .f32⟩
  | 26 => ⟨S8x50000, .f32⟩
  | 27 => ⟨S8x50000x1, .f32⟩
  | 28 => ⟨S_, .f32⟩
  | 29 => ⟨S8x50000x1, .f32⟩
  | 30 => ⟨S8x50000x1, .f32⟩
  | 31 => ⟨S8x50000x128, .f32⟩
  | 32 => ⟨S8x50000x128, .f32⟩
  | 33 => ⟨S8x50000x128, .f32⟩
  | 34 => ⟨S_, .f32⟩
  | 35 => ⟨S8x50000, .f32⟩
  | 36 => ⟨S8x50000x1, .f32⟩
  | 37 => ⟨S_, .f32⟩
  | 38 => ⟨S8x50000x1, .f32⟩
  | 39 => ⟨S8x50000x1, .f32⟩
  | 40 => ⟨S8x50000x128, .f32⟩
  | 41 => ⟨S8x50000x128, .f32⟩
  | 42 => ⟨S_, .f32⟩
  | 43 => ⟨S8x50000x1, .f32⟩
  | 44 => ⟨S8x50000x1, .f32⟩
  | 45 => ⟨S8x50000x1, .f32⟩
  | 46 => ⟨S8x50000x128, .f32⟩
  | 47 => ⟨S8x50000x128, .f32⟩
  | 48 => ⟨S1x1x128, .f32⟩
  | 49 => ⟨S8x50000x128, .f32⟩
  | 50 => ⟨S8x50000x128, .f32⟩
  | 51 => ⟨S1x1x128, .f32⟩
  | 52 => ⟨S8x50000x128, .f32⟩
  | 53 => ⟨S8x50000x128, .f32⟩
  | 54 => ⟨S_, .f32⟩
  | 55 => ⟨S8x50000x128, .f32⟩
  | 56 => ⟨S8x50000x128, .f32⟩
  | 57 => ⟨S8x50000x128, .f32⟩
  | 58 => ⟨S1x1x128, .f32⟩
  | 59 => ⟨S8x50000x128, .f32⟩
  | 60 => ⟨S8x50000x128, .f32⟩
  | 61 => ⟨S_, .f32⟩
  | 62 => ⟨S8x50000, .f32⟩
  | 63 => ⟨S8x50000x1, .f32⟩
  | 64 => ⟨S_, .f32⟩
  | 65 => ⟨S8x50000x1, .f32⟩
  | 66 => ⟨S8x50000x1, .f32⟩
  | 67 => ⟨S8x50000x128, .f32⟩
  | 68 => ⟨S8x50000x128, .f32⟩
  | 69 => ⟨S8x50000x128, .f32⟩
  | 70 => ⟨S_, .f32⟩
  | 71 => ⟨S8x50000, .f32⟩
  | 72 => ⟨S8x50000x1, .f32⟩
  | 73 => ⟨S_, .f32⟩
  | 74 => ⟨S8x50000x1, .f32⟩
  | 75 => ⟨S8x50000x1, .f32⟩
  | 76 => ⟨S8x50000x128, .f32⟩
  | 77 => ⟨S8x50000x128, .f32⟩
  | 78 => ⟨S_, .f32⟩
  | 79 => ⟨S8x50000x1, .f32⟩
  | 80 => ⟨S8x50000x1, .f32⟩
  | 81 => ⟨S8x50000x1, .f32⟩
  | 82 => ⟨S8x50000x128, .f32⟩
  | 83 => ⟨S8x50000x128, .f32⟩
  | 84 => ⟨S1x1x128, .f32⟩
  | 85 => ⟨S8x50000x128, .f32⟩
  | 86 => ⟨S8x50000x128, .f32⟩
  | 87 => ⟨S1x1x128, .f32⟩
  | 88 => ⟨S8x50000x128, .f32⟩
  | 89 => ⟨S8x50000x128, .f32⟩
  | 90 => ⟨S_, .f32⟩
  | 91 => ⟨S8x50000x128, .f32⟩
  | 92 => ⟨S8x50000x128, .f32⟩
  | 93 => ⟨S8x50000x128, .f32⟩
  | 94 => ⟨S1x1x128, .f32⟩
  | 95 => ⟨S8x50000x128, .f32⟩
  | 96 => ⟨S8x50000x128, .f32⟩
  | 97 => ⟨S8x50000x128, .f32⟩
  | 98 => ⟨S8x50000x1, .f32⟩
  | 99 => ⟨S1x1x1, .f32⟩
  | 100 => ⟨S8x50000x1, .f32⟩
  | 101 => ⟨S8x50000x1, .f32⟩
  | 102 => ⟨S_, .f32⟩
  | 103 => ⟨S8x50000x1, .f32⟩
  | 104 => ⟨S8x50000x1, .f32⟩
  | 105 => ⟨S_, .f32⟩
  | 106 => ⟨S8x1, .f32⟩
  | 107 => ⟨S_, .f32⟩
  | 108 => ⟨S8x1, .f32⟩
  | 109 => ⟨S8x1, .f32⟩
  | 110 => ⟨S8x1x1, .f32⟩
  | 111 => ⟨S8x50000x1, .f32⟩
  | 112 => ⟨S8x50000x1, .f32⟩
  | 113 => ⟨S8x50000x1, .f32⟩
  | 114 => ⟨S_, .f32⟩
  | 115 => ⟨S8x1, .f32⟩
  | 116 => ⟨S8x1x1, .f32⟩
  | 117 => ⟨S8x50000x1, .f32⟩
  | 118 => ⟨S8x50000x1, .f32⟩
  | 119 => ⟨S8x50000x128, .f32⟩
  | 120 => ⟨S8x50000x128, .f32⟩
  | 121 => ⟨S_, .f32⟩
  | 122 => ⟨S8x128, .f32⟩
  | 123 => ⟨S8x128, .f32⟩
  | 124 => ⟨S1x128, .f32⟩
  | 125 => ⟨S8x128, .f32⟩
  | 126 => ⟨S8x128, .f32⟩
  | 127 => ⟨S_, .f32⟩
  | _ => ⟨S8x50000x256, .f32⟩

abbrev hbmTy0_1 (i : Nat) : BufTy := match i % 128 with
  | 0 => ⟨S8x128, .f32⟩
  | 1 => ⟨S8x128, .f32⟩
  | 2 => ⟨S8x2, .f32⟩
  | 3 => ⟨S1x2, .f32⟩
  | 4 => ⟨S8x2, .f32⟩
  | 5 => ⟨S8x2, .f32⟩
  | 6 => ⟨S8x64, .f32⟩
  | 7 => ⟨S1x64, .f32⟩
  | 8 => ⟨S8x64, .f32⟩
  | 9 => ⟨S8x64, .f32⟩
  | 10 => ⟨S_, .f32⟩
  | 11 => ⟨S8x64, .f32⟩
  | 12 => ⟨S8x64, .f32⟩
  | 13 => ⟨S8x1, .f32⟩
  | 14 => ⟨S1x1, .f32⟩
  | 15 => ⟨S8x1, .f32⟩
  | 16 => ⟨S8x1, .f32⟩
  | 17 => ⟨S8, .f32⟩
  | _ => ⟨S8x50000x256, .f32⟩

abbrev hbmTy (i : Nat) : BufTy := match i / 128 with
  | 0 => hbmTy0_0 i
  | 1 => hbmTy0_1 i
  | _ => ⟨S8x50000x256, .f32⟩

abbrev bufTy : (tb : Table) → Fin (tcTables nBuf tb) → BufTy
  | .hbm, ⟨i, _⟩ => hbmTy i
  | _, _ => ⟨S8x50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_v5 : Ref sig .tc := ⟨.hbm, 27, rfl⟩
abbrev main_cst_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_1 : Ref sig .tc := ⟨.hbm, 34, rfl⟩
abbrev main_v11 : Ref sig .tc := ⟨.hbm, 35, rfl⟩
abbrev main_v12 : Ref sig .tc := ⟨.hbm, 36, rfl⟩
abbrev main_cst_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_3 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_call0_cst : Ref sig .tc := ⟨.hbm, 54, rfl⟩
abbrev main_call0_v0 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_4 : Ref sig .tc := ⟨.hbm, 61, rfl⟩
abbrev main_v33 : Ref sig .tc := ⟨.hbm, 62, rfl⟩
abbrev main_v34 : Ref sig .tc := ⟨.hbm, 63, rfl⟩
abbrev main_cst_5 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_6 : Ref sig .tc := ⟨.hbm, 70, rfl⟩
abbrev main_v40 : Ref sig .tc := ⟨.hbm, 71, rfl⟩
abbrev main_v41 : Ref sig .tc := ⟨.hbm, 72, rfl⟩
abbrev main_cst_7 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_8 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_call1_cst : Ref sig .tc := ⟨.hbm, 90, rfl⟩
abbrev main_call1_v0 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_9 : Ref sig .tc := ⟨.hbm, 102, rfl⟩
abbrev main_v67 : Ref sig .tc := ⟨.hbm, 103, rfl⟩
abbrev main_v68 : Ref sig .tc := ⟨.hbm, 104, rfl⟩
abbrev main_cst_10 : Ref sig .tc := ⟨.hbm, 105, rfl⟩
abbrev main_v69 : Ref sig .tc := ⟨.hbm, 106, rfl⟩
abbrev main_cst_11 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_12 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_13 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_call2_cst : Ref sig .tc := ⟨.hbm, 127, rfl⟩
abbrev main_call2_v0 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_call3_cst : Ref sig .tc := ⟨.hbm, 138, rfl⟩
abbrev main_call3_v0 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S8x50000x128_0_1_2 : S1x1x128.BroadcastsInDim S8x50000x128 (![0, 1, 2] : Fin 3 → Fin S8x50000x128.rank)
  reducesTo_S8x50000x128_S8x50000_d2 : S8x50000x128.ReducesTo [2] S8x50000
  h_S_ : 0 < S_.numel
  bcast_S8x50000_S8x50000x1_0_1 : S8x50000.BroadcastsInDim S8x50000x1 (![0, 1] : Fin 2 → Fin S8x50000x1.rank)
  bcast_S_S8x50000x1 : S_.BroadcastsInDim S8x50000x1 (![] : Fin 0 → Fin S8x50000x1.rank)
  bcast_S8x50000x1_S8x50000x128_0_1_2 : S8x50000x1.BroadcastsInDim S8x50000x128 (![0, 1, 2] : Fin 3 → Fin S8x50000x128.rank)
  bcast_S_S8x50000x128 : S_.BroadcastsInDim S8x50000x128 (![] : Fin 0 → Fin S8x50000x128.rank)
  bcast_S1_S1x1x1_2 : S1.BroadcastsInDim S1x1x1 (![2] : Fin 1 → Fin S1x1x1.rank)
  bcast_S1x1x1_S8x50000x1_0_1_2 : S1x1x1.BroadcastsInDim S8x50000x1 (![0, 1, 2] : Fin 3 → Fin S8x50000x1.rank)
  reducesTo_S8x50000x1_S8x1_d1 : S8x50000x1.ReducesTo [1] S8x1
  bcast_S_S8x1 : S_.BroadcastsInDim S8x1 (![] : Fin 0 → Fin S8x1.rank)
  bcast_S8x1_S8x1x1_0_2 : S8x1.BroadcastsInDim S8x1x1 (![0, 2] : Fin 2 → Fin S8x1x1.rank)
  bcast_S8x1x1_S8x50000x1_0_1_2 : S8x1x1.BroadcastsInDim S8x50000x1 (![0, 1, 2] : Fin 3 → Fin S8x50000x1.rank)
  reducesTo_S8x50000x128_S8x128_d1 : S8x50000x128.ReducesTo [1] S8x128
  bcast_S128_S1x128_1 : S128.BroadcastsInDim S1x128 (![1] : Fin 1 → Fin S1x128.rank)
  bcast_S1x128_S8x128_0_1 : S1x128.BroadcastsInDim S8x128 (![0, 1] : Fin 2 → Fin S8x128.rank)
  bcast_S_S8x128 : S_.BroadcastsInDim S8x128 (![] : Fin 0 → Fin S8x128.rank)
  bcast_S2_S1x2_1 : S2.BroadcastsInDim S1x2 (![1] : Fin 1 → Fin S1x2.rank)
  bcast_S1x2_S8x2_0_1 : S1x2.BroadcastsInDim S8x2 (![0, 1] : Fin 2 → Fin S8x2.rank)
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  bcast_S_S8x64 : S_.BroadcastsInDim S8x64 (![] : Fin 0 → Fin S8x64.rank)
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  shapeCasts_S8x1_S8 : S8x1.ShapeCasts S8
  dot_S8x50000x256_S256x128_S8x50000x128_2_0_01_1_n_n_wf : DotDims.WF S8x50000x256 S256x128 S8x50000x128 [2] [0] [0, 1] [1] [] []
  dot_S8x50000x128_S128x128_S8x50000x128_2_0_01_1_n_n_wf : DotDims.WF S8x50000x128 S128x128 S8x50000x128 [2] [0] [0, 1] [1] [] []
  dot_S8x50000x128_S128x1_S8x50000x1_2_0_01_1_n_n_wf : DotDims.WF S8x50000x128 S128x1 S8x50000x1 [2] [0] [0, 1] [1] [] []
  dot_S8x128_S128x128_S8x128_1_0_0_1_n_n_wf : DotDims.WF S8x128 S128x128 S8x128 [1] [0] [0] [1] [] []
  dot_S8x128_S128x2_S8x2_1_0_0_1_n_n_wf : DotDims.WF S8x128 S128x2 S8x2 [1] [0] [0] [1] [] []
  dot_S8x128_S128x64_S8x64_1_0_0_1_n_n_wf : DotDims.WF S8x128 S128x64 S8x64 [1] [0] [0] [1] [] []
  dot_S8x64_S64x1_S8x1_1_0_0_1_n_n_wf : DotDims.WF S8x64 S64x1 S8x1 [1] [0] [0] [1] [] []

variable [Facts₀]

def dot_S8x50000x256_S256x128_S8x50000x128_2_0_01_1_n_n : DotDims S8x50000x256 S256x128 S8x50000x128 where
  lhsContracting := [2]
  rhsContracting := [0]
  lhsNonContracting := [0, 1]
  rhsNonContracting := [1]
  lhsBatch := []
  rhsBatch := []
  wf := dot_S8x50000x256_S256x128_S8x50000x128_2_0_01_1_n_n_wf
def dot_S8x50000x128_S128x128_S8x50000x128_2_0_01_1_n_n : DotDims S8x50000x128 S128x128 S8x50000x128 where
  lhsContracting := [2]
  rhsContracting := [0]
  lhsNonContracting := [0, 1]
  rhsNonContracting := [1]
  lhsBatch := []
  rhsBatch := []
  wf := dot_S8x50000x128_S128x128_S8x50000x128_2_0_01_1_n_n_wf
def dot_S8x50000x128_S128x1_S8x50000x1_2_0_01_1_n_n : DotDims S8x50000x128 S128x1 S8x50000x1 where
  lhsContracting := [2]
  rhsContracting := [0]
  lhsNonContracting := [0, 1]
  rhsNonContracting := [1]
  lhsBatch := []
  rhsBatch := []
  wf := dot_S8x50000x128_S128x1_S8x50000x1_2_0_01_1_n_n_wf
def dot_S8x128_S128x128_S8x128_1_0_0_1_n_n : DotDims S8x128 S128x128 S8x128 where
  lhsContracting := [1]
  rhsContracting := [0]
  lhsNonContracting := [0]
  rhsNonContracting := [1]
  lhsBatch := []
  rhsBatch := []
  wf := dot_S8x128_S128x128_S8x128_1_0_0_1_n_n_wf
def dot_S8x128_S128x2_S8x2_1_0_0_1_n_n : DotDims S8x128 S128x2 S8x2 where
  lhsContracting := [1]
  rhsContracting := [0]
  lhsNonContracting := [0]
  rhsNonContracting := [1]
  lhsBatch := []
  rhsBatch := []
  wf := dot_S8x128_S128x2_S8x2_1_0_0_1_n_n_wf
def dot_S8x128_S128x64_S8x64_1_0_0_1_n_n : DotDims S8x128 S128x64 S8x64 where
  lhsContracting := [1]
  rhsContracting := [0]
  lhsNonContracting := [0]
  rhsNonContracting := [1]
  lhsBatch := []
  rhsBatch := []
  wf := dot_S8x128_S128x64_S8x64_1_0_0_1_n_n_wf
def dot_S8x64_S64x1_S8x1_1_0_0_1_n_n : DotDims S8x64 S64x1 S8x1 where
  lhsContracting := [1]
  rhsContracting := [0]
  lhsNonContracting := [0]
  rhsNonContracting := [1]
  lhsBatch := []
  rhsBatch := []
  wf := dot_S8x64_S64x1_S8x1_1_0_0_1_n_n_wf

class Facts : Prop extends Facts₀ where

variable [Facts]
-- ==== Proof.MilKStep.lean ====
/-
  One tile of the pooled sum, as terms over the kernel body's loaded blocks.

  A grid point loads a block of 5000 instances and the weights, and three running quantities of its bag: the
  maximum of the scores seen so far, the sum of their shifted exponentials and the sum of those exponentials
  times the features.  The body turns the block into features and scores, and the three running quantities into
  their values after this tile (`tileMax`, `tileNorm`, `tileAcc`); at a bag's first tile they start from −∞, 0
  and 0 (`firstMax`, `firstNorm`, `firstAcc`); at its last tile the two heads read the class scores and the risk
  off the quotient of the new sums (`headLogits`, `headRisk`).  Each is the composition of the body's printed
  operations, for any float instance.
-/
import proofs.«160597_j5995774345772_2_alg».proof.Proof.Gen.KernelIdeal.Skeleton

noncomputable section

namespace Cert.Mil.KStep

open Idealize.ShloMosaic Cert.KernelIdeal Cert.KernelIdeal.Gen

variable {F : FTy → Type} [FloatOps F] [Named F]

/-- The features of the block's 5000 instances. -/
def feats (x0 : Vec F S1x5000x256 .f32) (x1 : Vec F S256x128 .f32) (x2 : Vec F S128 .f32) (x3 : Vec F S128 .f32) (x4 : Vec F S128 .f32) (x5 : Vec F S128x128 .f32) (x6 : Vec F S128 .f32) (x7 : Vec F S128 .f32) (x8 : Vec F S128 .f32) : FVec F S5000x128 .f32 :=
  k0_pay12 (k0_pay10 x0 x1 x2 x3 x4) k0_pay11 x5 x6 x7 x8

/-- The features through the score's first weight matrix, before its bias. -/
def hidden (x0 : Vec F S1x5000x256 .f32) (x1 : Vec F S256x128 .f32) (x2 : Vec F S128 .f32) (x3 : Vec F S128 .f32) (x4 : Vec F S128 .f32) (x5 : Vec F S128x128 .f32) (x6 : Vec F S128 .f32) (x7 : Vec F S128 .f32) (x8 : Vec F S128 .f32) (x9 : Vec F S128x128 .f32) : FVec F S5000x128 .f32 :=
  k0_pay13 (k0_pay10 x0 x1 x2 x3 x4) k0_pay11 x5 x6 x7 x8 x9

/-- The running maximum after this tile. -/
def tileMax (x0 : Vec F S1x5000x256 .f32) (x1 : Vec F S256x128 .f32) (x2 : Vec F S128 .f32) (x3 : Vec F S128 .f32) (x4 : Vec F S128 .f32) (x5 : Vec F S128x128 .f32) (x6 : Vec F S128 .f32) (x7 : Vec F S128 .f32) (x8 : Vec F S128 .f32) (x9 : Vec F S128x128 .f32) (x10 : Vec F S128 .f32) (x11 : Vec F S1x128 .f32) (x12 : Vec F S1 .f32) (xs0 : Vec F S1x1 .f32) : FVec F S1x1 .f32 :=
  k0_pay2 (k0_pay16 (hidden x0 x1 x2 x3 x4 x5 x6 x7 x8 x9) (k0_pay14 x10) x11 x12 xs0)

/-- The running normaliser after this tile. -/
def tileNorm (x0 : Vec F S1x5000x256 .f32) (x1 : Vec F S256x128 .f32) (x2 : Vec F S128 .f32) (x3 : Vec F S128 .f32) (x4 : Vec F S128 .f32) (x5 : Vec F S128x128 .f32) (x6 : Vec F S128 .f32) (x7 : Vec F S128 .f32) (x8 : Vec F S128 .f32) (x9 : Vec F S128x128 .f32) (x10 : Vec F S128 .f32) (x11 : Vec F S1x128 .f32) (x12 : Vec F S1 .f32) (xs0 xs1 : Vec F S1x1 .f32) : FVec F S1x1 .f32 :=
  k0_pay19 (hidden x0 x1 x2 x3 x4 x5 x6 x7 x8 x9) (k0_pay14 x10) x11 x12 xs0 xs0 xs1

/-- The running weighted sum of features after this tile. -/
def tileAcc (x0 : Vec F S1x5000x256 .f32) (x1 : Vec F S256x128 .f32) (x2 : Vec F S128 .f32) (x3 : Vec F S128 .f32) (x4 : Vec F S128 .f32) (x5 : Vec F S128x128 .f32) (x6 : Vec F S128 .f32) (x7 : Vec F S128 .f32) (x8 : Vec F S128 .f32) (x9 : Vec F S128x128 .f32) (x10 : Vec F S128 .f32) (x11 : Vec F S1x128 .f32) (x12 : Vec F S1 .f32) (xs0 : Vec F S1x1 .f32) (xs2 : Vec F S1x128 .f32) : FVec F S1x128 .f32 :=
  k0_pay1 (k0_pay20 (feats x0 x1 x2 x3 x4 x5 x6 x7 x8) (hidden x0 x1 x2 x3 x4 x5 x6 x7 x8 x9) (k0_pay14 x10) x11 x12 xs0 xs0 xs2)

/-- The class scores the first head reads off the quotient of the two sums. -/
def headLogits (acc : Vec F S1x128 .f32) (l : Vec F S1x1 .f32) (x13 : Vec F S128x128 .f32) (x14 : Vec F S128 .f32) (x15 : Vec F S128x2 .f32) (x16 : Vec F S2 .f32) : FVec F S1x1x2 .f32 :=
  k0_pay5 acc l x13 x14 x15 x16

/-- The risk the second head reads off the quotient of the two sums. -/
def headRisk (acc : Vec F S1x128 .f32) (l : Vec F S1x1 .f32) (x17 : Vec F S128x64 .f32) (x18 : Vec F S64 .f32) (x19 : Vec F S64x1 .f32) (x20 : Vec F S1 .f32) : FVec F S1x1x1 .f32 :=
  k0_pay3 (k0_pay6 acc l x17 x18 x19) x20

end Cert.Mil.KStep

end
-- ==== Proof.MilPieces.lean ====
/-
  What the kernel body leaves behind at a grid point, case by case.

  A bag's first tile resets the three running quantities to −∞, 0 and 0 before folding its block in; a middle tile
  folds its block into what the tile before left; the last tile does the same and then lets the two heads read the
  class scores and the risk off the new sums.  In every case the body's last store into a buffer covers it whole,
  so what the buffer holds afterwards is that store's value: the tile-step terms of the block and of the three
  quantities the point started from.  A load of a buffer the body has just stored whole reads the stored value.
-/
import proofs.«160597_j5995774345772_2_alg».proof.Proof.PatchedKernelIdealFrame
import proofs.«160597_j5995774345772_2_alg».proof.Proof.MilKStep
import Idealize.ShloMosaic.Lib.Pipeline.Value
import Idealize.ShloMosaic.Lib.Tactic

set_option maxRecDepth 16384

noncomputable section

namespace Cert.Mil.Pieces

open Idealize.ShloMosaic Idealize.ShloMosaic.TcCoe Idealize.SL.Sem
open Cert.KernelIdeal Cert.KernelIdeal.Gen Cert.KernelIdeal.GenP Cert.Mil.KStep

variable {F : FTy → Type} [FloatOps F] [Named F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A bag's first tile leaves the maximum of −∞ and the block's scores. -/
theorem first_max (c : Dev nD) (i : grid0.Coords) (arg2 : Memref sig .tc .vmem S1x5000x256 .f32) (harg2 : arg2.IsWhole) (arg3 : Memref sig .tc .vmem S256x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x128 .f32) (harg11 : arg11.IsWhole) (arg12 : Memref sig .tc .vmem S128 .f32) (harg12 : arg12.IsWhole) (arg13 : Memref sig .tc .vmem S1x128 .f32) (harg13 : arg13.IsWhole) (arg14 : Memref sig .tc .vmem S1 .f32) (harg14 : arg14.IsWhole) (arg15 : Memref sig .tc .vmem S128x128 .f32) (harg15 : arg15.IsWhole) (arg16 : Memref sig .tc .vmem S128 .f32) (harg16 : arg16.IsWhole) (arg17 : Memref sig .tc .vmem S128x2 .f32) (harg17 : arg17.IsWhole) (arg18 : Memref sig .tc .vmem S2 .f32) (harg18 : arg18.IsWhole) (arg19 : Memref sig .tc .vmem S128x64 .f32) (harg19 : arg19.IsWhole) (arg20 : Memref sig .tc .vmem S64 .f32) (harg20 : arg20.IsWhole) (arg21 : Memref sig .tc .vmem S64x1 .f32) (harg21 : arg21.IsWhole) (arg22 : Memref sig .tc .vmem S1 .f32) (harg22 : arg22.IsWhole) (arg23 : Memref sig .tc .vmem S1x1x2 .f32) (harg23 : arg23.IsWhole) (arg24 : Memref sig .tc .vmem S1x1x1 .f32) (harg24 : arg24.IsWhole) (arg25 : Memref sig .tc .vmem S1x1 .f32) (harg25 : arg25.IsWhole) (arg26 : Memref sig .tc .vmem S1x1 .f32) (harg26 : arg26.IsWhole) (arg27 : Memref sig .tc .vmem S1x128 .f32) (harg27 : arg27.IsWhole) (hc0 : cond0_0 i) (hc1 : ¬cond0_1 i) (x0 : Vec F S1x5000x256 .f32) (x1 : Vec F S256x128 .f32) (x2 : Vec F S128 .f32) (x3 : Vec F S128 .f32) (x4 : Vec F S128 .f32) (x5 : Vec F S128x128 .f32) (x6 : Vec F S128 .f32) (x7 : Vec F S128 .f32) (x8 : Vec F S128 .f32) (x9 : Vec F S128x128 .f32) (x10 : Vec F S128 .f32) (x11 : Vec F S1x128 .f32) (x12 : Vec F S1 .f32) (x13 : Vec F S128x128 .f32) (x14 : Vec F S128 .f32) (x15 : Vec F S128x2 .f32) (x16 : Vec F S2 .f32) (x17 : Vec F S128x64 .f32) (x18 : Vec F S64 .f32) (x19 : Vec F S64x1 .f32) (x20 : Vec F S1 .f32)  :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20  = tileMax x0 x1 x2 x3 x4 x5 x6 x7 x8 x9 x10 x11 x12 k0_pay7 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 )]
  unfold kernelRun0_A
  dsimp only
  sl_unfold_words
  first
    | rw [View.canon_unit_zero hz2]
    | rw [View.canon_unit_zero hz3]
    | rw [View.canon_cons_unit_zero (S := S1x1) hz2]
    | rw [View.canon_cons_unit_zero (S := S1x128) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S1x5000x256) hz3, View.ld_unit_zero (S := S256x128) hz2, View.ld_unit_zero (S := S128) hz1, View.ld_unit_zero (S := S128x128) hz2, View.ld_unit_zero (S := S1x128) hz2, View.ld_unit_zero (S := S1) hz1, View.ld_unit_zero (S := S128x2) hz2, View.ld_unit_zero (S := S2) hz1, View.ld_unit_zero (S := S128x64) hz2, View.ld_unit_zero (S := S64) hz1, View.ld_unit_zero (S := S64x1) hz2, View.ld_unit_zero (S := S1x1x2) hz3, View.ld_unit_zero (S := S1x1x1) hz3, View.ld_unit_zero (S := S1x1) hz2, View.readCov_unit_zero (S := S1x1) _ hz2, View.readCov_unit_zero (S := S1x128) _ hz2]
  rfl

/-- A bag's first tile leaves the block's normaliser, started from zero. -/
theorem first_norm (c : Dev nD) (i : grid0.Coords) (arg2 : Memref sig .tc .vmem S1x5000x256 .f32) (harg2 : arg2.IsWhole) (arg3 : Memref sig .tc .vmem S256x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x128 .f32) (harg11 : arg11.IsWhole) (arg12 : Memref sig .tc .vmem S128 .f32) (harg12 : arg12.IsWhole) (arg13 : Memref sig .tc .vmem S1x128 .f32) (harg13 : arg13.IsWhole) (arg14 : Memref sig .tc .vmem S1 .f32) (harg14 : arg14.IsWhole) (arg15 : Memref sig .tc .vmem S128x128 .f32) (harg15 : arg15.IsWhole) (arg16 : Memref sig .tc .vmem S128 .f32) (harg16 : arg16.IsWhole) (arg17 : Memref sig .tc .vmem S128x2 .f32) (harg17 : arg17.IsWhole) (arg18 : Memref sig .tc .vmem S2 .f32) (harg18 : arg18.IsWhole) (arg19 : Memref sig .tc .vmem S128x64 .f32) (harg19 : arg19.IsWhole) (arg20 : Memref sig .tc .vmem S64 .f32) (harg20 : arg20.IsWhole) (arg21 : Memref sig .tc .vmem S64x1 .f32) (harg21 : arg21.IsWhole) (arg22 : Memref sig .tc .vmem S1 .f32) (harg22 : arg22.IsWhole) (arg23 : Memref sig .tc .vmem S1x1x2 .f32) (harg23 : arg23.IsWhole) (arg24 : Memref sig .tc .vmem S1x1x1 .f32) (harg24 : arg24.IsWhole) (arg25 : Memref sig .tc .vmem S1x1 .f32) (harg25 : arg25.IsWhole) (arg26 : Memref sig .tc .vmem S1x1 .f32) (harg26 : arg26.IsWhole) (arg27 : Memref sig .tc .vmem S1x128 .f32) (harg27 : arg27.IsWhole) (hc0 : cond0_0 i) (hc1 : ¬cond0_1 i) (x0 : Vec F S1x5000x256 .f32) (x1 : Vec F S256x128 .f32) (x2 : Vec F S128 .f32) (x3 : Vec F S128 .f32) (x4 : Vec F S128 .f32) (x5 : Vec F S128x128 .f32) (x6 : Vec F S128 .f32) (x7 : Vec F S128 .f32) (x8 : Vec F S128 .f32) (x9 : Vec F S128x128 .f32) (x10 : Vec F S128 .f32) (x11 : Vec F S1x128 .f32) (x12 : Vec F S1 .f32) (x13 : Vec F S128x128 .f32) (x14 : Vec F S128 .f32) (x15 : Vec F S128x2 .f32) (x16 : Vec F S2 .f32) (x17 : Vec F S128x64 .f32) (x18 : Vec F S64 .f32) (x19 : Vec F S64x1 .f32) (x20 : Vec F S1 .f32)  :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20  = tileNorm x0 x1 x2 x3 x4 x5 x6 x7 x8 x9 x10 x11 x12 k0_pay7 k0_pay8 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 )]
  unfold kernelRun0_A
  dsimp only
  sl_unfold_words
  first
    | rw [View.canon_unit_zero hz2]
    | rw [View.canon_unit_zero hz3]
    | rw [View.canon_cons_unit_zero (S := S1x1) hz2]
    | rw [View.canon_cons_unit_zero (S := S1x128) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S1x5000x256) hz3, View.ld_unit_zero (S := S256x128) hz2, View.ld_unit_zero (S := S128) hz1, View.ld_unit_zero (S := S128x128) hz2, View.ld_unit_zero (S := S1x128) hz2, View.ld_unit_zero (S := S1) hz1, View.ld_unit_zero (S := S128x2) hz2, View.ld_unit_zero (S := S2) hz1, View.ld_unit_zero (S := S128x64) hz2, View.ld_unit_zero (S := S64) hz1, View.ld_unit_zero (S := S64x1) hz2, View.ld_unit_zero (S := S1x1x2) hz3, View.ld_unit_zero (S := S1x1x1) hz3, View.ld_unit_zero (S := S1x1) hz2, View.readCov_unit_zero (S := S1x1) _ hz2, View.readCov_unit_zero (S := S1x128) _ hz2]
  rfl

/-- A bag's first tile leaves the block's weighted sum, started from zero. -/
theorem first_acc (c : Dev nD) (i : grid0.Coords) (arg2 : Memref sig .tc .vmem S1x5000x256 .f32) (harg2 : arg2.IsWhole) (arg3 : Memref sig .tc .vmem S256x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x128 .f32) (harg11 : arg11.IsWhole) (arg12 : Memref sig .tc .vmem S128 .f32) (harg12 : arg12.IsWhole) (arg13 : Memref sig .tc .vmem S1x128 .f32) (harg13 : arg13.IsWhole) (arg14 : Memref sig .tc .vmem S1 .f32) (harg14 : arg14.IsWhole) (arg15 : Memref sig .tc .vmem S128x128 .f32) (harg15 : arg15.IsWhole) (arg16 : Memref sig .tc .vmem S128 .f32) (harg16 : arg16.IsWhole) (arg17 : Memref sig .tc .vmem S128x2 .f32) (harg17 : arg17.IsWhole) (arg18 : Memref sig .tc .vmem S2 .f32) (harg18 : arg18.IsWhole) (arg19 : Memref sig .tc .vmem S128x64 .f32) (harg19 : arg19.IsWhole) (arg20 : Memref sig .tc .vmem S64 .f32) (harg20 : arg20.IsWhole) (arg21 : Memref sig .tc .vmem S64x1 .f32) (harg21 : arg21.IsWhole) (arg22 : Memref sig .tc .vmem S1 .f32) (harg22 : arg22.IsWhole) (arg23 : Memref sig .tc .vmem S1x1x2 .f32) (harg23 : arg23.IsWhole) (arg24 : Memref sig .tc .vmem S1x1x1 .f32) (harg24 : arg24.IsWhole) (arg25 : Memref sig .tc .vmem S1x1 .f32) (harg25 : arg25.IsWhole) (arg26 : Memref sig .tc .vmem S1x1 .f32) (harg26 : arg26.IsWhole) (arg27 : Memref sig .tc .vmem S1x128 .f32) (harg27 : arg27.IsWhole) (hc0 : cond0_0 i) (hc1 : ¬cond0_1 i) (x0 : Vec F S1x5000x256 .f32) (x1 : Vec F S256x128 .f32) (x2 : Vec F S128 .f32) (x3 : Vec F S128 .f32) (x4 : Vec F S128 .f32) (x5 : Vec F S128x128 .f32) (x6 : Vec F S128 .f32) (x7 : Vec F S128 .f32) (x8 : Vec F S128 .f32) (x9 : Vec F S128x128 .f32) (x10 : Vec F S128 .f32) (x11 : Vec F S1x128 .f32) (x12 : Vec F S1 .f32) (x13 : Vec F S128x128 .f32) (x14 : Vec F S128 .f32) (x15 : Vec F S128x2 .f32) (x16 : Vec F S2 .f32) (x17 : Vec F S128x64 .f32) (x18 : Vec F S64 .f32) (x19 : Vec F S64x1 .f32) (x20 : Vec F S1 .f32)  :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20  = tileAcc x0 x1 x2 x3 x4 x5 x6 x7 x8 x9 x10 x11 x12 k0_pay7 k0_pay9 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 )]
  unfold kernelRun0_A
  dsimp only
  sl_unfold_words
  first
    | rw [View.canon_unit_zero hz2]
    | rw [View.canon_unit_zero hz3]
    | rw [View.canon_cons_unit_zero (S := S1x1) hz2]
    | rw [View.canon_cons_unit_zero (S := S1x128) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S1x5000x256) hz3, View.ld_unit_zero (S := S256x128) hz2, View.ld_unit_zero (S := S128) hz1, View.ld_unit_zero (S := S128x128) hz2, View.ld_unit_zero (S := S1x128) hz2, View.ld_unit_zero (S := S1) hz1, View.ld_unit_zero (S := S128x2) hz2, View.ld_unit_zero (S := S2) hz1, View.ld_unit_zero (S := S128x64) hz2, View.ld_unit_zero (S := S64) hz1, View.ld_unit_zero (S := S64x1) hz2, View.ld_unit_zero (S := S1x1x2) hz3, View.ld_unit_zero (S := S1x1x1) hz3, View.ld_unit_zero (S := S1x1) hz2, View.readCov_unit_zero (S := S1x1) _ hz2, View.readCov_unit_zero (S := S1x128) _ hz2]
  rfl

/-- A middle tile folds its block into the running maximum. -/
theorem mid_max (c : Dev nD) (i : grid0.Coords) (arg2 : Memref sig .tc .vmem S1x5000x256 .f32) (harg2 : arg2.IsWhole) (arg3 : Memref sig .tc .vmem S256x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x128 .f32) (harg11 : arg11.IsWhole) (arg12 : Memref sig .tc .vmem S128 .f32) (harg12 : arg12.IsWhole) (arg13 : Memref sig .tc .vmem S1x128 .f32) (harg13 : arg13.IsWhole) (arg14 : Memref sig .tc .vmem S1 .f32) (harg14 : arg14.IsWhole) (arg15 : Memref sig .tc .vmem S128x128 .f32) (harg15 : arg15.IsWhole) (arg16 : Memref sig .tc .vmem S128 .f32) (harg16 : arg16.IsWhole) (arg17 : Memref sig .tc .vmem S128x2 .f32) (harg17 : arg17.IsWhole) (arg18 : Memref sig .tc .vmem S2 .f32) (harg18 : arg18.IsWhole) (arg19 : Memref sig .tc .vmem S128x64 .f32) (harg19 : arg19.IsWhole) (arg20 : Memref sig .tc .vmem S64 .f32) (harg20 : arg20.IsWhole) (arg21 : Memref sig .tc .vmem S64x1 .f32) (harg21 : arg21.IsWhole) (arg22 : Memref sig .tc .vmem S1 .f32) (harg22 : arg22.IsWhole) (arg23 : Memref sig .tc .vmem S1x1x2 .f32) (harg23 : arg23.IsWhole) (arg24 : Memref sig .tc .vmem S1x1x1 .f32) (harg24 : arg24.IsWhole) (arg25 : Memref sig .tc .vmem S1x1 .f32) (harg25 : arg25.IsWhole) (arg26 : Memref sig .tc .vmem S1x1 .f32) (harg26 : arg26.IsWhole) (arg27 : Memref sig .tc .vmem S1x128 .f32) (harg27 : arg27.IsWhole) (hc0 : ¬cond0_0 i) (hc1 : ¬cond0_1 i) (x0 : Vec F S1x5000x256 .f32) (x1 : Vec F S256x128 .f32) (x2 : Vec F S128 .f32) (x3 : Vec F S128 .f32) (x4 : Vec F S128 .f32) (x5 : Vec F S128x128 .f32) (x6 : Vec F S128 .f32) (x7 : Vec F S128 .f32) (x8 : Vec F S128 .f32) (x9 : Vec F S128x128 .f32) (x10 : Vec F S128 .f32) (x11 : Vec F S1x128 .f32) (x12 : Vec F S1 .f32) (x13 : Vec F S128x128 .f32) (x14 : Vec F S128 .f32) (x15 : Vec F S128x2 .f32) (x16 : Vec F S2 .f32) (x17 : Vec F S128x64 .f32) (x18 : Vec F S64 .f32) (x19 : Vec F S64x1 .f32) (x20 : Vec F S1 .f32) (xs0 : Vec F S1x1 .f32) (xs1 : Vec F S1x1 .f32) (xs2 : Vec F S1x128 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xs0 xs1 xs2 = tileMax x0 x1 x2 x3 x4 x5 x6 x7 x8 x9 x10 x11 x12 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xs0 xs1 xs2)]
  unfold kernelRun0_B
  dsimp only
  sl_unfold_words
  first
    | rw [View.canon_unit_zero hz2]
    | rw [View.canon_unit_zero hz3]
    | rw [View.canon_cons_unit_zero (S := S1x1) hz2]
    | rw [View.canon_cons_unit_zero (S := S1x128) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S1x5000x256) hz3, View.ld_unit_zero (S := S256x128) hz2, View.ld_unit_zero (S := S128) hz1, View.ld_unit_zero (S := S128x128) hz2, View.ld_unit_zero (S := S1x128) hz2, View.ld_unit_zero (S := S1) hz1, View.ld_unit_zero (S := S128x2) hz2, View.ld_unit_zero (S := S2) hz1, View.ld_unit_zero (S := S128x64) hz2, View.ld_unit_zero (S := S64) hz1, View.ld_unit_zero (S := S64x1) hz2, View.ld_unit_zero (S := S1x1x2) hz3, View.ld_unit_zero (S := S1x1x1) hz3, View.ld_unit_zero (S := S1x1) hz2, View.readCov_unit_zero (S := S1x1) _ hz2, View.readCov_unit_zero (S := S1x128) _ hz2]
  rfl

/-- A middle tile folds its block into the running normaliser. -/
theorem mid_norm (c : Dev nD) (i : grid0.Coords) (arg2 : Memref sig .tc .vmem S1x5000x256 .f32) (harg2 : arg2.IsWhole) (arg3 : Memref sig .tc .vmem S256x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x128 .f32) (harg11 : arg11.IsWhole) (arg12 : Memref sig .tc .vmem S128 .f32) (harg12 : arg12.IsWhole) (arg13 : Memref sig .tc .vmem S1x128 .f32) (harg13 : arg13.IsWhole) (arg14 : Memref sig .tc .vmem S1 .f32) (harg14 : arg14.IsWhole) (arg15 : Memref sig .tc .vmem S128x128 .f32) (harg15 : arg15.IsWhole) (arg16 : Memref sig .tc .vmem S128 .f32) (harg16 : arg16.IsWhole) (arg17 : Memref sig .tc .vmem S128x2 .f32) (harg17 : arg17.IsWhole) (arg18 : Memref sig .tc .vmem S2 .f32) (harg18 : arg18.IsWhole) (arg19 : Memref sig .tc .vmem S128x64 .f32) (harg19 : arg19.IsWhole) (arg20 : Memref sig .tc .vmem S64 .f32) (harg20 : arg20.IsWhole) (arg21 : Memref sig .tc .vmem S64x1 .f32) (harg21 : arg21.IsWhole) (arg22 : Memref sig .tc .vmem S1 .f32) (harg22 : arg22.IsWhole) (arg23 : Memref sig .tc .vmem S1x1x2 .f32) (harg23 : arg23.IsWhole) (arg24 : Memref sig .tc .vmem S1x1x1 .f32) (harg24 : arg24.IsWhole) (arg25 : Memref sig .tc .vmem S1x1 .f32) (harg25 : arg25.IsWhole) (arg26 : Memref sig .tc .vmem S1x1 .f32) (harg26 : arg26.IsWhole) (arg27 : Memref sig .tc .vmem S1x128 .f32) (harg27 : arg27.IsWhole) (hc0 : ¬cond0_0 i) (hc1 : ¬cond0_1 i) (x0 : Vec F S1x5000x256 .f32) (x1 : Vec F S256x128 .f32) (x2 : Vec F S128 .f32) (x3 : Vec F S128 .f32) (x4 : Vec F S128 .f32) (x5 : Vec F S128x128 .f32) (x6 : Vec F S128 .f32) (x7 : Vec F S128 .f32) (x8 : Vec F S128 .f32) (x9 : Vec F S128x128 .f32) (x10 : Vec F S128 .f32) (x11 : Vec F S1x128 .f32) (x12 : Vec F S1 .f32) (x13 : Vec F S128x128 .f32) (x14 : Vec F S128 .f32) (x15 : Vec F S128x2 .f32) (x16 : Vec F S2 .f32) (x17 : Vec F S128x64 .f32) (x18 : Vec F S64 .f32) (x19 : Vec F S64x1 .f32) (x20 : Vec F S1 .f32) (xs0 : Vec F S1x1 .f32) (xs1 : Vec F S1x1 .f32) (xs2 : Vec F S1x128 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xs0 xs1 xs2 = tileNorm x0 x1 x2 x3 x4 x5 x6 x7 x8 x9 x10 x11 x12 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xs0 xs1 xs2)]
  unfold kernelRun0_B
  dsimp only
  sl_unfold_words
  first
    | rw [View.canon_unit_zero hz2]
    | rw [View.canon_unit_zero hz3]
    | rw [View.canon_cons_unit_zero (S := S1x1) hz2]
    | rw [View.canon_cons_unit_zero (S := S1x128) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S1x5000x256) hz3, View.ld_unit_zero (S := S256x128) hz2, View.ld_unit_zero (S := S128) hz1, View.ld_unit_zero (S := S128x128) hz2, View.ld_unit_zero (S := S1x128) hz2, View.ld_unit_zero (S := S1) hz1, View.ld_unit_zero (S := S128x2) hz2, View.ld_unit_zero (S := S2) hz1, View.ld_unit_zero (S := S128x64) hz2, View.ld_unit_zero (S := S64) hz1, View.ld_unit_zero (S := S64x1) hz2, View.ld_unit_zero (S := S1x1x2) hz3, View.ld_unit_zero (S := S1x1x1) hz3, View.ld_unit_zero (S := S1x1) hz2, View.readCov_unit_zero (S := S1x1) _ hz2, View.readCov_unit_zero (S := S1x128) _ hz2]
  rfl

/-- A middle tile folds its block into the running weighted sum. -/
theorem mid_acc (c : Dev nD) (i : grid0.Coords) (arg2 : Memref sig .tc .vmem S1x5000x256 .f32) (harg2 : arg2.IsWhole) (arg3 : Memref sig .tc .vmem S256x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x128 .f32) (harg11 : arg11.IsWhole) (arg12 : Memref sig .tc .vmem S128 .f32) (harg12 : arg12.IsWhole) (arg13 : Memref sig .tc .vmem S1x128 .f32) (harg13 : arg13.IsWhole) (arg14 : Memref sig .tc .vmem S1 .f32) (harg14 : arg14.IsWhole) (arg15 : Memref sig .tc .vmem S128x128 .f32) (harg15 : arg15.IsWhole) (arg16 : Memref sig .tc .vmem S128 .f32) (harg16 : arg16.IsWhole) (arg17 : Memref sig .tc .vmem S128x2 .f32) (harg17 : arg17.IsWhole) (arg18 : Memref sig .tc .vmem S2 .f32) (harg18 : arg18.IsWhole) (arg19 : Memref sig .tc .vmem S128x64 .f32) (harg19 : arg19.IsWhole) (arg20 : Memref sig .tc .vmem S64 .f32) (harg20 : arg20.IsWhole) (arg21 : Memref sig .tc .vmem S64x1 .f32) (harg21 : arg21.IsWhole) (arg22 : Memref sig .tc .vmem S1 .f32) (harg22 : arg22.IsWhole) (arg23 : Memref sig .tc .vmem S1x1x2 .f32) (harg23 : arg23.IsWhole) (arg24 : Memref sig .tc .vmem S1x1x1 .f32) (harg24 : arg24.IsWhole) (arg25 : Memref sig .tc .vmem S1x1 .f32) (harg25 : arg25.IsWhole) (arg26 : Memref sig .tc .vmem S1x1 .f32) (harg26 : arg26.IsWhole) (arg27 : Memref sig .tc .vmem S1x128 .f32) (harg27 : arg27.IsWhole) (hc0 : ¬cond0_0 i) (hc1 : ¬cond0_1 i) (x0 : Vec F S1x5000x256 .f32) (x1 : Vec F S256x128 .f32) (x2 : Vec F S128 .f32) (x3 : Vec F S128 .f32) (x4 : Vec F S128 .f32) (x5 : Vec F S128x128 .f32) (x6 : Vec F S128 .f32) (x7 : Vec F S128 .f32) (x8 : Vec F S128 .f32) (x9 : Vec F S128x128 .f32) (x10 : Vec F S128 .f32) (x11 : Vec F S1x128 .f32) (x12 : Vec F S1 .f32) (x13 : Vec F S128x128 .f32) (x14 : Vec F S128 .f32) (x15 : Vec F S128x2 .f32) (x16 : Vec F S2 .f32) (x17 : Vec F S128x64 .f32) (x18 : Vec F S64 .f32) (x19 : Vec F S64x1 .f32) (x20 : Vec F S1 .f32) (xs0 : Vec F S1x1 .f32) (xs1 : Vec F S1x1 .f32) (xs2 : Vec F S1x128 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xs0 xs1 xs2 = tileAcc x0 x1 x2 x3 x4 x5 x6 x7 x8 x9 x10 x11 x12 xs0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xs0 xs1 xs2)]
  unfold kernelRun0_B
  dsimp only
  sl_unfold_words
  first
    | rw [View.canon_unit_zero hz2]
    | rw [View.canon_unit_zero hz3]
    | rw [View.canon_cons_unit_zero (S := S1x1) hz2]
    | rw [View.canon_cons_unit_zero (S := S1x128) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S1x5000x256) hz3, View.ld_unit_zero (S := S256x128) hz2, View.ld_unit_zero (S := S128) hz1, View.ld_unit_zero (S := S128x128) hz2, View.ld_unit_zero (S := S1x128) hz2, View.ld_unit_zero (S := S1) hz1, View.ld_unit_zero (S := S128x2) hz2, View.ld_unit_zero (S := S2) hz1, View.ld_unit_zero (S := S128x64) hz2, View.ld_unit_zero (S := S64) hz1, View.ld_unit_zero (S := S64x1) hz2, View.ld_unit_zero (S := S1x1x2) hz3, View.ld_unit_zero (S := S1x1x1) hz3, View.ld_unit_zero (S := S1x1) hz2, View.readCov_unit_zero (S := S1x1) _ hz2, View.readCov_unit_zero (S := S1x128) _ hz2]
  rfl

/-- The last tile folds its block into the running maximum. -/
theorem last_max (c : Dev nD) (i : grid0.Coords) (arg2 : Memref sig .tc .vmem S1x5000x256 .f32) (harg2 : arg2.IsWhole) (arg3 : Memref sig .tc .vmem S256x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x128 .f32) (harg11 : arg11.IsWhole) (arg12 : Memref sig .tc .vmem S128 .f32) (harg12 : arg12.IsWhole) (arg13 : Memref sig .tc .vmem S1x128 .f32) (harg13 : arg13.IsWhole) (arg14 : Memref sig .tc .vmem S1 .f32) (harg14 : arg14.IsWhole) (arg15 : Memref sig .tc .vmem S128x128 .f32) (harg15 : arg15.IsWhole) (arg16 : Memref sig .tc .vmem S128 .f32) (harg16 : arg16.IsWhole) (arg17 : Memref sig .tc .vmem S128x2 .f32) (harg17 : arg17.IsWhole) (arg18 : Memref sig .tc .vmem S2 .f32) (harg18 : arg18.IsWhole) (arg19 : Memref sig .tc .vmem S128x64 .f32) (harg19 : arg19.IsWhole) (arg20 : Memref sig .tc .vmem S64 .f32) (harg20 : arg20.IsWhole) (arg21 : Memref sig .tc .vmem S64x1 .f32) (harg21 : arg21.IsWhole) (arg22 : Memref sig .tc .vmem S1 .f32) (harg22 : arg22.IsWhole) (arg23 : Memref sig .tc .vmem S1x1x2 .f32) (harg23 : arg23.IsWhole) (arg24 : Memref sig .tc .vmem S1x1x1 .f32) (harg24 : arg24.IsWhole) (arg25 : Memref sig .tc .vmem S1x1 .f32) (harg25 : arg25.IsWhole) (arg26 : Memref sig .tc .vmem S1x1 .f32) (harg26 : arg26.IsWhole) (arg27 : Memref sig .tc .vmem S1x128 .f32) (harg27 : arg27.IsWhole) (hc0 : ¬cond0_0 i) (hc1 : cond0_1 i) (x0 : Vec F S1x5000x256 .f32) (x1 : Vec F S256x128 .f32) (x2 : Vec F S128 .f32) (x3 : Vec F S128 .f32) (x4 : Vec F S128 .f32) (x5 : Vec F S128x128 .f32) (x6 : Vec F S128 .f32) (x7 : Vec F S128 .f32) (x8 : Vec F S128 .f32) (x9 : Vec F S128x128 .f32) (x10 : Vec F S128 .f32) (x11 : Vec F S1x128 .f32) (x12 : Vec F S1 .f32) (x13 : Vec F S128x128 .f32) (x14 : Vec F S128 .f32) (x15 : Vec F S128x2 .f32) (x16 : Vec F S2 .f32) (x17 : Vec F S128x64 .f32) (x18 : Vec F S64 .f32) (x19 : Vec F S64x1 .f32) (x20 : Vec F S1 .f32) (xs0 : Vec F S1x1 .f32) (xs1 : Vec F S1x1 .f32) (xs2 : Vec F S1x128 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xs0 xs1 xs2 = tileMax x0 x1 x2 x3 x4 x5 x6 x7 x8 x9 x10 x11 x12 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xs0 xs1 xs2)]
  unfold kernelRun0_C
  dsimp only
  sl_unfold_words
  first
    | rw [View.canon_unit_zero hz2]
    | rw [View.canon_unit_zero hz3]
    | rw [View.canon_cons_unit_zero (S := S1x1) hz2]
    | rw [View.canon_cons_unit_zero (S := S1x128) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S1x5000x256) hz3, View.ld_unit_zero (S := S256x128) hz2, View.ld_unit_zero (S := S128) hz1, View.ld_unit_zero (S := S128x128) hz2, View.ld_unit_zero (S := S1x128) hz2, View.ld_unit_zero (S := S1) hz1, View.ld_unit_zero (S := S128x2) hz2, View.ld_unit_zero (S := S2) hz1, View.ld_unit_zero (S := S128x64) hz2, View.ld_unit_zero (S := S64) hz1, View.ld_unit_zero (S := S64x1) hz2, View.ld_unit_zero (S := S1x1x2) hz3, View.ld_unit_zero (S := S1x1x1) hz3, View.ld_unit_zero (S := S1x1) hz2, View.readCov_unit_zero (S := S1x1) _ hz2, View.readCov_unit_zero (S := S1x128) _ hz2]
  rfl

/-- The last tile folds its block into the running normaliser. -/
theorem last_norm (c : Dev nD) (i : grid0.Coords) (arg2 : Memref sig .tc .vmem S1x5000x256 .f32) (harg2 : arg2.IsWhole) (arg3 : Memref sig .tc .vmem S256x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x128 .f32) (harg11 : arg11.IsWhole) (arg12 : Memref sig .tc .vmem S128 .f32) (harg12 : arg12.IsWhole) (arg13 : Memref sig .tc .vmem S1x128 .f32) (harg13 : arg13.IsWhole) (arg14 : Memref sig .tc .vmem S1 .f32) (harg14 : arg14.IsWhole) (arg15 : Memref sig .tc .vmem S128x128 .f32) (harg15 : arg15.IsWhole) (arg16 : Memref sig .tc .vmem S128 .f32) (harg16 : arg16.IsWhole) (arg17 : Memref sig .tc .vmem S128x2 .f32) (harg17 : arg17.IsWhole) (arg18 : Memref sig .tc .vmem S2 .f32) (harg18 : arg18.IsWhole) (arg19 : Memref sig .tc .vmem S128x64 .f32) (harg19 : arg19.IsWhole) (arg20 : Memref sig .tc .vmem S64 .f32) (harg20 : arg20.IsWhole) (arg21 : Memref sig .tc .vmem S64x1 .f32) (harg21 : arg21.IsWhole) (arg22 : Memref sig .tc .vmem S1 .f32) (harg22 : arg22.IsWhole) (arg23 : Memref sig .tc .vmem S1x1x2 .f32) (harg23 : arg23.IsWhole) (arg24 : Memref sig .tc .vmem S1x1x1 .f32) (harg24 : arg24.IsWhole) (arg25 : Memref sig .tc .vmem S1x1 .f32) (harg25 : arg25.IsWhole) (arg26 : Memref sig .tc .vmem S1x1 .f32) (harg26 : arg26.IsWhole) (arg27 : Memref sig .tc .vmem S1x128 .f32) (harg27 : arg27.IsWhole) (hc0 : ¬cond0_0 i) (hc1 : cond0_1 i) (x0 : Vec F S1x5000x256 .f32) (x1 : Vec F S256x128 .f32) (x2 : Vec F S128 .f32) (x3 : Vec F S128 .f32) (x4 : Vec F S128 .f32) (x5 : Vec F S128x128 .f32) (x6 : Vec F S128 .f32) (x7 : Vec F S128 .f32) (x8 : Vec F S128 .f32) (x9 : Vec F S128x128 .f32) (x10 : Vec F S128 .f32) (x11 : Vec F S1x128 .f32) (x12 : Vec F S1 .f32) (x13 : Vec F S128x128 .f32) (x14 : Vec F S128 .f32) (x15 : Vec F S128x2 .f32) (x16 : Vec F S2 .f32) (x17 : Vec F S128x64 .f32) (x18 : Vec F S64 .f32) (x19 : Vec F S64x1 .f32) (x20 : Vec F S1 .f32) (xs0 : Vec F S1x1 .f32) (xs1 : Vec F S1x1 .f32) (xs2 : Vec F S1x128 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xs0 xs1 xs2 = tileNorm x0 x1 x2 x3 x4 x5 x6 x7 x8 x9 x10 x11 x12 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xs0 xs1 xs2)]
  unfold kernelRun0_C
  dsimp only
  sl_unfold_words
  first
    | rw [View.canon_unit_zero hz2]
    | rw [View.canon_unit_zero hz3]
    | rw [View.canon_cons_unit_zero (S := S1x1) hz2]
    | rw [View.canon_cons_unit_zero (S := S1x128) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S1x5000x256) hz3, View.ld_unit_zero (S := S256x128) hz2, View.ld_unit_zero (S := S128) hz1, View.ld_unit_zero (S := S128x128) hz2, View.ld_unit_zero (S := S1x128) hz2, View.ld_unit_zero (S := S1) hz1, View.ld_unit_zero (S := S128x2) hz2, View.ld_unit_zero (S := S2) hz1, View.ld_unit_zero (S := S128x64) hz2, View.ld_unit_zero (S := S64) hz1, View.ld_unit_zero (S := S64x1) hz2, View.ld_unit_zero (S := S1x1x2) hz3, View.ld_unit_zero (S := S1x1x1) hz3, View.ld_unit_zero (S := S1x1) hz2, View.readCov_unit_zero (S := S1x1) _ hz2, View.readCov_unit_zero (S := S1x128) _ hz2]
  rfl

/-- The last tile folds its block into the running weighted sum. -/
theorem last_acc (c : Dev nD) (i : grid0.Coords) (arg2 : Memref sig .tc .vmem S1x5000x256 .f32) (harg2 : arg2.IsWhole) (arg3 : Memref sig .tc .vmem S256x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x128 .f32) (harg11 : arg11.IsWhole) (arg12 : Memref sig .tc .vmem S128 .f32) (harg12 : arg12.IsWhole) (arg13 : Memref sig .tc .vmem S1x128 .f32) (harg13 : arg13.IsWhole) (arg14 : Memref sig .tc .vmem S1 .f32) (harg14 : arg14.IsWhole) (arg15 : Memref sig .tc .vmem S128x128 .f32) (harg15 : arg15.IsWhole) (arg16 : Memref sig .tc .vmem S128 .f32) (harg16 : arg16.IsWhole) (arg17 : Memref sig .tc .vmem S128x2 .f32) (harg17 : arg17.IsWhole) (arg18 : Memref sig .tc .vmem S2 .f32) (harg18 : arg18.IsWhole) (arg19 : Memref sig .tc .vmem S128x64 .f32) (harg19 : arg19.IsWhole) (arg20 : Memref sig .tc .vmem S64 .f32) (harg20 : arg20.IsWhole) (arg21 : Memref sig .tc .vmem S64x1 .f32) (harg21 : arg21.IsWhole) (arg22 : Memref sig .tc .vmem S1 .f32) (harg22 : arg22.IsWhole) (arg23 : Memref sig .tc .vmem S1x1x2 .f32) (harg23 : arg23.IsWhole) (arg24 : Memref sig .tc .vmem S1x1x1 .f32) (harg24 : arg24.IsWhole) (arg25 : Memref sig .tc .vmem S1x1 .f32) (harg25 : arg25.IsWhole) (arg26 : Memref sig .tc .vmem S1x1 .f32) (harg26 : arg26.IsWhole) (arg27 : Memref sig .tc .vmem S1x128 .f32) (harg27 : arg27.IsWhole) (hc0 : ¬cond0_0 i) (hc1 : cond0_1 i) (x0 : Vec F S1x5000x256 .f32) (x1 : Vec F S256x128 .f32) (x2 : Vec F S128 .f32) (x3 : Vec F S128 .f32) (x4 : Vec F S128 .f32) (x5 : Vec F S128x128 .f32) (x6 : Vec F S128 .f32) (x7 : Vec F S128 .f32) (x8 : Vec F S128 .f32) (x9 : Vec F S128x128 .f32) (x10 : Vec F S128 .f32) (x11 : Vec F S1x128 .f32) (x12 : Vec F S1 .f32) (x13 : Vec F S128x128 .f32) (x14 : Vec F S128 .f32) (x15 : Vec F S128x2 .f32) (x16 : Vec F S2 .f32) (x17 : Vec F S128x64 .f32) (x18 : Vec F S64 .f32) (x19 : Vec F S64x1 .f32) (x20 : Vec F S1 .f32) (xs0 : Vec F S1x1 .f32) (xs1 : Vec F S1x1 .f32) (xs2 : Vec F S1x128 .f32) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xs0 xs1 xs2 = tileAcc x0 x1 x2 x3 x4 x5 x6 x7 x8 x9 x10 x11 x12 xs0 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xs0 xs1 xs2)]
  unfold kernelRun0_C
  dsimp only
  sl_unfold_words
  first
    | rw [View.canon_unit_zero hz2]
    | rw [View.canon_unit_zero hz3]
    | rw [View.canon_cons_unit_zero (S := S1x1) hz2]
    | rw [View.canon_cons_unit_zero (S := S1x128) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S1x5000x256) hz3, View.ld_unit_zero (S := S256x128) hz2, View.ld_unit_zero (S := S128) hz1, View.ld_unit_zero (S := S128x128) hz2, View.ld_unit_zero (S := S1x128) hz2, View.ld_unit_zero (S := S1) hz1, View.ld_unit_zero (S := S128x2) hz2, View.ld_unit_zero (S := S2) hz1, View.ld_unit_zero (S := S128x64) hz2, View.ld_unit_zero (S := S64) hz1, View.ld_unit_zero (S := S64x1) hz2, View.ld_unit_zero (S := S1x1x2) hz3, View.ld_unit_zero (S := S1x1x1) hz3, View.ld_unit_zero (S := S1x1) hz2, View.readCov_unit_zero (S := S1x1) _ hz2, View.readCov_unit_zero (S := S1x128) _ hz2]
  rfl

/-- The last tile's first head reads the class scores off the new sums. -/
theorem last_logits (c : Dev nD) (i : grid0.Coords) (arg2 : Memref sig .tc .vmem S1x5000x256 .f32) (harg2 : arg2.IsWhole) (arg3 : Memref sig .tc .vmem S256x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x128 .f32) (harg11 : arg11.IsWhole) (arg12 : Memref sig .tc .vmem S128 .f32) (harg12 : arg12.IsWhole) (arg13 : Memref sig .tc .vmem S1x128 .f32) (harg13 : arg13.IsWhole) (arg14 : Memref sig .tc .vmem S1 .f32) (harg14 : arg14.IsWhole) (arg15 : Memref sig .tc .vmem S128x128 .f32) (harg15 : arg15.IsWhole) (arg16 : Memref sig .tc .vmem S128 .f32) (harg16 : arg16.IsWhole) (arg17 : Memref sig .tc .vmem S128x2 .f32) (harg17 : arg17.IsWhole) (arg18 : Memref sig .tc .vmem S2 .f32) (harg18 : arg18.IsWhole) (arg19 : Memref sig .tc .vmem S128x64 .f32) (harg19 : arg19.IsWhole) (arg20 : Memref sig .tc .vmem S64 .f32) (harg20 : arg20.IsWhole) (arg21 : Memref sig .tc .vmem S64x1 .f32) (harg21 : arg21.IsWhole) (arg22 : Memref sig .tc .vmem S1 .f32) (harg22 : arg22.IsWhole) (arg23 : Memref sig .tc .vmem S1x1x2 .f32) (harg23 : arg23.IsWhole) (arg24 : Memref sig .tc .vmem S1x1x1 .f32) (harg24 : arg24.IsWhole) (arg25 : Memref sig .tc .vmem S1x1 .f32) (harg25 : arg25.IsWhole) (arg26 : Memref sig .tc .vmem S1x1 .f32) (harg26 : arg26.IsWhole) (arg27 : Memref sig .tc .vmem S1x128 .f32) (harg27 : arg27.IsWhole) (hc0 : ¬cond0_0 i) (hc1 : cond0_1 i) (x0 : Vec F S1x5000x256 .f32) (x1 : Vec F S256x128 .f32) (x2 : Vec F S128 .f32) (x3 : Vec F S128 .f32) (x4 : Vec F S128 .f32) (x5 : Vec F S128x128 .f32) (x6 : Vec F S128 .f32) (x7 : Vec F S128 .f32) (x8 : Vec F S128 .f32) (x9 : Vec F S128x128 .f32) (x10 : Vec F S128 .f32) (x11 : Vec F S1x128 .f32) (x12 : Vec F S1 .f32) (x13 : Vec F S128x128 .f32) (x14 : Vec F S128 .f32) (x15 : Vec F S128x2 .f32) (x16 : Vec F S2 .f32) (x17 : Vec F S128x64 .f32) (x18 : Vec F S64 .f32) (x19 : Vec F S64x1 .f32) (x20 : Vec F S1 .f32) (xs0 : Vec F S1x1 .f32) (xs1 : Vec F S1x1 .f32) (xs2 : Vec F S1x128 .f32) :
    out0_C_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xs0 xs1 xs2 = headLogits (tileAcc x0 x1 x2 x3 x4 x5 x6 x7 x8 x9 x10 x11 x12 xs0 xs2) (tileNorm x0 x1 x2 x3 x4 x5 x6 x7 x8 x9 x10 x11 x12 xs0 xs1) x13 x14 x15 x16 := by
  unfold out0_C_21
  rw [View.read_writes_eq_canon _ _ _ (cover0_C_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xs0 xs1 xs2)]
  unfold kernelRun0_C
  dsimp only
  sl_unfold_words
  first
    | rw [View.canon_unit_zero hz2]
    | rw [View.canon_unit_zero hz3]
    | rw [View.canon_cons_unit_zero (S := S1x1) hz2]
    | rw [View.canon_cons_unit_zero (S := S1x128) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S1x5000x256) hz3, View.ld_unit_zero (S := S256x128) hz2, View.ld_unit_zero (S := S128) hz1, View.ld_unit_zero (S := S128x128) hz2, View.ld_unit_zero (S := S1x128) hz2, View.ld_unit_zero (S := S1) hz1, View.ld_unit_zero (S := S128x2) hz2, View.ld_unit_zero (S := S2) hz1, View.ld_unit_zero (S := S128x64) hz2, View.ld_unit_zero (S := S64) hz1, View.ld_unit_zero (S := S64x1) hz2, View.ld_unit_zero (S := S1x1x2) hz3, View.ld_unit_zero (S := S1x1x1) hz3, View.ld_unit_zero (S := S1x1) hz2, View.readCov_unit_zero (S := S1x1) _ hz2, View.readCov_unit_zero (S := S1x128) _ hz2]
  rfl

/-- The last tile's second head reads the risk off the new sums. -/
theorem last_risk (c : Dev nD) (i : grid0.Coords) (arg2 : Memref sig .tc .vmem S1x5000x256 .f32) (harg2 : arg2.IsWhole) (arg3 : Memref sig .tc .vmem S256x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x128 .f32) (harg11 : arg11.IsWhole) (arg12 : Memref sig .tc .vmem S128 .f32) (harg12 : arg12.IsWhole) (arg13 : Memref sig .tc .vmem S1x128 .f32) (harg13 : arg13.IsWhole) (arg14 : Memref sig .tc .vmem S1 .f32) (harg14 : arg14.IsWhole) (arg15 : Memref sig .tc .vmem S128x128 .f32) (harg15 : arg15.IsWhole) (arg16 : Memref sig .tc .vmem S128 .f32) (harg16 : arg16.IsWhole) (arg17 : Memref sig .tc .vmem S128x2 .f32) (harg17 : arg17.IsWhole) (arg18 : Memref sig .tc .vmem S2 .f32) (harg18 : arg18.IsWhole) (arg19 : Memref sig .tc .vmem S128x64 .f32) (harg19 : arg19.IsWhole) (arg20 : Memref sig .tc .vmem S64 .f32) (harg20 : arg20.IsWhole) (arg21 : Memref sig .tc .vmem S64x1 .f32) (harg21 : arg21.IsWhole) (arg22 : Memref sig .tc .vmem S1 .f32) (harg22 : arg22.IsWhole) (arg23 : Memref sig .tc .vmem S1x1x2 .f32) (harg23 : arg23.IsWhole) (arg24 : Memref sig .tc .vmem S1x1x1 .f32) (harg24 : arg24.IsWhole) (arg25 : Memref sig .tc .vmem S1x1 .f32) (harg25 : arg25.IsWhole) (arg26 : Memref sig .tc .vmem S1x1 .f32) (harg26 : arg26.IsWhole) (arg27 : Memref sig .tc .vmem S1x128 .f32) (harg27 : arg27.IsWhole) (hc0 : ¬cond0_0 i) (hc1 : cond0_1 i) (x0 : Vec F S1x5000x256 .f32) (x1 : Vec F S256x128 .f32) (x2 : Vec F S128 .f32) (x3 : Vec F S128 .f32) (x4 : Vec F S128 .f32) (x5 : Vec F S128x128 .f32) (x6 : Vec F S128 .f32) (x7 : Vec F S128 .f32) (x8 : Vec F S128 .f32) (x9 : Vec F S128x128 .f32) (x10 : Vec F S128 .f32) (x11 : Vec F S1x128 .f32) (x12 : Vec F S1 .f32) (x13 : Vec F S128x128 .f32) (x14 : Vec F S128 .f32) (x15 : Vec F S128x2 .f32) (x16 : Vec F S2 .f32) (x17 : Vec F S128x64 .f32) (x18 : Vec F S64 .f32) (x19 : Vec F S64x1 .f32) (x20 : Vec F S1 .f32) (xs0 : Vec F S1x1 .f32) (xs1 : Vec F S1x1 .f32) (xs2 : Vec F S1x128 .f32) :
    out0_C_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xs0 xs1 xs2 = headRisk (tileAcc x0 x1 x2 x3 x4 x5 x6 x7 x8 x9 x10 x11 x12 xs0 xs2) (tileNorm x0 x1 x2 x3 x4 x5 x6 x7 x8 x9 x10 x11 x12 xs0 xs1) x17 x18 x19 x20 := by
  unfold out0_C_22
  rw [View.read_writes_eq_canon _ _ _ (cover0_C_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xs0 xs1 xs2)]
  unfold kernelRun0_C
  dsimp only
  sl_unfold_words
  first
    | rw [View.canon_unit_zero hz2]
    | rw [View.canon_unit_zero hz3]
    | rw [View.canon_cons_unit_zero (S := S1x1) hz2]
    | rw [View.canon_cons_unit_zero (S := S1x128) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S1x5000x256) hz3, View.ld_unit_zero (S := S256x128) hz2, View.ld_unit_zero (S := S128) hz1, View.ld_unit_zero (S := S128x128) hz2, View.ld_unit_zero (S := S1x128) hz2, View.ld_unit_zero (S := S1) hz1, View.ld_unit_zero (S := S128x2) hz2, View.ld_unit_zero (S := S2) hz1, View.ld_unit_zero (S := S128x64) hz2, View.ld_unit_zero (S := S64) hz1, View.ld_unit_zero (S := S64x1) hz2, View.ld_unit_zero (S := S1x1x2) hz3, View.ld_unit_zero (S := S1x1x1) hz3, View.ld_unit_zero (S := S1x1) hz2, View.readCov_unit_zero (S := S1x1) _ hz2, View.readCov_unit_zero (S := S1x128) _ hz2]
  rfl

end Cert.Mil.Pieces

end
-- ==== Proof.LibOnlineSoftmax.lean ====
/-
  Online softmax: the blockwise recurrence that keeps a running maximum, a running
  normaliser and a running weighted accumulator agrees, over the extended reals, with
  the plain softmax-weighted sum whenever every score and every value is a real number.
-/
import Idealize.ShloMosaic.PureOps.Ideal

open Idealize.ShloMosaic
open scoped BigOperators

namespace Cert.OnlineSoftmax

noncomputable section

variable {K D : Type}

/-- The running state of the recurrence: the maximum score seen so far, the sum of the
    exponentials of the scores seen so far (each shifted by that maximum), and, per value
    coordinate, the sum of those exponentials weighted by the values. -/
structure St (D : Type) where
  /-- running maximum -/
  m : EReal
  /-- running normaliser -/
  l : EReal
  /-- running weighted accumulator -/
  acc : D → EReal

/-- The state before any block: maximum `⊥`, normaliser and accumulator zero. -/
def init : St D := ⟨⊥, 0, fun _ => 0⟩

/-- One block of the recurrence: the new maximum is the larger of the old one and the block's
    maximum; the old normaliser and accumulator are rescaled by `exp (old max − new max)` and
    the block's shifted exponentials (weighted by the values, for the accumulator) are added. -/
def step [Fintype K] (s : K → EReal) (v : K → D → EReal) (st : St D) : St D :=
  let mb := max st.m (Finset.univ.fold max ⊥ s)
  ⟨mb, Ideal.exp (st.m - mb) * st.l + ∑ k, Ideal.exp (s k - mb),
    fun d => Ideal.exp (st.m - mb) * st.acc d + ∑ k, Ideal.exp (s k - mb) * v k d⟩

/-- The state after the first `j` blocks. -/
def after [Fintype K] (s : ℕ → K → EReal) (v : ℕ → K → D → EReal) : ℕ → St D
  | 0 => init
  | j + 1 => step (s j) (v j) (after s v j)

/-- The state after `j` blocks depends only on the first `j` blocks. -/
theorem after_congr [Fintype K] {s s' : ℕ → K → EReal} {v v' : ℕ → K → D → EReal} :
    ∀ n : ℕ, (∀ i < n, s i = s' i) → (∀ i < n, v i = v' i) → after s v n = after s' v' n
  | 0, _, _ => rfl
  | n + 1, hs, hv => by
    show step (s n) (v n) (after s v n) = step (s' n) (v' n) (after s' v' n)
    rw [hs n (Nat.lt_succ_self n), hv n (Nat.lt_succ_self n),
      after_congr n (fun i hi => hs i (Nat.lt_succ_of_lt hi)) (fun i hi => hv i (Nat.lt_succ_of_lt hi))]

/-- The coercion of a finite sum of reals is the sum of the coercions. -/
theorem coe_sum {ι : Type*} (t : Finset ι) (f : ι → ℝ) :
    ((∑ i ∈ t, f i : ℝ) : EReal) = ∑ i ∈ t, (f i : EReal) := by
  classical
  refine Finset.induction_on t (by simp) ?_
  intro a t ha ih
  rw [Finset.sum_insert ha, Finset.sum_insert ha, EReal.coe_add, ih]

/-- The coercion commutes with the binary maximum. -/
theorem coe_max (a b : ℝ) : ((max a b : ℝ) : EReal) = max (a : EReal) (b : EReal) :=
  (EReal.coe_strictMono.monotone).map_max

/-- The exponential of a difference of two reals, computed in the extended reals, is the
    real exponential of the difference. -/
theorem exp_coe_sub (a b : ℝ) :
    Ideal.exp ((a : EReal) - (b : EReal)) = ((Real.exp (a - b) : ℝ) : EReal) := by
  rw [← EReal.coe_sub]; rfl

/-- The maximum, folded from `⊥`, of finitely many reals over a nonempty index type is a real:
    their maximum. -/
theorem fold_max_coe [Fintype K] [Nonempty K] (f : K → ℝ) :
    Finset.univ.fold max ⊥ (fun k => (f k : EReal))
      = ((Finset.univ.sup' Finset.univ_nonempty f : ℝ) : EReal) := by
  apply le_antisymm
  · rw [Finset.fold_max_le]
    exact ⟨bot_le, fun k hk => EReal.coe_le_coe_iff.2 (Finset.le_sup' f hk)⟩
  · obtain ⟨k, hk, hk'⟩ := Finset.exists_mem_eq_sup' Finset.univ_nonempty f
    rw [Finset.le_fold_max]
    exact Or.inr ⟨k, hk, by rw [hk']⟩

/-- One block on real data: if the old normaliser and accumulator are reals, the new maximum is the
    real `m'` and the rescaling factor is the real `c`, then the new state is the coercion of the
    same formulas computed in the reals. -/
theorem step_coe [Fintype K] (sr : K → ℝ) (vr : K → D → ℝ) (st : St D)
    (m' c lr : ℝ) (ar : D → ℝ)
    (hm : max st.m (Finset.univ.fold max ⊥ fun k => (sr k : EReal)) = (m' : EReal))
    (hc : Ideal.exp (st.m - (m' : EReal)) = (c : EReal))
    (hl : st.l = (lr : EReal)) (ha : ∀ d, st.acc d = (ar d : EReal)) :
    step (fun k => (sr k : EReal)) (fun k d => (vr k d : EReal)) st
      = ⟨(m' : EReal), ((c * lr + ∑ k, Real.exp (sr k - m') : ℝ) : EReal),
          fun d => ((c * ar d + ∑ k, Real.exp (sr k - m') * vr k d : ℝ) : EReal)⟩ := by
  unfold step
  simp only [hm, hc, hl, ha, exp_coe_sub, EReal.coe_add, EReal.coe_mul, coe_sum]

/-- The invariant after `j ≥ 1` blocks of real data: the running maximum is the real `m`, which
    bounds every score of the first `j` blocks and is attained by one of them; the normaliser is
    the sum of `exp (score − m)` over those blocks; the accumulator is the same sum weighted by the
    values. -/
def Inv [Fintype K] (sr : ℕ → K → ℝ) (vr : ℕ → K → D → ℝ) (j : ℕ) (st : St D) (m : ℝ) : Prop :=
  st.m = (m : EReal) ∧ (∀ i < j, ∀ k, sr i k ≤ m) ∧ (∃ i, i < j ∧ ∃ k, sr i k = m) ∧
  st.l = ((∑ i ∈ Finset.range j, ∑ k, Real.exp (sr i k - m) : ℝ) : EReal) ∧
  ∀ d, st.acc d = ((∑ i ∈ Finset.range j, ∑ k, Real.exp (sr i k - m) * vr i k d : ℝ) : EReal)

/-- The first block establishes the invariant: from maximum `⊥` the rescaling factor is
    `exp ⊥ = 0`, and the state is that of the first block alone. -/
theorem inv_one [Fintype K] [Nonempty K] (sr : ℕ → K → ℝ) (vr : ℕ → K → D → ℝ) :
    Inv sr vr 1 (after (fun j k => (sr j k : EReal)) (fun j k d => (vr j k d : EReal)) 1)
      (Finset.univ.sup' Finset.univ_nonempty (sr 0)) := by
  have hstep : after (fun j k => (sr j k : EReal)) (fun j k d => (vr j k d : EReal)) 1
      = step (fun k => (sr 0 k : EReal)) (fun k d => (vr 0 k d : EReal)) init := rfl
  have hmax : max (init : St D).m (Finset.univ.fold max ⊥ fun k => (sr 0 k : EReal))
      = ((Finset.univ.sup' Finset.univ_nonempty (sr 0) : ℝ) : EReal) := by
    show max (⊥ : EReal) _ = _
    rw [fold_max_coe, max_bot_left]
  have hc : Ideal.exp ((init : St D).m - ((Finset.univ.sup' Finset.univ_nonempty (sr 0) : ℝ) : EReal))
      = ((0 : ℝ) : EReal) := by
    show Ideal.exp ((⊥ : EReal) - _) = _
    rw [EReal.bot_sub]; rfl
  rw [hstep, step_coe (sr 0) (vr 0) init _ 0 0 (fun _ => 0) hmax hc rfl (fun _ => rfl)]
  refine ⟨rfl, ?_, ?_, ?_, ?_⟩
  · intro i hi k
    obtain rfl : i = 0 := by omega
    exact Finset.le_sup' (sr 0) (Finset.mem_univ k)
  · obtain ⟨k, _, hk⟩ := Finset.exists_mem_eq_sup' Finset.univ_nonempty (sr 0)
    exact ⟨0, Nat.one_pos, k, hk.symm⟩
  · simp [Finset.sum_range_one]
  · intro d; simp [Finset.sum_range_one]

/-- Each further block preserves the invariant: the new maximum is the larger of the old one and
    the block's, and `exp (m − m') * exp (x − m) = exp (x − m')` rescales the old sums. -/
theorem inv_succ [Fintype K] [Nonempty K] (sr : ℕ → K → ℝ) (vr : ℕ → K → D → ℝ) (j : ℕ) (st : St D)
    (m : ℝ) (h : Inv sr vr j st m) :
    Inv sr vr (j + 1) (step (fun k => (sr j k : EReal)) (fun k d => (vr j k d : EReal)) st)
      (max m (Finset.univ.sup' Finset.univ_nonempty (sr j))) := by
  obtain ⟨hm, hbd, ⟨i0, hi0, k0, hk0⟩, hl, hacc⟩ := h
  have hmax : max st.m (Finset.univ.fold max ⊥ fun k => (sr j k : EReal))
      = ((max m (Finset.univ.sup' Finset.univ_nonempty (sr j)) : ℝ) : EReal) := by
    rw [hm, fold_max_coe, coe_max]
  have hc : Ideal.exp (st.m - ((max m (Finset.univ.sup' Finset.univ_nonempty (sr j)) : ℝ) : EReal))
      = ((Real.exp (m - max m (Finset.univ.sup' Finset.univ_nonempty (sr j))) : ℝ) : EReal) := by
    rw [hm, exp_coe_sub]
  rw [step_coe (sr j) (vr j) st _ _ _ _ hmax hc hl hacc]
  refine ⟨rfl, ?_, ?_, ?_, ?_⟩
  · intro i hi k
    rcases Nat.lt_succ_iff_lt_or_eq.1 hi with h | h
    · exact (hbd i h k).trans (le_max_left _ _)
    · rw [h]
      exact (Finset.le_sup' (sr j) (Finset.mem_univ k)).trans (le_max_right _ _)
  · rcases max_choice m (Finset.univ.sup' Finset.univ_nonempty (sr j)) with h | h
    · exact ⟨i0, Nat.lt_succ_of_lt hi0, k0, by rw [h, hk0]⟩
    · obtain ⟨k, _, hk⟩ := Finset.exists_mem_eq_sup' Finset.univ_nonempty (sr j)
      exact ⟨j, Nat.lt_succ_self j, k, by rw [h]; exact hk.symm⟩
  · show ((_ : ℝ) : EReal) = ((_ : ℝ) : EReal)
    congr 1
    rw [Finset.sum_range_succ, Finset.mul_sum]
    congr 1
    refine Finset.sum_congr rfl fun i _ => ?_
    rw [Finset.mul_sum]
    refine Finset.sum_congr rfl fun k _ => ?_
    rw [← Real.exp_add]; congr 1; ring
  · intro d
    show ((_ : ℝ) : EReal) = ((_ : ℝ) : EReal)
    congr 1
    rw [Finset.sum_range_succ, Finset.mul_sum]
    congr 1
    refine Finset.sum_congr rfl fun i _ => ?_
    rw [Finset.mul_sum]
    refine Finset.sum_congr rfl fun k _ => ?_
    rw [← mul_assoc, ← Real.exp_add]; congr 2; ring

/-- After any positive number of blocks of real data the invariant holds for some real maximum. -/
theorem after_inv [Fintype K] [Nonempty K] (sr : ℕ → K → ℝ) (vr : ℕ → K → D → ℝ) :
    ∀ j : ℕ, ∃ m : ℝ, Inv sr vr (j + 1)
      (after (fun j k => (sr j k : EReal)) (fun j k d => (vr j k d : EReal)) (j + 1)) m
  | 0 => ⟨_, inv_one sr vr⟩
  | j + 1 => by
    obtain ⟨m, hm⟩ := after_inv sr vr j
    exact ⟨_, inv_succ sr vr (j + 1) _ m hm⟩

/-- For real data the maximum folded over all scores of the first `n` blocks is the real `m`, once
    `m` bounds every such score and is attained by one of them. -/
theorem fold_max_eq [Fintype K] (sr : ℕ → K → ℝ) (n : ℕ) (m : ℝ)
    (hbd : ∀ i < n, ∀ k, sr i k ≤ m) (hat : ∃ i, i < n ∧ ∃ k, sr i k = m) :
    Finset.univ.fold max ⊥ (fun jk : Fin n × K => ((sr jk.1 jk.2 : ℝ) : EReal)) = (m : EReal) := by
  apply le_antisymm
  · rw [Finset.fold_max_le]
    exact ⟨bot_le, fun jk _ => EReal.coe_le_coe_iff.2 (hbd jk.1 jk.1.2 jk.2)⟩
  · obtain ⟨i, hi, k, hk⟩ := hat
    rw [Finset.le_fold_max]
    exact Or.inr ⟨(⟨i, hi⟩, k), Finset.mem_univ _, EReal.coe_le_coe_iff.2 hk.ge⟩

/-- For real data the sum of the shifted exponentials over all scores of the first `n` blocks is the
    coercion of the real double sum. -/
theorem sum_exp_coe [Fintype K] (sr : ℕ → K → ℝ) (n : ℕ) (m : ℝ) :
    ∑ jk : Fin n × K, Ideal.exp (((sr jk.1 jk.2 : ℝ) : EReal) - (m : EReal))
      = ((∑ i ∈ Finset.range n, ∑ k, Real.exp (sr i k - m) : ℝ) : EReal) := by
  simp only [exp_coe_sub]
  rw [← coe_sum, Fintype.sum_prod_type,
    Fin.sum_univ_eq_sum_range (fun i => ∑ k, Real.exp (sr i k - m)) n]

/-- For real data the weighted sum of the shifted exponentials over all scores of the first `n`
    blocks is the coercion of the real double sum. -/
theorem sum_exp_mul_coe [Fintype K] (sr : ℕ → K → ℝ) (vr : ℕ → K → D → ℝ) (n : ℕ) (m : ℝ) (d : D) :
    ∑ jk : Fin n × K, Ideal.exp (((sr jk.1 jk.2 : ℝ) : EReal) - (m : EReal))
        * ((vr jk.1 jk.2 d : ℝ) : EReal)
      = ((∑ i ∈ Finset.range n, ∑ k, Real.exp (sr i k - m) * vr i k d : ℝ) : EReal) := by
  simp only [exp_coe_sub, ← EReal.coe_mul]
  rw [← coe_sum, Fintype.sum_prod_type,
    Fin.sum_univ_eq_sum_range (fun i => ∑ k, Real.exp (sr i k - m) * vr i k d) n]

/-- The real normaliser is at least one: the score attaining the maximum contributes `exp 0`. -/
theorem one_le_norm [Fintype K] (sr : ℕ → K → ℝ) (n : ℕ) (m : ℝ)
    (hat : ∃ i, i < n ∧ ∃ k, sr i k = m) :
    1 ≤ ∑ i ∈ Finset.range n, ∑ k, Real.exp (sr i k - m) := by
  obtain ⟨i, hi, k, hk⟩ := hat
  calc (1 : ℝ) = Real.exp (sr i k - m) := by rw [hk, sub_self, Real.exp_zero]
    _ ≤ ∑ k', Real.exp (sr i k' - m) :=
        Finset.single_le_sum (f := fun k' => Real.exp (sr i k' - m))
          (fun _ _ => (Real.exp_pos _).le) (Finset.mem_univ k)
    _ ≤ ∑ i' ∈ Finset.range n, ∑ k', Real.exp (sr i' k' - m) :=
        Finset.single_le_sum (f := fun i' => ∑ k', Real.exp (sr i' k' - m))
          (fun _ _ => Finset.sum_nonneg fun _ _ => (Real.exp_pos _).le) (Finset.mem_range.2 hi)

/-- Scores and values that are real on the first `nb` blocks are the coercions of real-valued
    families there, and the recurrence's state after `nb` blocks is that of the coerced families. -/
theorem exists_real [Fintype K] (nb : ℕ) (s : ℕ → K → EReal) (v : ℕ → K → D → EReal)
    (hs : ∀ j < nb, ∀ k, ∃ r : ℝ, s j k = (r : EReal))
    (hv : ∀ j < nb, ∀ k d, ∃ r : ℝ, v j k d = (r : EReal)) :
    ∃ (sr : ℕ → K → ℝ) (vr : ℕ → K → D → ℝ),
      (∀ jk : Fin nb × K, s jk.1 jk.2 = ((sr jk.1 jk.2 : ℝ) : EReal)) ∧
      (∀ (jk : Fin nb × K) (d : D), v jk.1 jk.2 d = ((vr jk.1 jk.2 d : ℝ) : EReal)) ∧
      after s v nb = after (fun j k => (sr j k : EReal)) (fun j k d => (vr j k d : EReal)) nb := by
  classical
  obtain ⟨sr, hsr⟩ : ∃ sr : ℕ → K → ℝ, ∀ j < nb, ∀ k, s j k = (sr j k : EReal) :=
    ⟨fun j k => if h : j < nb then (hs j h k).choose else 0, fun j h k => by
      simp only [dif_pos h]; exact (hs j h k).choose_spec⟩
  obtain ⟨vr, hvr⟩ : ∃ vr : ℕ → K → D → ℝ, ∀ j < nb, ∀ k d, v j k d = (vr j k d : EReal) :=
    ⟨fun j k d => if h : j < nb then (hv j h k d).choose else 0, fun j h k d => by
      simp only [dif_pos h]; exact (hv j h k d).choose_spec⟩
  exact ⟨sr, vr, fun jk => hsr jk.1 jk.1.2 jk.2, fun jk d => hvr jk.1 jk.1.2 jk.2 d,
    after_congr nb (fun i hi => funext fun k => hsr i hi k)
      (fun i hi => funext fun k => funext fun d => hvr i hi k d)⟩

/-- The online recurrence equals the plain softmax, for real data given as coercions. -/
theorem after_div_eq_coe [Fintype K] [Nonempty K] (nb : ℕ) (hnb : 0 < nb) (sr : ℕ → K → ℝ)
    (vr : ℕ → K → D → ℝ) (d : D) :
    Ideal.div ((after (fun j k => (sr j k : EReal)) (fun j k d => (vr j k d : EReal)) nb).acc d)
        ((after (fun j k => (sr j k : EReal)) (fun j k d => (vr j k d : EReal)) nb).l)
      = ∑ jk : Fin nb × K,
          Ideal.div
            (Ideal.exp (((sr jk.1 jk.2 : ℝ) : EReal)
              - Finset.univ.fold max ⊥ (fun jk : Fin nb × K => ((sr jk.1 jk.2 : ℝ) : EReal))))
            (∑ jk : Fin nb × K, Ideal.exp (((sr jk.1 jk.2 : ℝ) : EReal)
              - Finset.univ.fold max ⊥ (fun jk : Fin nb × K => ((sr jk.1 jk.2 : ℝ) : EReal))))
          * ((vr jk.1 jk.2 d : ℝ) : EReal) := by
  obtain ⟨j, rfl⟩ : ∃ j, nb = j + 1 := ⟨nb - 1, by omega⟩
  obtain ⟨m, hm, hbd, hat, hl, hacc⟩ := after_inv sr vr j
  have hL := one_le_norm sr (j + 1) m hat
  have hL0 : (∑ i ∈ Finset.range (j + 1), ∑ k, Real.exp (sr i k - m)) ≠ 0 := by linarith
  rw [fold_max_eq sr (j + 1) m hbd hat, sum_exp_coe, hl, hacc d]
  simp only [Ideal.div_coe hL0, exp_coe_sub, ← EReal.coe_mul]
  rw [← coe_sum, Fintype.sum_prod_type,
    Fin.sum_univ_eq_sum_range (fun i => ∑ k, Real.exp (sr i k - m)
      * (1 / ∑ i ∈ Finset.range (j + 1), ∑ k, Real.exp (sr i k - m)) * vr i k d) (j + 1)]
  congr 1
  rw [Finset.sum_mul]
  refine Finset.sum_congr rfl fun i _ => ?_
  rw [Finset.sum_mul]
  refine Finset.sum_congr rfl fun k _ => ?_
  ring

/-- **Online softmax equals softmax.**  With real scores and values on the first `nb ≥ 1` blocks,
    the accumulator divided by the normaliser after `nb` blocks is the softmax-weighted sum of the
    values: each weight is `exp (score − M) / L` with `M` the maximum of all scores and `L` the sum
    of all `exp (score − M)`. -/
theorem after_div_eq [Fintype K] [Nonempty K] (nb : ℕ) (hnb : 0 < nb) (s : ℕ → K → EReal)
    (v : ℕ → K → D → EReal) (hs : ∀ j < nb, ∀ k, ∃ r : ℝ, s j k = (r : EReal))
    (hv : ∀ j < nb, ∀ k d, ∃ r : ℝ, v j k d = (r : EReal)) (d : D) :
    Ideal.div ((after s v nb).acc d) ((after s v nb).l)
      = ∑ jk : Fin nb × K,
          Ideal.div
            (Ideal.exp (s jk.1 jk.2
              - Finset.univ.fold max ⊥ (fun jk : Fin nb × K => s jk.1 jk.2)))
            (∑ jk : Fin nb × K, Ideal.exp (s jk.1 jk.2
              - Finset.univ.fold max ⊥ (fun jk : Fin nb × K => s jk.1 jk.2)))
          * v jk.1 jk.2 d := by
  obtain ⟨sr, vr, hS, hV, hA⟩ := exists_real nb s v hs hv
  rw [hA]
  simp only [hS, hV]
  exact after_div_eq_coe nb hnb sr vr d

/-- The state after `nb ≥ 1` blocks of real data given as coercions, in closed form: the overall
    maximum is a real `m`, the running maximum is `m`, the normaliser is a real `L ≥ 1` which is the
    sum of all `exp (score − m)`, and the accumulator is that sum weighted by the values. -/
theorem after_eq_coe [Fintype K] [Nonempty K] (nb : ℕ) (hnb : 0 < nb) (sr : ℕ → K → ℝ)
    (vr : ℕ → K → D → ℝ) :
    ∃ m L : ℝ, 1 ≤ L ∧
      Finset.univ.fold max ⊥ (fun jk : Fin nb × K => ((sr jk.1 jk.2 : ℝ) : EReal)) = (m : EReal) ∧
      (after (fun j k => (sr j k : EReal)) (fun j k d => (vr j k d : EReal)) nb).m = (m : EReal) ∧
      (after (fun j k => (sr j k : EReal)) (fun j k d => (vr j k d : EReal)) nb).l = (L : EReal) ∧
      ∑ jk : Fin nb × K, Ideal.exp (((sr jk.1 jk.2 : ℝ) : EReal) - (m : EReal)) = (L : EReal) ∧
      ∀ d, (after (fun j k => (sr j k : EReal)) (fun j k d => (vr j k d : EReal)) nb).acc d
        = ∑ jk : Fin nb × K, Ideal.exp (((sr jk.1 jk.2 : ℝ) : EReal) - (m : EReal))
            * ((vr jk.1 jk.2 d : ℝ) : EReal) := by
  obtain ⟨j, rfl⟩ : ∃ j, nb = j + 1 := ⟨nb - 1, by omega⟩
  obtain ⟨m, hm, hbd, hat, hl, hacc⟩ := after_inv sr vr j
  exact ⟨m, _, one_le_norm sr (j + 1) m hat, fold_max_eq sr (j + 1) m hbd hat, hm, hl,
    sum_exp_coe sr (j + 1) m, fun d => by rw [hacc d, sum_exp_mul_coe]⟩

/-- With real scores and values on the first `nb ≥ 1` blocks, the running maximum after `nb` blocks
    is the maximum of all scores. -/
theorem after_m_eq [Fintype K] [Nonempty K] (nb : ℕ) (hnb : 0 < nb) (s : ℕ → K → EReal)
    (v : ℕ → K → D → EReal) (hs : ∀ j < nb, ∀ k, ∃ r : ℝ, s j k = (r : EReal))
    (hv : ∀ j < nb, ∀ k d, ∃ r : ℝ, v j k d = (r : EReal)) :
    (after s v nb).m = Finset.univ.fold max ⊥ (fun jk : Fin nb × K => s jk.1 jk.2) := by
  obtain ⟨sr, vr, hS, _, hA⟩ := exists_real nb s v hs hv
  obtain ⟨m, L, _, hM, hm, _, _, _⟩ := after_eq_coe nb hnb sr vr
  rw [hA]
  simp only [hS]
  rw [hM]
  exact hm

/-- With real scores and values on the first `nb ≥ 1` blocks, the running maximum after `nb` blocks
    is a real number. -/
theorem after_m_real [Fintype K] [Nonempty K] (nb : ℕ) (hnb : 0 < nb) (s : ℕ → K → EReal)
    (v : ℕ → K → D → EReal) (hs : ∀ j < nb, ∀ k, ∃ r : ℝ, s j k = (r : EReal))
    (hv : ∀ j < nb, ∀ k d, ∃ r : ℝ, v j k d = (r : EReal)) :
    ∃ r : ℝ, (after s v nb).m = (r : EReal) := by
  obtain ⟨sr, vr, _, _, hA⟩ := exists_real nb s v hs hv
  obtain ⟨m, L, _, _, hm, _, _, _⟩ := after_eq_coe nb hnb sr vr
  exact ⟨m, by rw [hA]; exact hm⟩

/-- With real scores and values on the first `nb ≥ 1` blocks, the normaliser after `nb` blocks is the
    sum over all scores of `exp (score − M)`, `M` the maximum of all scores. -/
theorem after_l_eq [Fintype K] [Nonempty K] (nb : ℕ) (hnb : 0 < nb) (s : ℕ → K → EReal)
    (v : ℕ → K → D → EReal) (hs : ∀ j < nb, ∀ k, ∃ r : ℝ, s j k = (r : EReal))
    (hv : ∀ j < nb, ∀ k d, ∃ r : ℝ, v j k d = (r : EReal)) :
    (after s v nb).l
      = ∑ jk : Fin nb × K, Ideal.exp (s jk.1 jk.2
          - Finset.univ.fold max ⊥ (fun jk : Fin nb × K => s jk.1 jk.2)) := by
  obtain ⟨sr, vr, hS, _, hA⟩ := exists_real nb s v hs hv
  obtain ⟨m, L, _, hM, _, hl, hsum, _⟩ := after_eq_coe nb hnb sr vr
  rw [hA]
  simp only [hS]
  rw [hM, hsum]
  exact hl

/-- With real scores and values on the first `nb ≥ 1` blocks, the normaliser after `nb` blocks is a
    real number, at least one. -/
theorem after_l_real [Fintype K] [Nonempty K] (nb : ℕ) (hnb : 0 < nb) (s : ℕ → K → EReal)
    (v : ℕ → K → D → EReal) (hs : ∀ j < nb, ∀ k, ∃ r : ℝ, s j k = (r : EReal))
    (hv : ∀ j < nb, ∀ k d, ∃ r : ℝ, v j k d = (r : EReal)) :
    ∃ r : ℝ, 1 ≤ r ∧ (after s v nb).l = (r : EReal) := by
  obtain ⟨sr, vr, _, _, hA⟩ := exists_real nb s v hs hv
  obtain ⟨m, L, hL, _, _, hl, _, _⟩ := after_eq_coe nb hnb sr vr
  exact ⟨L, hL, by rw [hA]; exact hl⟩

/-- With real scores and values on the first `nb ≥ 1` blocks, the normaliser after `nb` blocks is
    neither zero nor infinite. -/
theorem after_l_ne [Fintype K] [Nonempty K] (nb : ℕ) (hnb : 0 < nb) (s : ℕ → K → EReal)
    (v : ℕ → K → D → EReal) (hs : ∀ j < nb, ∀ k, ∃ r : ℝ, s j k = (r : EReal))
    (hv : ∀ j < nb, ∀ k d, ∃ r : ℝ, v j k d = (r : EReal)) :
    (after s v nb).l ≠ 0 ∧ (after s v nb).l ≠ ⊤ ∧ (after s v nb).l ≠ ⊥ := by
  obtain ⟨r, hr, h⟩ := after_l_real nb hnb s v hs hv
  rw [h]
  refine ⟨?_, EReal.coe_ne_top r, EReal.coe_ne_bot r⟩
  have hr0 : r ≠ 0 := by linarith
  exact_mod_cast hr0

/-- With real scores and values on the first `nb ≥ 1` blocks, the accumulator after `nb` blocks is the
    sum over all scores of `exp (score − M)` times the value, `M` the maximum of all scores. -/
theorem after_acc_eq [Fintype K] [Nonempty K] (nb : ℕ) (hnb : 0 < nb) (s : ℕ → K → EReal)
    (v : ℕ → K → D → EReal) (hs : ∀ j < nb, ∀ k, ∃ r : ℝ, s j k = (r : EReal))
    (hv : ∀ j < nb, ∀ k d, ∃ r : ℝ, v j k d = (r : EReal)) (d : D) :
    (after s v nb).acc d
      = ∑ jk : Fin nb × K, Ideal.exp (s jk.1 jk.2
          - Finset.univ.fold max ⊥ (fun jk : Fin nb × K => s jk.1 jk.2)) * v jk.1 jk.2 d := by
  obtain ⟨sr, vr, hS, hV, hA⟩ := exists_real nb s v hs hv
  obtain ⟨m, L, _, hM, _, _, _, hacc⟩ := after_eq_coe nb hnb sr vr
  rw [hA]
  simp only [hS, hV]
  rw [hM]
  exact hacc d

end

end Cert.OnlineSoftmax
-- ==== Proof.MilSpec.lean ====
/-
  Attention-pooled multiple-instance network over the extended reals: the specification.

  Every instance (a row of 256 numbers) goes through two layers "affine map, layer normalisation over the
  128 features, clamp at zero", which gives its 128 features; a score is read off the features by one more
  affine map, a hyperbolic tangent and a weighted sum of the 128 results, divided by the temperature.  A bag
  of 50000 instances is pooled by the softmax of the scores: the bag vector is the softmax-weighted sum of
  the features.  Two small heads (affine, clamp, affine) read the class scores and the risk off the bag vector.

  The pooled vector is written in two arrangements: `bagPlain`, the softmax over all 50000 instances at once,
  and `bagBlocked`, ten consecutive blocks of 5000 instances folded into a running maximum, a running
  normaliser and a running weighted sum, the quotient taken at the end.  Float constants are kept as the
  words both programs carry; the temperature appears as a quotient by its word (`scoreDiv`) and as a product
  with the exact reciprocal of that word (`scoreMul`).
-/
import Idealize.ShloMosaic.PureOps.Ideal
import Idealize.ShloMosaic.Lib.ValueIdx
import proofs.«160597_j5995774345772_2_alg».proof.Proof.LibOnlineSoftmax

open Idealize.ShloMosaic Idealize.ShloMosaic.ValueIdx
open scoped BigOperators

namespace Cert.Mil

noncomputable section

/-- The word of 0. -/
def zeroW : EReal := Ideal.ofBits .f32 0x00000000#32
/-- The word of 128, the number of features a layer normalisation averages over. -/
def c128W : EReal := Ideal.ofBits .f32 0x43000000#32
/-- The word of the layer normalisation's variance offset. -/
def epsW : EReal := Ideal.ofBits .f32 0x3727C5AC#32
/-- The word of minus infinity, where a maximum starts. -/
def negInfW : EReal := Ideal.ofBits .f32 0xFF800000#32
/-- The word of the softmax temperature. -/
def tauW : EReal := Ideal.ofBits .f32 0x3E99999A#32
/-- The exact reciprocal of the number the temperature's word denotes. -/
def invTau : EReal := ((16777216 / 5033165 : ℝ) : EReal)

/-- The network's weights, as functions of plain coordinates. -/
structure Params where
  W1 : Fin 256 → Fin 128 → EReal
  b1 : Fin 128 → EReal
  g1 : Fin 128 → EReal
  be1 : Fin 128 → EReal
  W2 : Fin 128 → Fin 128 → EReal
  b2 : Fin 128 → EReal
  g2 : Fin 128 → EReal
  be2 : Fin 128 → EReal
  Wa1 : Fin 128 → Fin 128 → EReal
  ba1 : Fin 128 → EReal
  Wa2 : Fin 128 → EReal
  ba2 : EReal
  Wc1 : Fin 128 → Fin 128 → EReal
  bc1 : Fin 128 → EReal
  Wc2 : Fin 128 → Fin 2 → EReal
  bc2 : Fin 2 → EReal
  Ws1 : Fin 128 → Fin 64 → EReal
  bs1 : Fin 64 → EReal
  Ws2 : Fin 64 → EReal
  bs2 : EReal

/-- The weights read out of the twenty argument arrays. -/
def mkParams
    (W1 : (⟨2, ![256, 128]⟩ : Shape).Idx → EReal) (b1 g1 be1 : (⟨1, ![128]⟩ : Shape).Idx → EReal)
    (W2 : (⟨2, ![128, 128]⟩ : Shape).Idx → EReal) (b2 g2 be2 : (⟨1, ![128]⟩ : Shape).Idx → EReal)
    (Wa1 : (⟨2, ![128, 128]⟩ : Shape).Idx → EReal) (ba1 : (⟨1, ![128]⟩ : Shape).Idx → EReal)
    (Wa2 : (⟨2, ![128, 1]⟩ : Shape).Idx → EReal) (ba2 : (⟨1, ![1]⟩ : Shape).Idx → EReal)
    (Wc1 : (⟨2, ![128, 128]⟩ : Shape).Idx → EReal) (bc1 : (⟨1, ![128]⟩ : Shape).Idx → EReal)
    (Wc2 : (⟨2, ![128, 2]⟩ : Shape).Idx → EReal) (bc2 : (⟨1, ![2]⟩ : Shape).Idx → EReal)
    (Ws1 : (⟨2, ![128, 64]⟩ : Shape).Idx → EReal) (bs1 : (⟨1, ![64]⟩ : Shape).Idx → EReal)
    (Ws2 : (⟨2, ![64, 1]⟩ : Shape).Idx → EReal) (bs2 : (⟨1, ![1]⟩ : Shape).Idx → EReal) : Params where
  W1 k q := W1 (ix2 k q)
  b1 q := b1 (ix1 q)
  g1 q := g1 (ix1 q)
  be1 q := be1 (ix1 q)
  W2 k q := W2 (ix2 k q)
  b2 q := b2 (ix1 q)
  g2 q := g2 (ix1 q)
  be2 q := be2 (ix1 q)
  Wa1 k q := Wa1 (ix2 k q)
  ba1 q := ba1 (ix1 q)
  Wa2 k := Wa2 (ix2 k (0 : Fin 1))
  ba2 := ba2 (ix1 (0 : Fin 1))
  Wc1 k q := Wc1 (ix2 k q)
  bc1 q := bc1 (ix1 q)
  Wc2 k q := Wc2 (ix2 k q)
  bc2 q := bc2 (ix1 q)
  Ws1 k q := Ws1 (ix2 k q)
  bs1 q := bs1 (ix1 q)
  Ws2 k := Ws2 (ix2 k (0 : Fin 1))
  bs2 := bs2 (ix1 (0 : Fin 1))

/-- An affine map of a vector: `(Σ_k v k · W k q) + b q`. -/
def affine {K N : ℕ} (W : Fin K → Fin N → EReal) (b : Fin N → EReal) (v : Fin K → EReal) (q : Fin N) : EReal :=
  (∑ k, v k * W k q) + b q

/-- The mean of 128 features. -/
def mean (h : Fin 128 → EReal) : EReal := Ideal.div (∑ j, h j) c128W

/-- Layer normalisation of 128 features with gain `g` and offset `be`:
    `(h q − μ) · rsqrt(σ² + ε) · g q + be q`, σ² the mean of the squared deviations. -/
def lnorm (g be h : Fin 128 → EReal) (q : Fin 128) : EReal :=
  (h q - mean h) * Ideal.rsqrt (Ideal.div (∑ j, (h j - mean h) * (h j - mean h)) c128W + epsW) * g q + be q

/-- Clamp at zero. -/
def relu (v : EReal) : EReal := max v zeroW

/-- The first hidden layer of an instance. -/
def hidden1 (P : Params) (xr : Fin 256 → EReal) (q : Fin 128) : EReal :=
  relu (lnorm P.g1 P.be1 (affine P.W1 P.b1 xr) q)

/-- The features of an instance. -/
def feat (P : Params) (xr : Fin 256 → EReal) (q : Fin 128) : EReal :=
  relu (lnorm P.g2 P.be2 (affine P.W2 P.b2 (hidden1 P xr)) q)

/-- The attention score of an instance before the temperature. -/
def rawScore (P : Params) (xr : Fin 256 → EReal) : EReal :=
  (∑ k, Ideal.tanh (affine P.Wa1 P.ba1 (feat P xr) k) * P.Wa2 k) + P.ba2

/-- The score as a product with the exact reciprocal of the temperature's word. -/
def scoreMul (P : Params) (xr : Fin 256 → EReal) : EReal := rawScore P xr * invTau

/-- The score as a quotient by the temperature's word. -/
def scoreDiv (P : Params) (xr : Fin 256 → EReal) : EReal := Ideal.div (rawScore P xr) tauW

/-- The bag vector, softmax over all instances at once: shift by the maximum (started at −∞ and once
    more compared with −∞), exponentials, their sum, each feature weighted by its quotient. -/
def bagPlain {N : ℕ} (s : Fin N → EReal) (H : Fin N → Fin 128 → EReal) (q : Fin 128) : EReal :=
  ∑ n, H n q * Ideal.div (Ideal.exp (s n - max negInfW (Finset.univ.fold max negInfW s)))
      (∑ n', Ideal.exp (s n' - max negInfW (Finset.univ.fold max negInfW s)))

/-- Row `k` of block `j` of a bag cut into blocks of 5000 consecutive instances. -/
def blockRow (j : ℕ) (k : Fin 5000) : Fin 50000 := ⟨(5000 * j + k.val) % 50000, Nat.mod_lt _ (by norm_num)⟩

/-- The running state after the first `j` blocks of 5000 instances. -/
def blockedState (s : Fin 50000 → EReal) (H : Fin 50000 → Fin 128 → EReal) (j : ℕ) : OnlineSoftmax.St (Fin 128) :=
  OnlineSoftmax.after (fun j k => s (blockRow j k)) (fun j k d => H (blockRow j k) d) j

/-- The bag vector, block by block: the running weighted sum over the running normaliser after ten blocks. -/
def bagBlocked (s : Fin 50000 → EReal) (H : Fin 50000 → Fin 128 → EReal) (q : Fin 128) : EReal :=
  Ideal.div ((blockedState s H 10).acc q) (blockedState s H 10).l

/-- The class scores read off a bag vector. -/
def logitsOf (P : Params) (bag : Fin 128 → EReal) (c : Fin 2) : EReal :=
  affine P.Wc2 P.bc2 (fun j => relu (affine P.Wc1 P.bc1 bag j)) c

/-- The risk read off a bag vector. -/
def riskOf (P : Params) (bag : Fin 128 → EReal) : EReal :=
  (∑ k, relu (affine P.Ws1 P.bs1 bag k) * P.Ws2 k) + P.bs2

/-- Instance `n` of bag `b` of the input array, as a row. -/
def instRow (x : (⟨3, ![8, 50000, 256]⟩ : Shape).Idx → EReal) (b : Fin 8) (n : Fin 50000) (k : Fin 256) : EReal :=
  x (ix3 b n k)

/-- The bag vector of bag `b`, plain arrangement, the temperature as a quotient. -/
def bagOfPlain (P : Params) (x : (⟨3, ![8, 50000, 256]⟩ : Shape).Idx → EReal) (b : Fin 8) : Fin 128 → EReal :=
  bagPlain (fun n => scoreDiv P (instRow x b n)) (fun n => feat P (instRow x b n))

/-- The bag vector of bag `b`, blocked arrangement, the temperature as a product. -/
def bagOfBlocked (P : Params) (x : (⟨3, ![8, 50000, 256]⟩ : Shape).Idx → EReal) (b : Fin 8) : Fin 128 → EReal :=
  bagBlocked (fun n => scoreMul P (instRow x b n)) (fun n => feat P (instRow x b n))

/-- The class scores `[8,2]`, plain arrangement. -/
def logitsPlain (P : Params) (x : (⟨3, ![8, 50000, 256]⟩ : Shape).Idx → EReal) :
    (⟨2, ![8, 2]⟩ : Shape).Idx → EReal := fun i => logitsOf P (bagOfPlain P x (i 0)) (i 1)

/-- The risks `[8]`, plain arrangement. -/
def riskPlain (P : Params) (x : (⟨3, ![8, 50000, 256]⟩ : Shape).Idx → EReal) :
    (⟨1, ![8]⟩ : Shape).Idx → EReal := fun i => riskOf P (bagOfPlain P x (i 0))

/-- The class scores `[8,2]`, blocked arrangement. -/
def logitsBlocked (P : Params) (x : (⟨3, ![8, 50000, 256]⟩ : Shape).Idx → EReal) :
    (⟨2, ![8, 2]⟩ : Shape).Idx → EReal := fun i => logitsOf P (bagOfBlocked P x (i 0)) (i 1)

/-- The risks `[8]`, blocked arrangement. -/
def riskBlocked (P : Params) (x : (⟨3, ![8, 50000, 256]⟩ : Shape).Idx → EReal) :
    (⟨1, ![8]⟩ : Shape).Idx → EReal := fun i => riskOf P (bagOfBlocked P x (i 0))

end

end Cert.Mil
-- ==== Proof.LibColumnReduce.lean ====
/-
  Reusable lemmas: reductions down the columns of an [a, b] array, read at an entry.

  A vector.multi_reduction over axis 0 of an [a, b] array leaves a [b] array whose entry q gathers column q:
      <add>       from the zero accumulator:  Σ_p src[p, q],
      <maximumf>  from the accumulator's value:  the fold of max over p of src[p, q].
  Both are read over the extended reals; generic in the extents and the float format.
-/
import Idealize.ShloMosaic.Lib.Pipeline.Value
import Idealize.ShloMosaic.Lib.ValueIdx
import Idealize.ShloMosaic.PureOps.Ideal.Laws

noncomputable section

namespace Cert.ColumnReduce

open Idealize.ShloMosaic Idealize.ShloMosaic.ValueIdx

variable {a b : ℕ}

/-- The source index of a reduction over the columns: the column q with the row p inserted is (p, q). -/
theorem lift_col (h : (⟨2, ![a, b]⟩ : Shape).Reduces [(0 : Fin 2)] ⟨1, ![b]⟩) (q : Fin b) (p : Fin a) :
    h.lift (ix1 q) p = ix2 p q := by
  funext d
  apply Fin.ext
  show h.liftVal (ix1 q) p.val d = (ix2 p q d).val
  unfold Shape.Reduces.liftVal
  match d with
  | ⟨0, _⟩ => rfl
  | ⟨1, _⟩ => rfl

/-- A sum down the columns of an [a, b] array, from the zero accumulator, is at q the sum over p of the entries (p, q). -/
theorem colSum_apply {φ : FTy} (src : FVec Ideal ⟨2, ![a, b]⟩ φ) (acc : BitVec φ.bits)
    (h : (⟨2, ![a, b]⟩ : Shape).Reduces [(0 : Fin 2)] ⟨1, ![b]⟩) (hφ : FKind.Formats φ)
    (hacc : acc = FKind.add.neutral φ hφ) (q : Fin b) :
    multiReduction .add [(0 : Fin 2)] ⟨1, ![b]⟩ src acc h hφ hacc (ix1 q) = ∑ p : Fin a, src (ix2 p q) := by
  refine (Ideal.multiReduction_add_single src acc h hφ hacc (ix1 q)).trans ?_
  show ∑ p : Fin a, src (h.lift (ix1 q) p) = _
  exact Finset.sum_congr rfl fun p _ => congrArg src (lift_col h q p)

/-- A running maximum down the columns of an [a, b] array is at q the fold of max, from the accumulator's value, over
    the entries (p, q). -/
theorem colMax_apply {φ : FTy} (src : FVec Ideal ⟨2, ![a, b]⟩ φ) (acc : BitVec φ.bits)
    (h : (⟨2, ![a, b]⟩ : Shape).Reduces [(0 : Fin 2)] ⟨1, ![b]⟩) (hφ : FKind.Formats φ)
    (hacc : acc = FKind.maximumf.neutral φ hφ) (q : Fin b) :
    multiReduction .maximumf [(0 : Fin 2)] ⟨1, ![b]⟩ src acc h hφ hacc (ix1 q)
      = (Finset.univ : Finset (Fin a)).fold max (Ideal.ofBits φ acc) (fun p => src (ix2 p q)) := by
  refine (Ideal.multiReduction_maximumf_single src acc h hφ hacc (ix1 q)).trans ?_
  have e : (src ∘ h.lift (ix1 q)) = fun p => src (ix2 p q) := funext fun p => congrArg src (lift_col h q p)
  show (Finset.univ : Finset (Fin a)).fold max (Ideal.ofBits φ acc) (src ∘ h.lift (ix1 q)) = _
  rw [e]
  rfl

end Cert.ColumnReduce

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.LibRowOfVector.lean ====
/-
  Reusable lemmas: a vector viewed as a one-row matrix and back, read at an entry.

  A shape cast of a length-b vector to a [1, b] matrix keeps the row-major order, so entry (0, q) of the matrix is
  entry q of the vector; the cast of a [1, b] matrix to a length-b vector reads entry q from (0, q).  Generic in the
  extent b and in the element type.
-/
import Idealize.ShloMosaic.Lib.Pipeline.Value
import Idealize.ShloMosaic.Lib.ValueIdx

noncomputable section

namespace Cert.RowOfVector

open Idealize.ShloMosaic Idealize.ShloMosaic.ValueIdx

variable {α : Type} {b : ℕ}

/-- A vector viewed as one row reads, at (u, q), the vector's entry q. -/
theorem row_apply (v : (⟨1, ![b]⟩ : Shape).Idx → α) (h : (⟨1, ![b]⟩ : Shape).ShapeCasts ⟨2, ![1, b]⟩) (u : Fin 1)
    (q : Fin b) : shapeCast ⟨2, ![1, b]⟩ v h (ix2 u q) = v (ix1 q) := by
  refine shapeCast_apply v h (ix2 u q) (ix1 q) ?_
  rw [Shape.rowMajor_val_one, Shape.rowMajor_val_two]
  show q.val = u.val * b + q.val
  have hu : u.val = 0 := by have := u.isLt; omega
  rw [hu]; omega

/-- One row viewed as a vector reads, at q, the row's entry (0, q). -/
theorem vector_apply (v : (⟨2, ![1, b]⟩ : Shape).Idx → α) (h : (⟨2, ![1, b]⟩ : Shape).ShapeCasts ⟨1, ![b]⟩)
    (q : Fin b) : shapeCast ⟨1, ![b]⟩ v h (ix1 q) = v (ix2 (0 : Fin 1) q) := by
  refine shapeCast_apply v h (ix1 q) (ix2 (0 : Fin 1) q) ?_
  rw [Shape.rowMajor_val_one, Shape.rowMajor_val_two]
  show (0 : ℕ) * b + q.val = q.val
  omega

end Cert.RowOfVector

end
-- ==== Proof.MilTile1.lean ====
/-
  The online-softmax step of one block of 5000 instances, read at entries.

  From the block's scores s (a column [5000,1]) and the carried maximum m, normaliser l and accumulator acc
  the kernel forms
      M    = max m (max over the block of s),
      l'   = exp (m − M) · l + Σ_r exp (s r − M),
      acc' = exp (m − M) · acc q + Σ_r exp (s r − M) · h r q        (h the block's features),
  each through a column reduction, a cast of the reduced vector to a one-row array and broadcasts of one-entry
  arrays.  Every lemma reads one of these arrays at an entry, over the extended reals.  The three initial values
  (−∞, 0, 0) and the two same-shape casts on the way out are read here too.
-/
import proofs.«160597_j5995774345772_2_alg».proof.Proof.Gen.KernelIdeal.Skeleton
import proofs.«160597_j5995774345772_2_alg».proof.Proof.MilSpec
import proofs.«160597_j5995774345772_2_alg».proof.Proof.LibColumnReduce
import proofs.«160597_j5995774345772_2_alg».proof.Proof.LibKeepdimsColumn
import proofs.«160597_j5995774345772_2_alg».proof.Proof.LibRowOfVector
import Idealize.ShloMosaic.Lib.ValueLayout

open Idealize.ShloMosaic Idealize.ShloMosaic.ValueIdx
open Cert.KernelIdeal Cert.KernelIdeal.Gen Cert.Mil
open scoped BigOperators

namespace Cert.Mil.Tile

noncomputable section

/-- The word of minus infinity denotes the bottom of the extended reals. -/
theorem ofBits_negInf : Ideal.ofBits .f32 0xFF800000#32 = (⊥ : EReal) := by simp [Ideal.ofBits, Ideal.ieee]

/-- The block's scores as the kernel holds them: column 0 of the [5000,1] score array. -/
abbrev blockScore (v80 v83 : FVec Ideal S5000x128 .f32) (v86 : Vec Ideal S1x128 .f32) (v92 : Vec Ideal S1 .f32)
    (r : Fin 5000) : EReal :=
  k0_pay15 v80 v83 v86 v92 (ix2 r (0 : Fin 1))

/-- The maximum after the block: the larger of the carried maximum and the block's. -/
abbrev blockMax (v80 v83 : FVec Ideal S5000x128 .f32) (v86 : Vec Ideal S1x128 .f32) (v92 : Vec Ideal S1 .f32)
    (xs0 : Vec Ideal S1x1 .f32) : EReal :=
  max (xs0 (ix2 (0 : Fin 1) (0 : Fin 1))) (Finset.univ.fold max ⊥ (blockScore v80 v83 v86 v92))

/-- The new running maximum. -/
theorem newM (v80 v83 : FVec Ideal S5000x128 .f32) (v86 : Vec Ideal S1x128 .f32) (v92 : Vec Ideal S1 .f32)
    (xs0 : Vec Ideal S1x1 .f32) :
    k0_pay16 v80 v83 v86 v92 xs0 (ix2 (0 : Fin 1) (0 : Fin 1)) = blockMax v80 v83 v86 v92 xs0 := by
  unfold k0_pay16
  refine congrArg (max (xs0 (ix2 (0 : Fin 1) (0 : Fin 1)))) ?_
  refine (Cert.KeepdimsColumn.shapeCast_a_a1_apply _ _ (0 : Fin 1) (0 : Fin 1)).trans ?_
  refine (Cert.ColumnReduce.colMax_apply _ _ _ _ _ (0 : Fin 1)).trans ?_
  rw [ofBits_negInf]

/-- The rescaling factor of the carried normaliser and accumulator: exp (m − M). -/
theorem rescale_entry (v80 v83 : FVec Ideal S5000x128 .f32) (v86 : Vec Ideal S1x128 .f32) (v92 : Vec Ideal S1 .f32)
    (xs0 xs0' : Vec Ideal S1x1 .f32) :
    k0_pay17 v80 v83 v86 v92 xs0 xs0' (ix2 (0 : Fin 1) (0 : Fin 1))
      = Ideal.exp (xs0' (ix2 (0 : Fin 1) (0 : Fin 1)) - blockMax v80 v83 v86 v92 xs0) := by
  unfold k0_pay17
  refine congrArg Ideal.exp ?_
  refine congrArg (fun t : EReal => xs0' (ix2 (0 : Fin 1) (0 : Fin 1)) - t) ?_
  exact newM v80 v83 v86 v92 xs0

/-- The block's shifted exponentials: exp (s r − M) in row r. -/
theorem weight_entry (v80 v83 : FVec Ideal S5000x128 .f32) (v86 : Vec Ideal S1x128 .f32) (v92 : Vec Ideal S1 .f32)
    (xs0 : Vec Ideal S1x1 .f32) (r : Fin 5000) :
    k0_pay18 v80 v83 v86 v92 xs0 (ix2 r (0 : Fin 1))
      = Ideal.exp (blockScore v80 v83 v86 v92 r - blockMax v80 v83 v86 v92 xs0) := by
  unfold k0_pay18
  refine congrArg Ideal.exp ?_
  refine congrArg (fun t : EReal => blockScore v80 v83 v86 v92 r - t) ?_
  refine (broadcastTo_1b_ab_apply _ _ r (0 : Fin 1)).trans ?_
  exact newM v80 v83 v86 v92 xs0

/-- The new running normaliser. -/
theorem newL (v80 v83 : FVec Ideal S5000x128 .f32) (v86 : Vec Ideal S1x128 .f32) (v92 : Vec Ideal S1 .f32)
    (xs0 xs1 : Vec Ideal S1x1 .f32) :
    k0_pay19 v80 v83 v86 v92 xs0 xs0 xs1 (ix2 (0 : Fin 1) (0 : Fin 1))
      = Ideal.exp (xs0 (ix2 (0 : Fin 1) (0 : Fin 1)) - blockMax v80 v83 v86 v92 xs0) * xs1 (ix2 (0 : Fin 1) (0 : Fin 1))
        + ∑ r : Fin 5000, Ideal.exp (blockScore v80 v83 v86 v92 r - blockMax v80 v83 v86 v92 xs0) := by
  unfold k0_pay19
  refine (congrFun (shapeCast_self _ _) _).trans ?_
  refine congrArg₂ (fun a b : EReal => a + b) ?_ ?_
  · exact congrArg (fun t : EReal => t * xs1 (ix2 (0 : Fin 1) (0 : Fin 1))) (rescale_entry v80 v83 v86 v92 xs0 xs0)
  · refine (Cert.KeepdimsColumn.shapeCast_a_a1_apply _ _ (0 : Fin 1) (0 : Fin 1)).trans ?_
    refine (Cert.ColumnReduce.colSum_apply _ _ _ _ _ (0 : Fin 1)).trans ?_
    exact Finset.sum_congr rfl fun r _ => weight_entry v80 v83 v86 v92 xs0 r

/-- The new running accumulator, feature q. -/
theorem newAcc (v76 v80 v83 : FVec Ideal S5000x128 .f32) (v86 : Vec Ideal S1x128 .f32) (v92 : Vec Ideal S1 .f32)
    (xs0 : Vec Ideal S1x1 .f32) (xs2 : Vec Ideal S1x128 .f32) (q : Fin 128) :
    k0_pay20 v76 v80 v83 v86 v92 xs0 xs0 xs2 (ix2 (0 : Fin 1) q)
      = Ideal.exp (xs0 (ix2 (0 : Fin 1) (0 : Fin 1)) - blockMax v80 v83 v86 v92 xs0) * xs2 (ix2 (0 : Fin 1) q)
        + ∑ r : Fin 5000, Ideal.exp (blockScore v80 v83 v86 v92 r - blockMax v80 v83 v86 v92 xs0) * v76 (ix2 r q) := by
  unfold k0_pay20
  refine congrArg₂ (fun a b : EReal => a + b) ?_ ?_
  · refine congrArg (fun t : EReal => t * xs2 (ix2 (0 : Fin 1) q)) ?_
    refine (Cert.KeepdimsColumn.broadcastTo_a1_ab_apply _ _ (0 : Fin 1) q).trans ?_
    exact rescale_entry v80 v83 v86 v92 xs0 xs0
  · refine (Cert.RowOfVector.row_apply _ _ (0 : Fin 1) q).trans ?_
    refine (Cert.ColumnReduce.colSum_apply _ _ _ _ _ q).trans ?_
    refine Finset.sum_congr rfl fun r _ => ?_
    refine congrArg (fun t : EReal => t * v76 (ix2 r q)) ?_
    refine (Cert.KeepdimsColumn.broadcastTo_a1_ab_apply _ _ r q).trans ?_
    exact weight_entry v80 v83 v86 v92 xs0 r

/-- The accumulator leaves the block through a cast to its own shape: the identity. -/
theorem pay1_eq (v : FVec Ideal S1x128 .f32) : k0_pay1 v = v := shapeCast_self _ _

/-- The maximum leaves the block through a cast to its own shape: the identity. -/
theorem pay2_eq (v : FVec Ideal S1x1 .f32) : k0_pay2 v = v := shapeCast_self _ _

/-- The running maximum starts at minus infinity. -/
theorem pay7_entry : k0_pay7 (F := Ideal) (ix2 (0 : Fin 1) (0 : Fin 1)) = (⊥ : EReal) := by
  unfold k0_pay7
  refine (congrFun (shapeCast_self _ _) _).trans ?_
  exact ofBits_negInf

/-- The running normaliser starts at zero. -/
theorem pay8_entry : k0_pay8 (F := Ideal) (ix2 (0 : Fin 1) (0 : Fin 1)) = (0 : EReal) := by
  unfold k0_pay8
  refine (congrFun (shapeCast_self _ _) _).trans ?_
  exact Ideal.ofBits_zero_f32

/-- The running accumulator starts at zero in every feature. -/
theorem pay9_entry (q : Fin 128) : k0_pay9 (F := Ideal) (ix2 (0 : Fin 1) q) = (0 : EReal) := by
  unfold k0_pay9
  refine (congrFun (shapeCast_self _ _) _).trans ?_
  exact Ideal.ofBits_zero_f32

end

end Cert.Mil.Tile
-- ==== Proof.MilStep.lean ====
/-
  One tile of the pooled sum is one step of the block recurrence.

  Over the extended reals, if the block's scores are `s` and its features `v`, and the three running quantities the
  body loads are the fields of a state `st` of the recurrence, then the three quantities it leaves are the fields
  of `step s v st`: the new maximum is the larger of the old one and the block's, the old normaliser and weighted
  sum are rescaled by `exp (old max − new max)` and the block's shifted exponentials (weighted by the features)
  added.  The two heads applied to a state's sums read the class scores and the risk off their quotient.
-/
import proofs.«160597_j5995774345772_2_alg».proof.Proof.MilKStep
import proofs.«160597_j5995774345772_2_alg».proof.Proof.MilTile1

noncomputable section

namespace Cert.Mil.KStep

open Idealize.ShloMosaic Idealize.ShloMosaic.ValueIdx Cert.KernelIdeal Cert.KernelIdeal.Gen Cert.Mil Cert.Mil.Tile
open Cert.OnlineSoftmax (St step)

/-- The three running quantities after a tile are the fields of one step of the recurrence. -/
theorem tile_state (x0 : Vec Ideal S1x5000x256 .f32) (x1 : Vec Ideal S256x128 .f32) (x2 : Vec Ideal S128 .f32) (x3 : Vec Ideal S128 .f32) (x4 : Vec Ideal S128 .f32) (x5 : Vec Ideal S128x128 .f32) (x6 : Vec Ideal S128 .f32) (x7 : Vec Ideal S128 .f32) (x8 : Vec Ideal S128 .f32) (x9 : Vec Ideal S128x128 .f32) (x10 : Vec Ideal S128 .f32) (x11 : Vec Ideal S1x128 .f32) (x12 : Vec Ideal S1 .f32) (xs0 xs1 : Vec Ideal S1x1 .f32) (xs2 : Vec Ideal S1x128 .f32)
    (s : Fin 5000 → EReal) (v : Fin 5000 → Fin 128 → EReal)
    (hs : ∀ r, k0_pay15 (hidden x0 x1 x2 x3 x4 x5 x6 x7 x8 x9) (k0_pay14 x10) x11 x12 (ix2 r (0 : Fin 1)) = s r)
    (hv : ∀ r q, feats x0 x1 x2 x3 x4 x5 x6 x7 x8 (ix2 r q) = v r q)
    (st : St (Fin 128)) (hm : xs0 (ix2 (0 : Fin 1) (0 : Fin 1)) = st.m) (hl : xs1 (ix2 (0 : Fin 1) (0 : Fin 1)) = st.l)
    (ha : ∀ q, xs2 (ix2 (0 : Fin 1) q) = st.acc q) :
    tileMax x0 x1 x2 x3 x4 x5 x6 x7 x8 x9 x10 x11 x12 xs0 (ix2 (0 : Fin 1) (0 : Fin 1)) = (step s v st).m
    ∧ tileNorm x0 x1 x2 x3 x4 x5 x6 x7 x8 x9 x10 x11 x12 xs0 xs1 (ix2 (0 : Fin 1) (0 : Fin 1)) = (step s v st).l
    ∧ ∀ q, tileAcc x0 x1 x2 x3 x4 x5 x6 x7 x8 x9 x10 x11 x12 xs0 xs2 (ix2 (0 : Fin 1) q) = (step s v st).acc q := by
  have hsf : blockScore (hidden x0 x1 x2 x3 x4 x5 x6 x7 x8 x9) (k0_pay14 x10) x11 x12 = s := funext hs
  have hM : blockMax (hidden x0 x1 x2 x3 x4 x5 x6 x7 x8 x9) (k0_pay14 x10) x11 x12 xs0 = max st.m (Finset.univ.fold max ⊥ s) := by
    unfold blockMax; rw [hsf, hm]
  refine ⟨?_, ?_, fun q => ?_⟩
  · unfold tileMax
    rw [pay2_eq, newM, hM]
    rfl
  · unfold tileNorm
    rw [newL, hM, hsf, hm, hl]
    rfl
  · unfold tileAcc
    rw [pay1_eq, newAcc, hM, hsf, hm, ha]
    simp only [hv]
    rfl

end Cert.Mil.KStep

end
-- ==== Proof.MilTileAgrees.lean ====
/-
  How the twenty weight arrays of the kernel meet the specification's weights: entry by entry.

  The kernel receives the second attention weight as a [1,128] row and the last risk weight as a [64,1] column;
  every other array is read at the coordinates the specification names.
-/
import proofs.«160597_j5995774345772_2_alg».proof.Proof.Gen.KernelIdeal.Skeleton
import proofs.«160597_j5995774345772_2_alg».proof.Proof.MilSpec

open Idealize.ShloMosaic Idealize.ShloMosaic.ValueIdx
open Cert.KernelIdeal Cert.KernelIdeal.Gen Cert.Mil
open scoped BigOperators

namespace Cert.Mil.Tile

noncomputable section

/-- The specification's weights are the entries of the arrays the kernel loads. -/
structure Agrees (P : Params)
    (x1 : Vec Ideal S256x128 .f32) (x2 x3 x4 : Vec Ideal S128 .f32) (x5 : Vec Ideal S128x128 .f32)
    (x6 x7 x8 : Vec Ideal S128 .f32) (x9 : Vec Ideal S128x128 .f32) (x10 : Vec Ideal S128 .f32)
    (x11 : Vec Ideal S1x128 .f32) (x12 : Vec Ideal S1 .f32) (x13 : Vec Ideal S128x128 .f32)
    (x14 : Vec Ideal S128 .f32) (x15 : Vec Ideal S128x2 .f32) (x16 : Vec Ideal S2 .f32)
    (x17 : Vec Ideal S128x64 .f32) (x18 : Vec Ideal S64 .f32) (x19 : Vec Ideal S64x1 .f32)
    (x20 : Vec Ideal S1 .f32) : Prop where
  W1 : ∀ (k : Fin 256) (q : Fin 128), P.W1 k q = x1 (ix2 k q)
  b1 : ∀ q : Fin 128, P.b1 q = x2 (ix1 q)
  g1 : ∀ q : Fin 128, P.g1 q = x3 (ix1 q)
  be1 : ∀ q : Fin 128, P.be1 q = x4 (ix1 q)
  W2 : ∀ (k q : Fin 128), P.W2 k q = x5 (ix2 k q)
  b2 : ∀ q : Fin 128, P.b2 q = x6 (ix1 q)
  g2 : ∀ q : Fin 128, P.g2 q = x7 (ix1 q)
  be2 : ∀ q : Fin 128, P.be2 q = x8 (ix1 q)
  Wa1 : ∀ (k q : Fin 128), P.Wa1 k q = x9 (ix2 k q)
  ba1 : ∀ q : Fin 128, P.ba1 q = x10 (ix1 q)
  Wa2 : ∀ k : Fin 128, P.Wa2 k = x11 (ix2 (0 : Fin 1) k)
  ba2 : P.ba2 = x12 (ix1 (0 : Fin 1))
  Wc1 : ∀ (k q : Fin 128), P.Wc1 k q = x13 (ix2 k q)
  bc1 : ∀ q : Fin 128, P.bc1 q = x14 (ix1 q)
  Wc2 : ∀ (k : Fin 128) (q : Fin 2), P.Wc2 k q = x15 (ix2 k q)
  bc2 : ∀ q : Fin 2, P.bc2 q = x16 (ix1 q)
  Ws1 : ∀ (k : Fin 128) (q : Fin 64), P.Ws1 k q = x17 (ix2 k q)
  bs1 : ∀ q : Fin 64, P.bs1 q = x18 (ix1 q)
  Ws2 : ∀ k : Fin 64, P.Ws2 k = x19 (ix2 k (0 : Fin 1))
  bs2 : P.bs2 = x20 (ix1 (0 : Fin 1))

end

end Cert.Mil.Tile
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.MilTile2.lean ====
/-
  The two heads that read the class scores and the risk off the pooled bag vector, at entries.

  The bag vector is the running accumulator divided by the running normaliser, entry by entry.  Each head is a
  one-row matrix product plus a bias vector viewed as a row, a clamp at zero, and a second product plus bias;
  the kernel casts the [1,2] (or [1,1]) result to a block with one more leading unit axis.  Each lemma reads one
  of these arrays at an entry, over the extended reals, and names the result in the specification's words.
-/
import proofs.«160597_j5995774345772_2_alg».proof.Proof.Gen.KernelIdeal.Skeleton
import proofs.«160597_j5995774345772_2_alg».proof.Proof.MilSpec
import proofs.«160597_j5995774345772_2_alg».proof.Proof.MilTileAgrees
import proofs.«160597_j5995774345772_2_alg».proof.Proof.LibMatmulNN
import proofs.«160597_j5995774345772_2_alg».proof.Proof.LibKeepdimsColumn
import proofs.«160597_j5995774345772_2_alg».proof.Proof.LibRowOfVector
import Idealize.ShloMosaic.Lib.ValueLayout

open Idealize.ShloMosaic Idealize.ShloMosaic.ValueIdx
open Cert.KernelIdeal Cert.KernelIdeal.Gen Cert.Mil
open scoped BigOperators

namespace Cert.Mil.Tile

noncomputable section

/-- A one-row matrix product into zeros plus a bias vector viewed as a row, at entry (0, q):
    the inner product of the row with column q, plus the bias at q. -/
theorem rowAffine_entry {K N : ℕ} {φ₁ φ₂ : FTy}
    (D : DotDims ⟨2, ![1, K]⟩ ⟨2, ![K, N]⟩ ⟨2, ![1, N]⟩) (hD : D = DotDims.plain 1 K N)
    (lhs : FVec Ideal ⟨2, ![1, K]⟩ φ₁) (rhs : FVec Ideal ⟨2, ![K, N]⟩ φ₂) (b : FVec Ideal ⟨1, ![N]⟩ .f32)
    (h : (⟨1, ![N]⟩ : Shape).ShapeCasts ⟨2, ![1, N]⟩) (q : Fin N) :
    addf (matmul D none lhs rhs (constant (F := Ideal) ⟨2, ![1, N]⟩ .f32 0x00000000#32)) (shapeCast ⟨2, ![1, N]⟩ b h)
        (ix2 (0 : Fin 1) q)
      = (∑ k : Fin K, lhs (ix2 (0 : Fin 1) k) * rhs (ix2 k q)) + b (ix1 q) :=
  congrArg₂ (fun a c : EReal => a + c) (Cert.MatmulNN.matmul_zero_apply D hD none lhs rhs (0 : Fin 1) q)
    (Cert.RowOfVector.row_apply b h (0 : Fin 1) q)

/-- The pooled bag vector: the accumulator over the normaliser. -/
abbrev bagOf (acc : Vec Ideal S1x128 .f32) (l : Vec Ideal S1x1 .f32) (q : Fin 128) : EReal :=
  Ideal.div (acc (ix2 (0 : Fin 1) q)) (l (ix2 (0 : Fin 1) (0 : Fin 1)))

/-- The quotient the kernel forms is the bag vector, entry by entry. -/
theorem bag_entry (acc : Vec Ideal S1x128 .f32) (l : Vec Ideal S1x1 .f32) (q : Fin 128) :
    k0_pay4 acc l (ix2 (0 : Fin 1) q) = bagOf acc l q := by
  unfold k0_pay4
  refine congrArg (fun t : EReal => Ideal.div (acc (ix2 (0 : Fin 1) q)) t) ?_
  exact Cert.KeepdimsColumn.broadcastTo_a1_ab_apply _ _ (0 : Fin 1) q

variable {P : Params}
  {x1 : Vec Ideal S256x128 .f32} {x2 x3 x4 : Vec Ideal S128 .f32} {x5 : Vec Ideal S128x128 .f32}
  {x6 x7 x8 : Vec Ideal S128 .f32} {x9 : Vec Ideal S128x128 .f32} {x10 : Vec Ideal S128 .f32}
  {x11 : Vec Ideal S1x128 .f32} {x12 : Vec Ideal S1 .f32} {x13 : Vec Ideal S128x128 .f32}
  {x14 : Vec Ideal S128 .f32} {x15 : Vec Ideal S128x2 .f32} {x16 : Vec Ideal S2 .f32}
  {x17 : Vec Ideal S128x64 .f32} {x18 : Vec Ideal S64 .f32} {x19 : Vec Ideal S64x1 .f32}
  {x20 : Vec Ideal S1 .f32}

/-- The class scores the kernel stores are the specification's, read off the bag vector. -/
theorem logits_entry (hA : Agrees P x1 x2 x3 x4 x5 x6 x7 x8 x9 x10 x11 x12 x13 x14 x15 x16 x17 x18 x19 x20)
    (acc : Vec Ideal S1x128 .f32) (l : Vec Ideal S1x1 .f32) (c : Fin 2) :
    k0_pay5 acc l x13 x14 x15 x16 (ix3 (0 : Fin 1) (0 : Fin 1) c) = logitsOf P (bagOf acc l) c := by
  unfold k0_pay5 logitsOf relu affine
  refine (shapeCast_ab_1ab_apply _ _ (0 : Fin 1) (0 : Fin 1) c).trans ?_
  refine (rowAffine_entry _ rfl _ _ _ _ c).trans ?_
  refine congrArg₂ (fun a b : EReal => a + b) (Finset.sum_congr rfl fun k _ => ?_) (hA.bc2 c).symm
  refine congrArg₂ (fun a b : EReal => a * b) ?_ (hA.Wc2 k c).symm
  refine congrArg₂ (fun a b : EReal => max a b) ?_ rfl
  refine (rowAffine_entry _ rfl _ _ _ _ k).trans ?_
  refine congrArg₂ (fun a b : EReal => a + b) (Finset.sum_congr rfl fun j _ => ?_) (hA.bc1 k).symm
  exact congrArg₂ (fun a b : EReal => a * b) (bag_entry acc l j) (hA.Wc1 j k).symm

/-- The risk the kernel stores is the specification's, read off the bag vector. -/
theorem risk_entry (hA : Agrees P x1 x2 x3 x4 x5 x6 x7 x8 x9 x10 x11 x12 x13 x14 x15 x16 x17 x18 x19 x20)
    (acc : Vec Ideal S1x128 .f32) (l : Vec Ideal S1x1 .f32) :
    k0_pay3 (k0_pay6 acc l x17 x18 x19) x20 (ix3 (0 : Fin 1) (0 : Fin 1) (0 : Fin 1)) = riskOf P (bagOf acc l) := by
  unfold k0_pay3 riskOf relu affine
  refine (shapeCast_ab_1ab_apply _ _ (0 : Fin 1) (0 : Fin 1) (0 : Fin 1)).trans ?_
  refine congrArg₂ (fun a b : EReal => a + b) ?_
    ((Cert.KeepdimsColumn.shapeCast_a_a1_apply _ _ (0 : Fin 1) (0 : Fin 1)).trans hA.bs2.symm)
  unfold k0_pay6
  refine (Cert.MatmulNN.matmul_zero_apply _ rfl none _ _ (0 : Fin 1) (0 : Fin 1)).trans ?_
  refine Finset.sum_congr rfl fun k _ => ?_
  refine congrArg₂ (fun a b : EReal => a * b) ?_ (hA.Ws2 k).symm
  refine congrArg₂ (fun a b : EReal => max a b) ?_ rfl
  refine (rowAffine_entry _ rfl _ _ _ _ k).trans ?_
  refine congrArg₂ (fun a b : EReal => a + b) (Finset.sum_congr rfl fun j _ => ?_) (hA.bs1 k).symm
  exact congrArg₂ (fun a b : EReal => a * b) (bag_entry acc l j) (hA.Ws1 j k).symm

end

end Cert.Mil.Tile
-- ==== Proof.MilCases.lean ====
/-
  The three kinds of grid point, over the extended reals.

  With the block's scores `s` and features `v`: a bag's first tile leaves the recurrence's state after one step
  from its initial state; any later tile, started from buffers holding a state `st`, leaves `step s v st`; and on
  the last tile the two output blocks hold the class scores and the risk of the quotient
  `(step s v st).acc / (step s v st).l`.
-/
import proofs.«160597_j5995774345772_2_alg».proof.Proof.MilPieces
import proofs.«160597_j5995774345772_2_alg».proof.Proof.MilStep
import proofs.«160597_j5995774345772_2_alg».proof.Proof.MilTile2

noncomputable section

namespace Cert.Mil.Cases

open Idealize.ShloMosaic Idealize.ShloMosaic.ValueIdx Idealize.ShloMosaic.TcCoe Idealize.SL.Sem
open Cert.KernelIdeal Cert.KernelIdeal.Gen Cert.KernelIdeal.GenP Cert.Mil Cert.Mil.KStep Cert.Mil.Tile Cert.Mil.Pieces
open Cert.OnlineSoftmax (St step init)

/-- A bag's first tile: the state after one step from the initial state. -/
theorem first_state (c : Dev nD) (i : grid0.Coords) (arg2 : Memref sig .tc .vmem S1x5000x256 .f32) (harg2 : arg2.IsWhole) (arg3 : Memref sig .tc .vmem S256x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x128 .f32) (harg11 : arg11.IsWhole) (arg12 : Memref sig .tc .vmem S128 .f32) (harg12 : arg12.IsWhole) (arg13 : Memref sig .tc .vmem S1x128 .f32) (harg13 : arg13.IsWhole) (arg14 : Memref sig .tc .vmem S1 .f32) (harg14 : arg14.IsWhole) (arg15 : Memref sig .tc .vmem S128x128 .f32) (harg15 : arg15.IsWhole) (arg16 : Memref sig .tc .vmem S128 .f32) (harg16 : arg16.IsWhole) (arg17 : Memref sig .tc .vmem S128x2 .f32) (harg17 : arg17.IsWhole) (arg18 : Memref sig .tc .vmem S2 .f32) (harg18 : arg18.IsWhole) (arg19 : Memref sig .tc .vmem S128x64 .f32) (harg19 : arg19.IsWhole) (arg20 : Memref sig .tc .vmem S64 .f32) (harg20 : arg20.IsWhole) (arg21 : Memref sig .tc .vmem S64x1 .f32) (harg21 : arg21.IsWhole) (arg22 : Memref sig .tc .vmem S1 .f32) (harg22 : arg22.IsWhole) (arg23 : Memref sig .tc .vmem S1x1x2 .f32) (harg23 : arg23.IsWhole) (arg24 : Memref sig .tc .vmem S1x1x1 .f32) (harg24 : arg24.IsWhole) (arg25 : Memref sig .tc .vmem S1x1 .f32) (harg25 : arg25.IsWhole) (arg26 : Memref sig .tc .vmem S1x1 .f32) (harg26 : arg26.IsWhole) (arg27 : Memref sig .tc .vmem S1x128 .f32) (harg27 : arg27.IsWhole) (hc0 : cond0_0 i) (hc1 : ¬cond0_1 i) (x0 : Vec Ideal S1x5000x256 .f32) (x1 : Vec Ideal S256x128 .f32) (x2 : Vec Ideal S128 .f32) (x3 : Vec Ideal S128 .f32) (x4 : Vec Ideal S128 .f32) (x5 : Vec Ideal S128x128 .f32) (x6 : Vec Ideal S128 .f32) (x7 : Vec Ideal S128 .f32) (x8 : Vec Ideal S128 .f32) (x9 : Vec Ideal S128x128 .f32) (x10 : Vec Ideal S128 .f32) (x11 : Vec Ideal S1x128 .f32) (x12 : Vec Ideal S1 .f32) (x13 : Vec Ideal S128x128 .f32) (x14 : Vec Ideal S128 .f32) (x15 : Vec Ideal S128x2 .f32) (x16 : Vec Ideal S2 .f32) (x17 : Vec Ideal S128x64 .f32) (x18 : Vec Ideal S64 .f32) (x19 : Vec Ideal S64x1 .f32) (x20 : Vec Ideal S1 .f32)
    (s : Fin 5000 → EReal) (v : Fin 5000 → Fin 128 → EReal)
    (hs : ∀ r, k0_pay15 (hidden x0 x1 x2 x3 x4 x5 x6 x7 x8 x9) (k0_pay14 x10) x11 x12 (ix2 r (0 : Fin 1)) = s r)
    (hv : ∀ r q, feats x0 x1 x2 x3 x4 x5 x6 x7 x8 (ix2 r q) = v r q) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20  (ix2 (0 : Fin 1) (0 : Fin 1)) = (step s v (init : St (Fin 128))).m
    ∧ sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20  (ix2 (0 : Fin 1) (0 : Fin 1)) = (step s v (init : St (Fin 128))).l
    ∧ ∀ q, sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20  (ix2 (0 : Fin 1) q) = (step s v (init : St (Fin 128))).acc q := by
  rw [first_max (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 , first_norm (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 , first_acc (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 ]
  exact tile_state x0 x1 x2 x3 x4 x5 x6 x7 x8 x9 x10 x11 x12 (k0_pay7 (F := Ideal)) (k0_pay8 (F := Ideal)) (k0_pay9 (F := Ideal)) s v hs hv (init : St (Fin 128))
    pay7_entry pay8_entry pay9_entry

/-- A middle tile: one more step of the recurrence. -/
theorem mid_state (c : Dev nD) (i : grid0.Coords) (arg2 : Memref sig .tc .vmem S1x5000x256 .f32) (harg2 : arg2.IsWhole) (arg3 : Memref sig .tc .vmem S256x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x128 .f32) (harg11 : arg11.IsWhole) (arg12 : Memref sig .tc .vmem S128 .f32) (harg12 : arg12.IsWhole) (arg13 : Memref sig .tc .vmem S1x128 .f32) (harg13 : arg13.IsWhole) (arg14 : Memref sig .tc .vmem S1 .f32) (harg14 : arg14.IsWhole) (arg15 : Memref sig .tc .vmem S128x128 .f32) (harg15 : arg15.IsWhole) (arg16 : Memref sig .tc .vmem S128 .f32) (harg16 : arg16.IsWhole) (arg17 : Memref sig .tc .vmem S128x2 .f32) (harg17 : arg17.IsWhole) (arg18 : Memref sig .tc .vmem S2 .f32) (harg18 : arg18.IsWhole) (arg19 : Memref sig .tc .vmem S128x64 .f32) (harg19 : arg19.IsWhole) (arg20 : Memref sig .tc .vmem S64 .f32) (harg20 : arg20.IsWhole) (arg21 : Memref sig .tc .vmem S64x1 .f32) (harg21 : arg21.IsWhole) (arg22 : Memref sig .tc .vmem S1 .f32) (harg22 : arg22.IsWhole) (arg23 : Memref sig .tc .vmem S1x1x2 .f32) (harg23 : arg23.IsWhole) (arg24 : Memref sig .tc .vmem S1x1x1 .f32) (harg24 : arg24.IsWhole) (arg25 : Memref sig .tc .vmem S1x1 .f32) (harg25 : arg25.IsWhole) (arg26 : Memref sig .tc .vmem S1x1 .f32) (harg26 : arg26.IsWhole) (arg27 : Memref sig .tc .vmem S1x128 .f32) (harg27 : arg27.IsWhole) (hc0 : ¬cond0_0 i) (hc1 : ¬cond0_1 i) (x0 : Vec Ideal S1x5000x256 .f32) (x1 : Vec Ideal S256x128 .f32) (x2 : Vec Ideal S128 .f32) (x3 : Vec Ideal S128 .f32) (x4 : Vec Ideal S128 .f32) (x5 : Vec Ideal S128x128 .f32) (x6 : Vec Ideal S128 .f32) (x7 : Vec Ideal S128 .f32) (x8 : Vec Ideal S128 .f32) (x9 : Vec Ideal S128x128 .f32) (x10 : Vec Ideal S128 .f32) (x11 : Vec Ideal S1x128 .f32) (x12 : Vec Ideal S1 .f32) (x13 : Vec Ideal S128x128 .f32) (x14 : Vec Ideal S128 .f32) (x15 : Vec Ideal S128x2 .f32) (x16 : Vec Ideal S2 .f32) (x17 : Vec Ideal S128x64 .f32) (x18 : Vec Ideal S64 .f32) (x19 : Vec Ideal S64x1 .f32) (x20 : Vec Ideal S1 .f32) (xs0 : Vec Ideal S1x1 .f32) (xs1 : Vec Ideal S1x1 .f32) (xs2 : Vec Ideal S1x128 .f32)
    (s : Fin 5000 → EReal) (v : Fin 5000 → Fin 128 → EReal)
    (hs : ∀ r, k0_pay15 (hidden x0 x1 x2 x3 x4 x5 x6 x7 x8 x9) (k0_pay14 x10) x11 x12 (ix2 r (0 : Fin 1)) = s r)
    (hv : ∀ r q, feats x0 x1 x2 x3 x4 x5 x6 x7 x8 (ix2 r q) = v r q)
    (st : St (Fin 128)) (hm : xs0 (ix2 (0 : Fin 1) (0 : Fin 1)) = st.m) (hl : xs1 (ix2 (0 : Fin 1) (0 : Fin 1)) = st.l)
    (ha : ∀ q, xs2 (ix2 (0 : Fin 1) q) = st.acc q) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xs0 xs1 xs2 (ix2 (0 : Fin 1) (0 : Fin 1)) = (step s v st).m
    ∧ sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xs0 xs1 xs2 (ix2 (0 : Fin 1) (0 : Fin 1)) = (step s v st).l
    ∧ ∀ q, sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xs0 xs1 xs2 (ix2 (0 : Fin 1) q) = (step s v st).acc q := by
  rw [mid_max (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xs0 xs1 xs2, mid_norm (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xs0 xs1 xs2, mid_acc (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xs0 xs1 xs2]
  exact tile_state x0 x1 x2 x3 x4 x5 x6 x7 x8 x9 x10 x11 x12 xs0 xs1 xs2 s v hs hv st hm hl ha

/-- The last tile: one more step of the recurrence. -/
theorem last_state (c : Dev nD) (i : grid0.Coords) (arg2 : Memref sig .tc .vmem S1x5000x256 .f32) (harg2 : arg2.IsWhole) (arg3 : Memref sig .tc .vmem S256x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x128 .f32) (harg11 : arg11.IsWhole) (arg12 : Memref sig .tc .vmem S128 .f32) (harg12 : arg12.IsWhole) (arg13 : Memref sig .tc .vmem S1x128 .f32) (harg13 : arg13.IsWhole) (arg14 : Memref sig .tc .vmem S1 .f32) (harg14 : arg14.IsWhole) (arg15 : Memref sig .tc .vmem S128x128 .f32) (harg15 : arg15.IsWhole) (arg16 : Memref sig .tc .vmem S128 .f32) (harg16 : arg16.IsWhole) (arg17 : Memref sig .tc .vmem S128x2 .f32) (harg17 : arg17.IsWhole) (arg18 : Memref sig .tc .vmem S2 .f32) (harg18 : arg18.IsWhole) (arg19 : Memref sig .tc .vmem S128x64 .f32) (harg19 : arg19.IsWhole) (arg20 : Memref sig .tc .vmem S64 .f32) (harg20 : arg20.IsWhole) (arg21 : Memref sig .tc .vmem S64x1 .f32) (harg21 : arg21.IsWhole) (arg22 : Memref sig .tc .vmem S1 .f32) (harg22 : arg22.IsWhole) (arg23 : Memref sig .tc .vmem S1x1x2 .f32) (harg23 : arg23.IsWhole) (arg24 : Memref sig .tc .vmem S1x1x1 .f32) (harg24 : arg24.IsWhole) (arg25 : Memref sig .tc .vmem S1x1 .f32) (harg25 : arg25.IsWhole) (arg26 : Memref sig .tc .vmem S1x1 .f32) (harg26 : arg26.IsWhole) (arg27 : Memref sig .tc .vmem S1x128 .f32) (harg27 : arg27.IsWhole) (hc0 : ¬cond0_0 i) (hc1 : cond0_1 i) (x0 : Vec Ideal S1x5000x256 .f32) (x1 : Vec Ideal S256x128 .f32) (x2 : Vec Ideal S128 .f32) (x3 : Vec Ideal S128 .f32) (x4 : Vec Ideal S128 .f32) (x5 : Vec Ideal S128x128 .f32) (x6 : Vec Ideal S128 .f32) (x7 : Vec Ideal S128 .f32) (x8 : Vec Ideal S128 .f32) (x9 : Vec Ideal S128x128 .f32) (x10 : Vec Ideal S128 .f32) (x11 : Vec Ideal S1x128 .f32) (x12 : Vec Ideal S1 .f32) (x13 : Vec Ideal S128x128 .f32) (x14 : Vec Ideal S128 .f32) (x15 : Vec Ideal S128x2 .f32) (x16 : Vec Ideal S2 .f32) (x17 : Vec Ideal S128x64 .f32) (x18 : Vec Ideal S64 .f32) (x19 : Vec Ideal S64x1 .f32) (x20 : Vec Ideal S1 .f32) (xs0 : Vec Ideal S1x1 .f32) (xs1 : Vec Ideal S1x1 .f32) (xs2 : Vec Ideal S1x128 .f32)
    (s : Fin 5000 → EReal) (v : Fin 5000 → Fin 128 → EReal)
    (hs : ∀ r, k0_pay15 (hidden x0 x1 x2 x3 x4 x5 x6 x7 x8 x9) (k0_pay14 x10) x11 x12 (ix2 r (0 : Fin 1)) = s r)
    (hv : ∀ r q, feats x0 x1 x2 x3 x4 x5 x6 x7 x8 (ix2 r q) = v r q)
    (st : St (Fin 128)) (hm : xs0 (ix2 (0 : Fin 1) (0 : Fin 1)) = st.m) (hl : xs1 (ix2 (0 : Fin 1) (0 : Fin 1)) = st.l)
    (ha : ∀ q, xs2 (ix2 (0 : Fin 1) q) = st.acc q) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xs0 xs1 xs2 (ix2 (0 : Fin 1) (0 : Fin 1)) = (step s v st).m
    ∧ sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xs0 xs1 xs2 (ix2 (0 : Fin 1) (0 : Fin 1)) = (step s v st).l
    ∧ ∀ q, sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xs0 xs1 xs2 (ix2 (0 : Fin 1) q) = (step s v st).acc q := by
  rw [last_max (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xs0 xs1 xs2, last_norm (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xs0 xs1 xs2, last_acc (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xs0 xs1 xs2]
  exact tile_state x0 x1 x2 x3 x4 x5 x6 x7 x8 x9 x10 x11 x12 xs0 xs1 xs2 s v hs hv st hm hl ha

/-- The last tile's output blocks: the two heads of the quotient of the new sums. -/
theorem last_out (c : Dev nD) (i : grid0.Coords) (arg2 : Memref sig .tc .vmem S1x5000x256 .f32) (harg2 : arg2.IsWhole) (arg3 : Memref sig .tc .vmem S256x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x128 .f32) (harg11 : arg11.IsWhole) (arg12 : Memref sig .tc .vmem S128 .f32) (harg12 : arg12.IsWhole) (arg13 : Memref sig .tc .vmem S1x128 .f32) (harg13 : arg13.IsWhole) (arg14 : Memref sig .tc .vmem S1 .f32) (harg14 : arg14.IsWhole) (arg15 : Memref sig .tc .vmem S128x128 .f32) (harg15 : arg15.IsWhole) (arg16 : Memref sig .tc .vmem S128 .f32) (harg16 : arg16.IsWhole) (arg17 : Memref sig .tc .vmem S128x2 .f32) (harg17 : arg17.IsWhole) (arg18 : Memref sig .tc .vmem S2 .f32) (harg18 : arg18.IsWhole) (arg19 : Memref sig .tc .vmem S128x64 .f32) (harg19 : arg19.IsWhole) (arg20 : Memref sig .tc .vmem S64 .f32) (harg20 : arg20.IsWhole) (arg21 : Memref sig .tc .vmem S64x1 .f32) (harg21 : arg21.IsWhole) (arg22 : Memref sig .tc .vmem S1 .f32) (harg22 : arg22.IsWhole) (arg23 : Memref sig .tc .vmem S1x1x2 .f32) (harg23 : arg23.IsWhole) (arg24 : Memref sig .tc .vmem S1x1x1 .f32) (harg24 : arg24.IsWhole) (arg25 : Memref sig .tc .vmem S1x1 .f32) (harg25 : arg25.IsWhole) (arg26 : Memref sig .tc .vmem S1x1 .f32) (harg26 : arg26.IsWhole) (arg27 : Memref sig .tc .vmem S1x128 .f32) (harg27 : arg27.IsWhole) (hc0 : ¬cond0_0 i) (hc1 : cond0_1 i) (x0 : Vec Ideal S1x5000x256 .f32) (x1 : Vec Ideal S256x128 .f32) (x2 : Vec Ideal S128 .f32) (x3 : Vec Ideal S128 .f32) (x4 : Vec Ideal S128 .f32) (x5 : Vec Ideal S128x128 .f32) (x6 : Vec Ideal S128 .f32) (x7 : Vec Ideal S128 .f32) (x8 : Vec Ideal S128 .f32) (x9 : Vec Ideal S128x128 .f32) (x10 : Vec Ideal S128 .f32) (x11 : Vec Ideal S1x128 .f32) (x12 : Vec Ideal S1 .f32) (x13 : Vec Ideal S128x128 .f32) (x14 : Vec Ideal S128 .f32) (x15 : Vec Ideal S128x2 .f32) (x16 : Vec Ideal S2 .f32) (x17 : Vec Ideal S128x64 .f32) (x18 : Vec Ideal S64 .f32) (x19 : Vec Ideal S64x1 .f32) (x20 : Vec Ideal S1 .f32) (xs0 : Vec Ideal S1x1 .f32) (xs1 : Vec Ideal S1x1 .f32) (xs2 : Vec Ideal S1x128 .f32)
    (P : Params) (hA : Agrees P x1 x2 x3 x4 x5 x6 x7 x8 x9 x10 x11 x12 x13 x14 x15 x16 x17 x18 x19 x20)
    (s : Fin 5000 → EReal) (v : Fin 5000 → Fin 128 → EReal)
    (hs : ∀ r, k0_pay15 (hidden x0 x1 x2 x3 x4 x5 x6 x7 x8 x9) (k0_pay14 x10) x11 x12 (ix2 r (0 : Fin 1)) = s r)
    (hv : ∀ r q, feats x0 x1 x2 x3 x4 x5 x6 x7 x8 (ix2 r q) = v r q)
    (st : St (Fin 128)) (hm : xs0 (ix2 (0 : Fin 1) (0 : Fin 1)) = st.m) (hl : xs1 (ix2 (0 : Fin 1) (0 : Fin 1)) = st.l)
    (ha : ∀ q, xs2 (ix2 (0 : Fin 1) q) = st.acc q) :
    (∀ c' : Fin 2, out0_C_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xs0 xs1 xs2 (ix3 (0 : Fin 1) (0 : Fin 1) c')
        = logitsOf P (fun q => Ideal.div ((step s v st).acc q) (step s v st).l) c')
    ∧ out0_C_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xs0 xs1 xs2 (ix3 (0 : Fin 1) (0 : Fin 1) (0 : Fin 1))
        = riskOf P (fun q => Ideal.div ((step s v st).acc q) (step s v st).l) := by
  obtain ⟨-, h1, h2⟩ := tile_state x0 x1 x2 x3 x4 x5 x6 x7 x8 x9 x10 x11 x12 xs0 xs1 xs2 s v hs hv st hm hl ha
  have hb : bagOf (tileAcc x0 x1 x2 x3 x4 x5 x6 x7 x8 x9 x10 x11 x12 xs0 xs2) (tileNorm x0 x1 x2 x3 x4 x5 x6 x7 x8 x9 x10 x11 x12 xs0 xs1)
      = fun q => Ideal.div ((step s v st).acc q) (step s v st).l := by
    funext q
    show Ideal.div _ _ = _
    rw [h2 q, h1]
  rw [last_logits (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xs0 xs1 xs2, last_risk (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 x16 x17 x18 x19 x20 xs0 xs1 xs2]
  unfold headLogits headRisk
  refine ⟨fun c' => ?_, ?_⟩
  · rw [logits_entry hA, hb]
  · rw [risk_entry hA, hb]

end Cert.Mil.Cases

end
-- ==== Proof.MilBlocks.lean ====
/-
  The blocks the kernel's windows hold at a grid point, read at their entries.

  The grid has 8 × 10 = 80 points; point t works on bag t / 10 and on tile t % 10 of that bag.  A window's
  block at a point is a rectangle of the window's array: its entry at coordinates y is the array's entry at
  (block index × block size + y) on every axis.

  * The instance window cuts the [8, 50000, 256] input into blocks [1, 5000, 256] with block index
    (t / 10, t % 10, 0): row r, column k of the block at point t is row 5000 (t % 10) + r, column k of bag t / 10.
  * Every weight window has block index zero on every axis and a block as large as its array: the block is the
    array, at every point.
  * The one weight that reaches the kernel transposed, a [128, 1] column stored as a [1, 128] row before the
    grid starts: entry (0, k) of its block is entry (k, 0) of the column.
-/
import proofs.«160597_j5995774345772_2_alg».proof.Proof.Gen.KernelIdeal.Frame.Runs
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.Mil.Blocks

open Cert.KernelIdeal Cert.KernelIdeal.Gen

variable {F : FTy → Type} [FloatOps F] [Named F]
variable (m : (ℓ : Loc nD τ sig) → Buf (Elt F) ℓ) (c : Dev nD) (t : Fin cfg0.N)

/-- A grid point is one of 80. -/
theorem t_lt : t.val < 80 := lt_of_lt_of_eq t.isLt N_0

/-! ### The instance window -/

/-- Row `r`, column `k` of the instance block at point `t` is row `5000 (t % 10) + r`, column `k` of bag
    `t / 10`: the block index at `t` is `(t / 10, t % 10, 0)`, checked over the 80 points. -/
theorem blk_x (r : Fin 5000) (k : Fin 256) :
    (iblk m c 0 t : Vec F S1x5000x256 .f32) (ix3 (0 : Fin 1) r k)
      = m ((c : Thread nD τ).loc main_arg0)
          (ix3 (⟨t.val / 10, by have := t_lt t; omega⟩ : Fin 8)
            (⟨5000 * (t.val % 10) + r.val, by have := r.isLt; omega⟩ : Fin 50000) k) := by
  have hi := (by decide +kernel : ∀ t : Fin grid0.N, win0_0.index t (0 : Fin 3) = t.val / 10
    ∧ win0_0.index t (1 : Fin 3) = t.val % 10 ∧ win0_0.index t (2 : Fin 3) = 0) t
  unfold iblk
  rw [View.read_apply]
  show V m c main_arg0 _ = _
  rw [V_main_arg0]
  congr 1
  funext a
  apply Fin.ext
  match a with
  | ⟨0, _⟩ => show win0_0.index t 0 * 1 + 1 * 0 = t.val / 10; rw [hi.1]; omega
  | ⟨1, _⟩ => show win0_0.index t 1 * 5000 + 1 * r.val = 5000 * (t.val % 10) + r.val; rw [hi.2.1]; omega
  | ⟨2, _⟩ => show win0_0.index t 2 * 256 + 1 * k.val = k.val; rw [hi.2.2]; omega

/-! ### The weight windows: the block is the whole array -/

/-- Window 1 stages the whole of its array `[256, 128]`: its block at every point is the array. -/
theorem blk_1 (k : Fin 256) (q : Fin 128) :
    (iblk m c 1 t : Vec F S256x128 .f32) (ix2 k q) = m ((c : Thread nD τ).loc main_arg1) (ix2 k q) := by
  unfold iblk
  rw [View.read_apply]
  show V m c main_arg1 _ = _
  rw [V_main_arg1]
  congr 1
  funext a
  apply Fin.ext
  match a with
  | ⟨0, _⟩ => show win0_1.index t 0 * 256 + 1 * k.val = k.val; show 0 * 256 + 1 * k.val = k.val; omega
  | ⟨1, _⟩ => show win0_1.index t 1 * 128 + 1 * q.val = q.val; show 0 * 128 + 1 * q.val = q.val; omega

/-- Window 2 stages the whole of its array `[128]`: its block at every point is the array. -/
theorem blk_2 (q : Fin 128) :
    (iblk m c 2 t : Vec F S128 .f32) (ix1 q) = m ((c : Thread nD τ).loc main_arg2) (ix1 q) := by
  unfold iblk
  rw [View.read_apply]
  show V m c main_arg2 _ = _
  rw [V_main_arg2]
  congr 1
  funext a
  apply Fin.ext
  match a with
  | ⟨0, _⟩ => show win0_2.index t 0 * 128 + 1 * q.val = q.val; show 0 * 128 + 1 * q.val = q.val; omega

/-- Window 3 stages the whole of its array `[128]`: its block at every point is the array. -/
theorem blk_3 (q : Fin 128) :
    (iblk m c 3 t : Vec F S128 .f32) (ix1 q) = m ((c : Thread nD τ).loc main_arg3) (ix1 q) := by
  unfold iblk
  rw [View.read_apply]
  show V m c main_arg3 _ = _
  rw [V_main_arg3]
  congr 1
  funext a
  apply Fin.ext
  match a with
  | ⟨0, _⟩ => show win0_3.index t 0 * 128 + 1 * q.val = q.val; show 0 * 128 + 1 * q.val = q.val; omega

/-- Window 4 stages the whole of its array `[128]`: its block at every point is the array. -/
theorem blk_4 (q : Fin 128) :
    (iblk m c 4 t : Vec F S128 .f32) (ix1 q) = m ((c : Thread nD τ).loc main_arg4) (ix1 q) := by
  unfold iblk
  rw [View.read_apply]
  show V m c main_arg4 _ = _
  rw [V_main_arg4]
  congr 1
  funext a
  apply Fin.ext
  match a with
  | ⟨0, _⟩ => show win0_4.index t 0 * 128 + 1 * q.val = q.val; show 0 * 128 + 1 * q.val = q.val; omega

/-- Window 5 stages the whole of its array `[128, 128]`: its block at every point is the array. -/
theorem blk_5 (k : Fin 128) (q : Fin 128) :
    (iblk m c 5 t : Vec F S128x128 .f32) (ix2 k q) = m ((c : Thread nD τ).loc main_arg5) (ix2 k q) := by
  unfold iblk
  rw [View.read_apply]
  show V m c main_arg5 _ = _
  rw [V_main_arg5]
  congr 1
  funext a
  apply Fin.ext
  match a with
  | ⟨0, _⟩ => show win0_5.index t 0 * 128 + 1 * k.val = k.val; show 0 * 128 + 1 * k.val = k.val; omega
  | ⟨1, _⟩ => show win0_5.index t 1 * 128 + 1 * q.val = q.val; show 0 * 128 + 1 * q.val = q.val; omega

/-- Window 6 stages the whole of its array `[128]`: its block at every point is the array. -/
theorem blk_6 (q : Fin 128) :
    (iblk m c 6 t : Vec F S128 .f32) (ix1 q) = m ((c : Thread nD τ).loc main_arg6) (ix1 q) := by
  unfold iblk
  rw [View.read_apply]
  show V m c main_arg6 _ = _
  rw [V_main_arg6]
  congr 1
  funext a
  apply Fin.ext
  match a with
  | ⟨0, _⟩ => show win0_6.index t 0 * 128 + 1 * q.val = q.val; show 0 * 128 + 1 * q.val = q.val; omega

/-- Window 7 stages the whole of its array `[128]`: its block at every point is the array. -/
theorem blk_7 (q : Fin 128) :
    (iblk m c 7 t : Vec F S128 .f32) (ix1 q) = m ((c : Thread nD τ).loc main_arg7) (ix1 q) := by
  unfold iblk
  rw [View.read_apply]
  show V m c main_arg7 _ = _
  rw [V_main_arg7]
  congr 1
  funext a
  apply Fin.ext
  match a with
  | ⟨0, _⟩ => show win0_7.index t 0 * 128 + 1 * q.val = q.val; show 0 * 128 + 1 * q.val = q.val; omega

/-- Window 8 stages the whole of its array `[128]`: its block at every point is the array. -/
theorem blk_8 (q : Fin 128) :
    (iblk m c 8 t : Vec F S128 .f32) (ix1 q) = m ((c : Thread nD τ).loc main_arg8) (ix1 q) := by
  unfold iblk
  rw [View.read_apply]
  show V m c main_arg8 _ = _
  rw [V_main_arg8]
  congr 1
  funext a
  apply Fin.ext
  match a with
  | ⟨0, _⟩ => show win0_8.index t 0 * 128 + 1 * q.val = q.val; show 0 * 128 + 1 * q.val = q.val; omega

/-- Window 9 stages the whole of its array `[128, 128]`: its block at every point is the array. -/
theorem blk_9 (k : Fin 128) (q : Fin 128) :
    (iblk m c 9 t : Vec F S128x128 .f32) (ix2 k q) = m ((c : Thread nD τ).loc main_arg9) (ix2 k q) := by
  unfold iblk
  rw [View.read_apply]
  show V m c main_arg9 _ = _
  rw [V_main_arg9]
  congr 1
  funext a
  apply Fin.ext
  match a with
  | ⟨0, _⟩ => show win0_9.index t 0 * 128 + 1 * k.val = k.val; show 0 * 128 + 1 * k.val = k.val; omega
  | ⟨1, _⟩ => show win0_9.index t 1 * 128 + 1 * q.val = q.val; show 0 * 128 + 1 * q.val = q.val; omega

/-- Window 10 stages the whole of its array `[128]`: its block at every point is the array. -/
theorem blk_10 (q : Fin 128) :
    (iblk m c 10 t : Vec F S128 .f32) (ix1 q) = m ((c : Thread nD τ).loc main_arg10) (ix1 q) := by
  unfold iblk
  rw [View.read_apply]
  show V m c main_arg10 _ = _
  rw [V_main_arg10]
  congr 1
  funext a
  apply Fin.ext
  match a with
  | ⟨0, _⟩ => show win0_10.index t 0 * 128 + 1 * q.val = q.val; show 0 * 128 + 1 * q.val = q.val; omega

/-- Window 12 stages the whole of its array `[1]`: its block at every point is the array. -/
theorem blk_12 (q : Fin 1) :
    (iblk m c 12 t : Vec F S1 .f32) (ix1 q) = m ((c : Thread nD τ).loc main_arg12) (ix1 q) := by
  unfold iblk
  rw [View.read_apply]
  show V m c main_arg12 _ = _
  rw [V_main_arg12]
  congr 1
  funext a
  apply Fin.ext
  match a with
  | ⟨0, _⟩ => show win0_12.index t 0 * 1 + 1 * q.val = q.val; show 0 * 1 + 1 * q.val = q.val; omega

/-- Window 13 stages the whole of its array `[128, 128]`: its block at every point is the array. -/
theorem blk_13 (k : Fin 128) (q : Fin 128) :
    (iblk m c 13 t : Vec F S128x128 .f32) (ix2 k q) = m ((c : Thread nD τ).loc main_arg13) (ix2 k q) := by
  unfold iblk
  rw [View.read_apply]
  show V m c main_arg13 _ = _
  rw [V_main_arg13]
  congr 1
  funext a
  apply Fin.ext
  match a with
  | ⟨0, _⟩ => show win0_13.index t 0 * 128 + 1 * k.val = k.val; show 0 * 128 + 1 * k.val = k.val; omega
  | ⟨1, _⟩ => show win0_13.index t 1 * 128 + 1 * q.val = q.val; show 0 * 128 + 1 * q.val = q.val; omega

/-- Window 14 stages the whole of its array `[128]`: its block at every point is the array. -/
theorem blk_14 (q : Fin 128) :
    (iblk m c 14 t : Vec F S128 .f32) (ix1 q) = m ((c : Thread nD τ).loc main_arg14) (ix1 q) := by
  unfold iblk
  rw [View.read_apply]
  show V m c main_arg14 _ = _
  rw [V_main_arg14]
  congr 1
  funext a
  apply Fin.ext
  match a with
  | ⟨0, _⟩ => show win0_14.index t 0 * 128 + 1 * q.val = q.val; show 0 * 128 + 1 * q.val = q.val; omega

/-- Window 15 stages the whole of its array `[128, 2]`: its block at every point is the array. -/
theorem blk_15 (k : Fin 128) (q : Fin 2) :
    (iblk m c 15 t : Vec F S128x2 .f32) (ix2 k q) = m ((c : Thread nD τ).loc main_arg15) (ix2 k q) := by
  unfold iblk
  rw [View.read_apply]
  show V m c main_arg15 _ = _
  rw [V_main_arg15]
  congr 1
  funext a
  apply Fin.ext
  match a with
  | ⟨0, _⟩ => show win0_15.index t 0 * 128 + 1 * k.val = k.val; show 0 * 128 + 1 * k.val = k.val; omega
  | ⟨1, _⟩ => show win0_15.index t 1 * 2 + 1 * q.val = q.val; show 0 * 2 + 1 * q.val = q.val; omega

/-- Window 16 stages the whole of its array `[2]`: its block at every point is the array. -/
theorem blk_16 (q : Fin 2) :
    (iblk m c 16 t : Vec F S2 .f32) (ix1 q) = m ((c : Thread nD τ).loc main_arg16) (ix1 q) := by
  unfold iblk
  rw [View.read_apply]
  show V m c main_arg16 _ = _
  rw [V_main_arg16]
  congr 1
  funext a
  apply Fin.ext
  match a with
  | ⟨0, _⟩ => show win0_16.index t 0 * 2 + 1 * q.val = q.val; show 0 * 2 + 1 * q.val = q.val; omega

/-- Window 17 stages the whole of its array `[128, 64]`: its block at every point is the array. -/
theorem blk_17 (k : Fin 128) (q : Fin 64) :
    (iblk m c 17 t : Vec F S128x64 .f32) (ix2 k q) = m ((c : Thread nD τ).loc main_arg17) (ix2 k q) := by
  unfold iblk
  rw [View.read_apply]
  show V m c main_arg17 _ = _
  rw [V_main_arg17]
  congr 1
  funext a
  apply Fin.ext
  match a with
  | ⟨0, _⟩ => show win0_17.index t 0 * 128 + 1 * k.val = k.val; show 0 * 128 + 1 * k.val = k.val; omega
  | ⟨1, _⟩ => show win0_17.index t 1 * 64 + 1 * q.val = q.val; show 0 * 64 + 1 * q.val = q.val; omega

/-- Window 18 stages the whole of its array `[64]`: its block at every point is the array. -/
theorem blk_18 (q : Fin 64) :
    (iblk m c 18 t : Vec F S64 .f32) (ix1 q) = m ((c : Thread nD τ).loc main_arg18) (ix1 q) := by
  unfold iblk
  rw [View.read_apply]
  show V m c main_arg18 _ = _
  rw [V_main_arg18]
  congr 1
  funext a
  apply Fin.ext
  match a with
  | ⟨0, _⟩ => show win0_18.index t 0 * 64 + 1 * q.val = q.val; show 0 * 64 + 1 * q.val = q.val; omega

/-- Window 19 stages the whole of its array `[64, 1]`: its block at every point is the array. -/
theorem blk_19 (k : Fin 64) (q : Fin 1) :
    (iblk m c 19 t : Vec F S64x1 .f32) (ix2 k q) = m ((c : Thread nD τ).loc main_arg19) (ix2 k q) := by
  unfold iblk
  rw [View.read_apply]
  show V m c main_arg19 _ = _
  rw [V_main_arg19]
  congr 1
  funext a
  apply Fin.ext
  match a with
  | ⟨0, _⟩ => show win0_19.index t 0 * 64 + 1 * k.val = k.val; show 0 * 64 + 1 * k.val = k.val; omega
  | ⟨1, _⟩ => show win0_19.index t 1 * 1 + 1 * q.val = q.val; show 0 * 1 + 1 * q.val = q.val; omega

/-- Window 20 stages the whole of its array `[1]`: its block at every point is the array. -/
theorem blk_20 (q : Fin 1) :
    (iblk m c 20 t : Vec F S1 .f32) (ix1 q) = m ((c : Thread nD τ).loc main_arg20) (ix1 q) := by
  unfold iblk
  rw [View.read_apply]
  show V m c main_arg20 _ = _
  rw [V_main_arg20]
  congr 1
  funext a
  apply Fin.ext
  match a with
  | ⟨0, _⟩ => show win0_20.index t 0 * 1 + 1 * q.val = q.val; show 0 * 1 + 1 * q.val = q.val; omega

/-! ### The transposed weight -/

/-- The row `[1, 128]` the grid finds is the transpose of the column `[128, 1]` the program was given. -/
theorem V_main_v0 : (V m c main_v0 : S1x128.Idx → Elt F .f32)
    = transpose S1x128 [1, 0] (m ((c : Thread nD τ).loc main_arg11)) transposes_S128x1_S1x128_1_0 := by
  show StableHlo.after hostOps0 (fun b => m (c, b)) (Proc.devRef .tc main_v0) = _
  after_results

/-- Window 11 stages the whole row: entry `(0, k)` of its block is entry `(k, 0)` of the column. -/
theorem blk_11 (k : Fin 128) :
    (iblk m c 11 t : Vec F S1x128 .f32) (ix2 (0 : Fin 1) k)
      = m ((c : Thread nD τ).loc main_arg11) (ix2 k (0 : Fin 1)) := by
  have e : (V m c main_v0 : S1x128.Idx → Elt F .f32) (ix2 (0 : Fin 1) k)
      = m ((c : Thread nD τ).loc main_arg11) (ix2 k (0 : Fin 1)) := by
    rw [V_main_v0]
    refine transpose_apply [1, 0] _ _ _ _ (fun b => ?_)
    match b with
    | ⟨0, _⟩ => rfl
    | ⟨1, _⟩ => rfl
  rw [← e]
  unfold iblk
  rw [View.read_apply]
  show V m c main_v0 _ = V m c main_v0 _
  congr 1
  funext a
  apply Fin.ext
  match a with
  | ⟨0, _⟩ => show win0_11.index t 0 * 1 + 1 * 0 = 0; show 0 * 1 + 1 * 0 = 0; omega
  | ⟨1, _⟩ => show win0_11.index t 1 * 128 + 1 * k.val = k.val; show 0 * 128 + 1 * k.val = k.val; omega

end Cert.Mil.Blocks
-- ==== Proof.LibSlabLayout.lean ====
/-
  Reusable lemmas: an [a, b] array of rows and an [a, b, c] array of slabs read at an entry.

  A kernel that treats each of a blocks separately reduces along the middle axis of an [a, b, c] array (a sum over the b
  rows of every slab, leaving [a, c]) and along the rows of an [a, b] array (a sum or a running maximum over b, leaving
  [a]), and lays an [a, b] array along a new trailing axis ([a, b] → [a, b, 1] → [a, b, c]).  Each lemma reads one such
  operation at an entry written by its coordinates; the sums are over the extended reals.  Generic in the extents.
-/
import Idealize.ShloMosaic.Lib.Pipeline.Value
import Idealize.ShloMosaic.Lib.ValueIdx
import Idealize.ShloMosaic.PureOps.Ideal.Laws

noncomputable section

namespace Cert.SlabLayout

open Idealize.ShloMosaic Idealize.ShloMosaic.ValueIdx

variable {α : Type} {a b c : ℕ}

/-- An [a, b] array viewed [a, b, 1] reads, at (i, k, u), the operand at (i, k). -/
theorem shapeCast_ab_ab1_apply (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    rw [hu, Nat.mul_one, Nat.add_zero])

/-- An [a, b, 1] array broadcast to [a, b, c] reads, at (i, k, j), the operand at (i, k, 0). -/
theorem broadcastTo_ab1_abc_apply (x : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ x h (ix3 i k j) = x (ix3 i k (0 : Fin 1)) := by
  refine broadcastTo_apply x h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-- The source index of a reduction over the middle axis: the pair (i, j) with the row k inserted is (i, k, j). -/
theorem lift_mid (h : (⟨3, ![a, b, c]⟩ : Shape).Reduces [(1 : Fin 3)] ⟨2, ![a, c]⟩) (i : Fin a) (j : Fin c) (k : Fin b) :
    h.lift (ix2 i j) k = ix3 i k j := by
  funext d
  apply Fin.ext
  show h.liftVal (ix2 i j) k.val d = (ix3 i k j d).val
  unfold Shape.Reduces.liftVal
  match d with
  | ⟨0, _⟩ => rfl
  | ⟨1, _⟩ => rfl
  | ⟨2, _⟩ => rfl

/-- Over the extended reals a sum over the middle axis of an [a, b, c] array, from the zero accumulator, is at (i, j)
    the sum over the rows k of the entries (i, k, j). -/
theorem midSum_apply {φ : FTy} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.add.neutral φ hφ) (i : Fin a) (j : Fin c) :
    multiReduction .add [(1 : Fin 3)] ⟨2, ![a, c]⟩ src acc h hφ hacc (ix2 i j) = ∑ k : Fin b, src (ix3 i k j) := by
  refine (Ideal.multiReduction_add_single src acc h hφ hacc (ix2 i j)).trans ?_
  show ∑ k : Fin b, src (h.lift (ix2 i j) k) = _
  exact Finset.sum_congr rfl fun k _ => congrArg src (lift_mid h i j k)

/-- The source index of a reduction over the rows of an [a, b] array: i with the column k inserted is (i, k). -/
theorem lift_row (h : (⟨2, ![a, b]⟩ : Shape).Reduces [(1 : Fin 2)] ⟨1, ![a]⟩) (i : Fin a) (k : Fin b) :
    h.lift (ix1 i) k = ix2 i k := by
  funext d
  apply Fin.ext
  show h.liftVal (ix1 i) k.val d = (ix2 i k d).val
  unfold Shape.Reduces.liftVal
  match d with
  | ⟨0, _⟩ => rfl
  | ⟨1, _⟩ => rfl

/-- Over the extended reals a sum along the rows of an [a, b] array, from the zero accumulator, is at i the sum over k
    of the entries (i, k). -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun k _ => congrArg src (lift_row h i k)

/-- Over the extended reals a running maximum along the rows of an [a, b] array is at i the fold of max, from the
    accumulator's value, over the entries (i, k). -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  have e : (src ∘ h.lift (ix1 i)) = fun k => src (ix2 i k) := funext fun k => congrArg src (lift_row h i k)
  show (Finset.univ : Finset (Fin b)).fold max (Ideal.ofBits φ acc) (src ∘ h.lift (ix1 i)) = _
  rw [e]
  rfl

end Cert.SlabLayout

end
-- ==== Proof.MilTile3.lean ====
/-
  Two building blocks of a hidden layer, read at entries over the extended reals.

  (1) A matrix product into zeros plus a bias vector repeated down the rows: entry (p, q) is the inner product of
      row p with column q, plus the bias at q.
  (2) The layer normalisation of every row of a [5000,128] array as the kernel forms it: the row mean (row sum over
      the word of 128, kept as a column and repeated along the row), the deviations, the mean of their squares, the
      reciprocal square root of that plus the offset word, then gain and offset vectors repeated down the rows.
      Entry (r, q) is the specification's layer normalisation of row r at feature q.
-/
import proofs.«160597_j5995774345772_2_alg».proof.Proof.Gen.KernelIdeal.Skeleton
import proofs.«160597_j5995774345772_2_alg».proof.Proof.MilSpec
import proofs.«160597_j5995774345772_2_alg».proof.Proof.LibMatmulNN
import proofs.«160597_j5995774345772_2_alg».proof.Proof.LibSlabLayout
import proofs.«160597_j5995774345772_2_alg».proof.Proof.LibKeepdimsColumn
import proofs.«160597_j5995774345772_2_alg».proof.Proof.LibRowOfVector
import Idealize.ShloMosaic.Lib.ValueLayout

open Idealize.ShloMosaic Idealize.ShloMosaic.ValueIdx
open Cert.KernelIdeal Cert.KernelIdeal.Gen Cert.Mil
open scoped BigOperators

namespace Cert.Mil.Tile

noncomputable section

/-- A matrix product into zeros plus a bias vector repeated down the rows, at entry (p, q). -/
theorem affineRows_entry {M K N : ℕ} {φ₁ φ₂ : FTy}
    (D : DotDims ⟨2, ![M, K]⟩ ⟨2, ![K, N]⟩ ⟨2, ![M, N]⟩) (hD : D = DotDims.plain M K N)
    (lhs : FVec Ideal ⟨2, ![M, K]⟩ φ₁) (rhs : FVec Ideal ⟨2, ![K, N]⟩ φ₂) (b : FVec Ideal ⟨1, ![N]⟩ .f32)
    (h₁ : (⟨1, ![N]⟩ : Shape).ShapeCasts ⟨2, ![1, N]⟩) (h₂ : (⟨2, ![1, N]⟩ : Shape).Broadcasts ⟨2, ![M, N]⟩)
    (p : Fin M) (q : Fin N) :
    addf (matmul D none lhs rhs (constant (F := Ideal) ⟨2, ![M, N]⟩ .f32 0x00000000#32))
        (broadcastTo ⟨2, ![M, N]⟩ (shapeCast ⟨2, ![1, N]⟩ b h₁) h₂) (ix2 p q)
      = (∑ k : Fin K, lhs (ix2 p k) * rhs (ix2 k q)) + b (ix1 q) :=
  congrArg₂ (fun a c : EReal => a + c) (Cert.MatmulNN.matmul_zero_apply D hD none lhs rhs p q)
    ((broadcastTo_1b_ab_apply _ h₂ p q).trans (Cert.RowOfVector.row_apply b h₁ (0 : Fin 1) q))

/-- A vector repeated down the rows of a [5000,128] array reads its entry q in every row. -/
theorem rowVector_entry (g : Vec Ideal S128 .f32) (r : Fin 5000) (q : Fin 128) :
    broadcastTo S5000x128 (shapeCast S1x128 g shapeCasts_S128_S1x128) broadcasts_S1x128_S5000x128 (ix2 r q)
      = g (ix1 q) :=
  (broadcastTo_1b_ab_apply _ _ r q).trans (Cert.RowOfVector.row_apply g _ (0 : Fin 1) q)

/-- The mean over the 128 features of each row, kept as a column: the row sum over the word of 128. -/
def rowMeanK (y : FVec Ideal S5000x128 .f32) : FVec Ideal S5000x1 .f32 :=
  divf
    (shapeCast S5000x1
      (multiReduction (F := Ideal) .add [1] S5000 y 0x00000000#32 reduces_S5000x128_S5000 (.inl rfl) rfl)
      shapeCasts_S5000_S5000x1)
    (broadcast S5000x1 (Scalar.ofBits (F := Ideal) .f32 0x43000000#32))

/-- Row r of that column is the specification's mean of row r. -/
theorem rowMeanK_entry (y : FVec Ideal S5000x128 .f32) (r : Fin 5000) :
    rowMeanK y (ix2 r (0 : Fin 1)) = mean (fun j => y (ix2 r j)) := by
  unfold rowMeanK mean
  refine congrArg (fun t : EReal => Ideal.div t c128W) ?_
  refine (Cert.KeepdimsColumn.shapeCast_a_a1_apply _ _ r (0 : Fin 1)).trans ?_
  exact Cert.SlabLayout.rowSum_apply _ _ _ _ _ r

/-- The deviations from the row mean. -/
def devK (y : FVec Ideal S5000x128 .f32) : FVec Ideal S5000x128 .f32 :=
  subf y (broadcastTo S5000x128 (rowMeanK y) broadcasts_S5000x1_S5000x128)

theorem devK_entry (y : FVec Ideal S5000x128 .f32) (r : Fin 5000) (q : Fin 128) :
    devK y (ix2 r q) = y (ix2 r q) - mean (fun j => y (ix2 r j)) := by
  unfold devK
  refine congrArg (fun t : EReal => y (ix2 r q) - t) ?_
  exact (Cert.KeepdimsColumn.broadcastTo_a1_ab_apply _ _ r q).trans (rowMeanK_entry y r)

/-- The kernel's layer normalisation of the rows of a [5000,128] array with gain g and offset be. -/
def lnK (y : FVec Ideal S5000x128 .f32) (g be : Vec Ideal S128 .f32) : FVec Ideal S5000x128 .f32 :=
  addf
    (mulf
      (mulf (devK y)
        (broadcastTo S5000x128
          (rsqrt (addf (rowMeanK (mulf (devK y) (devK y)))
            (broadcast S5000x1 (Scalar.ofBits (F := Ideal) .f32 0x3727C5AC#32))))
          broadcasts_S5000x1_S5000x128))
      (broadcastTo S5000x128 (shapeCast S1x128 g shapeCasts_S128_S1x128) broadcasts_S1x128_S5000x128))
    (broadcastTo S5000x128 (shapeCast S1x128 be shapeCasts_S128_S1x128) broadcasts_S1x128_S5000x128)

/-- Entry (r, q) of the kernel's layer normalisation is the specification's, of row r at feature q. -/
theorem lnK_entry (y : FVec Ideal S5000x128 .f32) (g be : Vec Ideal S128 .f32) (r : Fin 5000) (q : Fin 128) :
    lnK y g be (ix2 r q) = lnorm (fun j => g (ix1 j)) (fun j => be (ix1 j)) (fun j => y (ix2 r j)) q := by
  unfold lnK lnorm
  refine congrArg₂ (fun a b : EReal => a + b) ?_ (rowVector_entry be r q)
  refine congrArg₂ (fun a b : EReal => a * b) ?_ (rowVector_entry g r q)
  refine congrArg₂ (fun a b : EReal => a * b) (devK_entry y r q) ?_
  refine (Cert.KeepdimsColumn.broadcastTo_a1_ab_apply _ _ r q).trans ?_
  refine congrArg Ideal.rsqrt ?_
  refine congrArg (fun t : EReal => t + epsW) ?_
  refine (rowMeanK_entry _ r).trans ?_
  refine congrArg (fun t : EReal => Ideal.div t c128W) ?_
  exact Finset.sum_congr rfl fun j _ =>
    congrArg₂ (fun a b : EReal => a * b) (devK_entry y r j) (devK_entry y r j)

/-- The specification's layer normalisation depends on its three arguments only through their values. -/
theorem lnorm_congr {g g' be be' h h' : Fin 128 → EReal} (hg : ∀ j, g j = g' j) (hbe : ∀ j, be j = be' j)
    (hh : ∀ j, h j = h' j) (q : Fin 128) : lnorm g be h q = lnorm g' be' h' q := by
  rw [funext hg, funext hbe, funext hh]

end

end Cert.Mil.Tile
-- ==== Proof.MilTile4.lean ====
/-
  The features of the instances of one block, read at entries.

  The block arrives as a [1,5000,256] array; its leading unit axis is dropped and each of the 5000 rows goes through
  two hidden layers: a product with the layer's weight matrix plus the bias repeated down the rows, the layer
  normalisation of the row, and a clamp at zero.  Entry (r, q) of the result is the specification's feature q of
  instance r.
-/
import proofs.«160597_j5995774345772_2_alg».proof.Proof.Gen.KernelIdeal.Skeleton
import proofs.«160597_j5995774345772_2_alg».proof.Proof.MilSpec
import proofs.«160597_j5995774345772_2_alg».proof.Proof.MilTileAgrees
import proofs.«160597_j5995774345772_2_alg».proof.Proof.MilTile3

open Idealize.ShloMosaic Idealize.ShloMosaic.ValueIdx
open Cert.KernelIdeal Cert.KernelIdeal.Gen Cert.Mil
open scoped BigOperators

namespace Cert.Mil.Tile

noncomputable section

variable {P : Params}
  {x1 : Vec Ideal S256x128 .f32} {x2 x3 x4 : Vec Ideal S128 .f32} {x5 : Vec Ideal S128x128 .f32}
  {x6 x7 x8 : Vec Ideal S128 .f32} {x9 : Vec Ideal S128x128 .f32} {x10 : Vec Ideal S128 .f32}
  {x11 : Vec Ideal S1x128 .f32} {x12 : Vec Ideal S1 .f32} {x13 : Vec Ideal S128x128 .f32}
  {x14 : Vec Ideal S128 .f32} {x15 : Vec Ideal S128x2 .f32} {x16 : Vec Ideal S2 .f32}
  {x17 : Vec Ideal S128x64 .f32} {x18 : Vec Ideal S64 .f32} {x19 : Vec Ideal S64x1 .f32}
  {x20 : Vec Ideal S1 .f32}

/-- Instance r of the block, as a row of 256 numbers. -/
abbrev rowOf (x0 : Vec Ideal S1x5000x256 .f32) (r : Fin 5000) (k : Fin 256) : EReal := x0 (ix3 (0 : Fin 1) r k)

/-- The first layer before its clamp: the layer normalisation of the first affine map of instance r. -/
theorem pay10_entry (hA : Agrees P x1 x2 x3 x4 x5 x6 x7 x8 x9 x10 x11 x12 x13 x14 x15 x16 x17 x18 x19 x20) (x0 : Vec Ideal S1x5000x256 .f32) (r : Fin 5000) (q : Fin 128) :
    k0_pay10 x0 x1 x2 x3 x4 (ix2 r q) = lnorm P.g1 P.be1 (affine P.W1 P.b1 (rowOf x0 r)) q := by
  unfold k0_pay10
  refine (lnK_entry _ x3 x4 r q).trans ?_
  refine lnorm_congr (fun j => (hA.g1 j).symm) (fun j => (hA.be1 j).symm) (fun j => ?_) q
  unfold affine
  refine (affineRows_entry _ rfl _ _ _ _ _ r j).trans ?_
  refine congrArg₂ (fun a b : EReal => a + b) (Finset.sum_congr rfl fun k _ => ?_) (hA.b1 j).symm
  refine congrArg₂ (fun a b : EReal => a * b) ?_ (hA.W1 k j).symm
  exact shapeCast_1ab_ab_apply x0 _ r k

/-- The first hidden layer of instance r. -/
theorem hidden_entry (hA : Agrees P x1 x2 x3 x4 x5 x6 x7 x8 x9 x10 x11 x12 x13 x14 x15 x16 x17 x18 x19 x20) (x0 : Vec Ideal S1x5000x256 .f32) (r : Fin 5000) (q : Fin 128) :
    maximumf (k0_pay10 x0 x1 x2 x3 x4) k0_pay11 (ix2 r q) = hidden1 P (rowOf x0 r) q := by
  unfold hidden1 relu
  exact congrArg₂ (fun a b : EReal => max a b) (pay10_entry hA x0 r q) rfl

/-- The features of instance r. -/
theorem feat_entry (hA : Agrees P x1 x2 x3 x4 x5 x6 x7 x8 x9 x10 x11 x12 x13 x14 x15 x16 x17 x18 x19 x20) (x0 : Vec Ideal S1x5000x256 .f32) (r : Fin 5000) (q : Fin 128) :
    k0_pay12 (k0_pay10 x0 x1 x2 x3 x4) k0_pay11 x5 x6 x7 x8 (ix2 r q) = feat P (rowOf x0 r) q := by
  unfold k0_pay12 feat relu
  refine congrArg₂ (fun a b : EReal => max a b) ?_ rfl
  refine (lnK_entry _ x7 x8 r q).trans ?_
  refine lnorm_congr (fun j => (hA.g2 j).symm) (fun j => (hA.be2 j).symm) (fun j => ?_) q
  unfold affine
  refine (affineRows_entry _ rfl _ _ _ _ _ r j).trans ?_
  refine congrArg₂ (fun a b : EReal => a + b) (Finset.sum_congr rfl fun k _ => ?_) (hA.b2 j).symm
  refine congrArg₂ (fun a b : EReal => a * b) ?_ (hA.W2 k j).symm
  exact hidden_entry hA x0 r k

end

end Cert.Mil.Tile
-- ==== Proof.MilTile5.lean ====
/-
  The attention score of the instances of one block, read at entries.

  From the features the kernel forms one more product with a weight matrix plus a bias repeated down the rows, the
  hyperbolic tangent, the product with the second attention weight (a [1,128] row repeated down the rows), the row
  sum kept as a column, plus the scalar bias, times the named reciprocal of the temperature.  Row r of the column
  is the specification's score of instance r, the temperature as a product.
-/
import proofs.«160597_j5995774345772_2_alg».proof.Proof.Gen.KernelIdeal.Skeleton
import proofs.«160597_j5995774345772_2_alg».proof.Proof.MilSpec
import proofs.«160597_j5995774345772_2_alg».proof.Proof.MilTileAgrees
import proofs.«160597_j5995774345772_2_alg».proof.Proof.MilTile3
import proofs.«160597_j5995774345772_2_alg».proof.Proof.MilTile4

open Idealize.ShloMosaic Idealize.ShloMosaic.ValueIdx
open Cert.KernelIdeal Cert.KernelIdeal.Gen Cert.Mil
open scoped BigOperators

namespace Cert.Mil.Tile

noncomputable section

/-- The named constant is the exact reciprocal of the temperature's word. -/
theorem invTau_named :
    Named.named (F := Ideal) Cert.KernelIdeal.κ "inv_tau" (φ := .f32) 0x40555555#32 = invTau :=
  IdealRules.named_const.ideal_named_scalar _ _ _ _ rfl

/-- The score column from any pre-activation v80 + v83: row r is
    (Σ_k tanh (v80 r k + v83 r k) · w k + b) · (1/τ). -/
theorem scoreK_entry (v80 v83 : FVec Ideal S5000x128 .f32) (w : Vec Ideal S1x128 .f32) (b : Vec Ideal S1 .f32)
    (r : Fin 5000) :
    k0_pay15 v80 v83 w b (ix2 r (0 : Fin 1))
      = ((∑ k : Fin 128, Ideal.tanh (v80 (ix2 r k) + v83 (ix2 r k)) * w (ix2 (0 : Fin 1) k)) + b (ix1 (0 : Fin 1)))
        * invTau := by
  unfold k0_pay15
  refine congrArg₂ (fun a c : EReal => a * c) ?_ invTau_named
  refine congrArg₂ (fun a c : EReal => a + c) ?_ ?_
  · refine (Cert.KeepdimsColumn.shapeCast_a_a1_apply _ _ r (0 : Fin 1)).trans ?_
    refine (Cert.SlabLayout.rowSum_apply _ _ _ _ _ r).trans ?_
    refine Finset.sum_congr rfl fun k _ => ?_
    refine congrArg (fun t : EReal => Ideal.tanh (v80 (ix2 r k) + v83 (ix2 r k)) * t) ?_
    exact (broadcastTo_1b_ab_apply _ _ r k).trans (congrFun (shapeCast_self _ _) _)
  · exact (broadcastTo_1b_ab_apply _ _ r (0 : Fin 1)).trans
      (Cert.KeepdimsColumn.shapeCast_a_a1_apply _ _ (0 : Fin 1) (0 : Fin 1))

variable {P : Params}
  {x1 : Vec Ideal S256x128 .f32} {x2 x3 x4 : Vec Ideal S128 .f32} {x5 : Vec Ideal S128x128 .f32}
  {x6 x7 x8 : Vec Ideal S128 .f32} {x9 : Vec Ideal S128x128 .f32} {x10 : Vec Ideal S128 .f32}
  {x11 : Vec Ideal S1x128 .f32} {x12 : Vec Ideal S1 .f32} {x13 : Vec Ideal S128x128 .f32}
  {x14 : Vec Ideal S128 .f32} {x15 : Vec Ideal S128x2 .f32} {x16 : Vec Ideal S2 .f32}
  {x17 : Vec Ideal S128x64 .f32} {x18 : Vec Ideal S64 .f32} {x19 : Vec Ideal S64x1 .f32}
  {x20 : Vec Ideal S1 .f32}

/-- The score of instance r, the temperature as a product with its exact reciprocal. -/
theorem score_entry (hA : Agrees P x1 x2 x3 x4 x5 x6 x7 x8 x9 x10 x11 x12 x13 x14 x15 x16 x17 x18 x19 x20) (x0 : Vec Ideal S1x5000x256 .f32) (r : Fin 5000) :
    k0_pay15 (k0_pay13 (k0_pay10 x0 x1 x2 x3 x4) k0_pay11 x5 x6 x7 x8 x9) (k0_pay14 x10) x11 x12
        (ix2 r (0 : Fin 1))
      = scoreMul P (rowOf x0 r) := by
  refine (scoreK_entry _ _ x11 x12 r).trans ?_
  unfold scoreMul rawScore
  refine congrArg (fun t : EReal => t * invTau) ?_
  refine congrArg₂ (fun a c : EReal => a + c) (Finset.sum_congr rfl fun k _ => ?_) hA.ba2.symm
  refine congrArg₂ (fun a c : EReal => a * c) (congrArg Ideal.tanh ?_) (hA.Wa2 k).symm
  unfold affine
  refine congrArg₂ (fun a c : EReal => a + c) ?_ ?_
  · unfold k0_pay13
    refine (Cert.MatmulNN.matmul_zero_apply _ rfl none _ _ r k).trans ?_
    exact Finset.sum_congr rfl fun j _ =>
      congrArg₂ (fun a c : EReal => a * c) (feat_entry hA x0 r j) (hA.Wa1 j k).symm
  · unfold k0_pay14
    exact (rowVector_entry x10 r k).trans (hA.ba1 k).symm

end

end Cert.Mil.Tile
-- ==== Proof.MilTile.lean ====
/-
  The kernel body's arithmetic read at entries, over the extended reals: the online-softmax step of a block
  (MilTile1), the two heads on the pooled bag vector (MilTile2), the building blocks of a hidden layer (MilTile3),
  the features of a block's instances (MilTile4) and their attention scores (MilTile5), under the agreement of
  the weight arrays with the specification's weights (MilTileAgrees).
-/
import proofs.«160597_j5995774345772_2_alg».proof.Proof.MilTileAgrees
import proofs.«160597_j5995774345772_2_alg».proof.Proof.MilTile1
import proofs.«160597_j5995774345772_2_alg».proof.Proof.MilTile2
import proofs.«160597_j5995774345772_2_alg».proof.Proof.MilTile3
import proofs.«160597_j5995774345772_2_alg».proof.Proof.MilTile4
import proofs.«160597_j5995774345772_2_alg».proof.Proof.MilTile5
-- ==== Proof.MilInduct.lean ====
/-
  The carried buffers, point by point.

  The grid runs through the bags one after the other, ten tiles of 5000 instances each.  By induction on the grid
  point: after tile `j` of bag `b` the three carried buffers hold the maximum, the normaliser and the weighted sum
  of the block recurrence of bag `b`'s scores and features after `j + 1` blocks — a bag's first tile starts the
  recurrence afresh, every other tile continues from what the tile before left —, and after a bag's last tile the
  two output blocks hold the class scores and the risk of the bag vector in its blocked arrangement.  A window's
  block of instances at a point is the corresponding stretch of the bag's rows, and every weight window's block
  is the weight array itself.
-/
import proofs.«160597_j5995774345772_2_alg».proof.Proof.MilCases
import proofs.«160597_j5995774345772_2_alg».proof.Proof.MilBlocks
import proofs.«160597_j5995774345772_2_alg».proof.Proof.MilTile

noncomputable section

namespace Cert.Mil.Induct

open Idealize.ShloMosaic Idealize.ShloMosaic.ValueIdx Idealize.ShloMosaic.TcCoe Idealize.SL.Sem
open Cert.KernelIdeal Cert.KernelIdeal.Gen Cert.KernelIdeal.GenP Cert.Mil Cert.Mil.KStep Cert.Mil.Tile Cert.Mil.Cases
  Cert.Mil.Blocks
open Cert.OnlineSoftmax (St step init after)

variable (m : (ℓ : Loc nD τ sig) → Buf (Elt Ideal) ℓ) (c : Dev nD)

/-- The network's weights, read out of the argument arrays. -/
def params : Params :=
  mkParams (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))

/-- The instances. -/
def input : S8x50000x256.Idx → EReal := m ((c : Thread nD τ).loc main_arg0)

/-- Bag number `b` (the grid has eight). -/
def bagIx (b : ℕ) : Fin 8 := ⟨b % 8, Nat.mod_lt _ (by norm_num)⟩

/-- The scores of bag `b`'s instances. -/
def bagS (b : ℕ) (n : Fin 50000) : EReal := scoreMul (params m c) (instRow (input m c) (bagIx b) n)

/-- The features of bag `b`'s instances. -/
def bagH (b : ℕ) (n : Fin 50000) (q : Fin 128) : EReal := feat (params m c) (instRow (input m c) (bagIx b) n) q

/-- The recurrence's state of bag `b` after its tiles `0 … j`. -/
def stOf (b j : ℕ) : St (Fin 128) := blockedState (bagS m c b) (bagH m c b) (j + 1)

/-- The state the carried buffers hold after grid point `n`. -/
def stAt (n : ℕ) : St (Fin 128) := stOf m c (n / 10) (n % 10)

theorem stOf_zero (b : ℕ) :
    stOf m c b 0 = step (fun r => bagS m c b (blockRow 0 r)) (fun r q => bagH m c b (blockRow 0 r) q) init := rfl

theorem stOf_succ (b j : ℕ) :
    stOf m c b (j + 1)
      = step (fun r => bagS m c b (blockRow (j + 1) r)) (fun r q => bagH m c b (blockRow (j + 1) r) q) (stOf m c b j) := rfl

theorem stAt_first (n : ℕ) (h0 : n % 10 = 0) :
    stAt m c n = step (fun r => bagS m c (n / 10) (blockRow (n % 10) r))
      (fun r q => bagH m c (n / 10) (blockRow (n % 10) r) q) init := by
  unfold stAt; rw [h0]; exact stOf_zero m c _

theorem stAt_next (n : ℕ) (hn : 0 < n) (h0 : ¬n % 10 = 0) :
    stAt m c n = step (fun r => bagS m c (n / 10) (blockRow (n % 10) r))
      (fun r q => bagH m c (n / 10) (blockRow (n % 10) r) q) (stAt m c (n - 1)) := by
  have e1 : (n - 1) / 10 = n / 10 := by omega
  have e2 : n % 10 = (n - 1) % 10 + 1 := by omega
  unfold stAt
  rw [e1, e2]
  exact stOf_succ m c _ _

variable (t : Fin cfg0.N)

/-- The weight windows' blocks at a point are the weight arrays. -/
theorem agrees : Agrees (params m c) (iblk m c 1 t : Vec Ideal S256x128 .f32) (iblk m c 2 t : Vec Ideal S128 .f32) (iblk m c 3 t : Vec Ideal S128 .f32) (iblk m c 4 t : Vec Ideal S128 .f32) (iblk m c 5 t : Vec Ideal S128x128 .f32) (iblk m c 6 t : Vec Ideal S128 .f32) (iblk m c 7 t : Vec Ideal S128 .f32) (iblk m c 8 t : Vec Ideal S128 .f32) (iblk m c 9 t : Vec Ideal S128x128 .f32) (iblk m c 10 t : Vec Ideal S128 .f32) (iblk m c 11 t : Vec Ideal S1x128 .f32) (iblk m c 12 t : Vec Ideal S1 .f32) (iblk m c 13 t : Vec Ideal S128x128 .f32) (iblk m c 14 t : Vec Ideal S128 .f32) (iblk m c 15 t : Vec Ideal S128x2 .f32) (iblk m c 16 t : Vec Ideal S2 .f32) (iblk m c 17 t : Vec Ideal S128x64 .f32) (iblk m c 18 t : Vec Ideal S64 .f32) (iblk m c 19 t : Vec Ideal S64x1 .f32) (iblk m c 20 t : Vec Ideal S1 .f32) where
    W1 := fun k q => (blk_1 m c t k q).symm
    b1 := fun q => (blk_2 m c t q).symm
    g1 := fun q => (blk_3 m c t q).symm
    be1 := fun q => (blk_4 m c t q).symm
    W2 := fun k q => (blk_5 m c t k q).symm
    b2 := fun q => (blk_6 m c t q).symm
    g2 := fun q => (blk_7 m c t q).symm
    be2 := fun q => (blk_8 m c t q).symm
    Wa1 := fun k q => (blk_9 m c t k q).symm
    ba1 := fun q => (blk_10 m c t q).symm
    Wa2 := fun k => (blk_11 m c t k).symm
    ba2 := (blk_12 m c t (0 : Fin 1)).symm
    Wc1 := fun k q => (blk_13 m c t k q).symm
    bc1 := fun q => (blk_14 m c t q).symm
    Wc2 := fun k q => (blk_15 m c t k q).symm
    bc2 := fun q => (blk_16 m c t q).symm
    Ws1 := fun k q => (blk_17 m c t k q).symm
    bs1 := fun q => (blk_18 m c t q).symm
    Ws2 := fun k => (blk_19 m c t k (0 : Fin 1)).symm
    bs2 := (blk_20 m c t (0 : Fin 1)).symm

/-- Row `r` of the instance window's block at point `t` is row `5000·(t mod 10) + r` of bag `t / 10`. -/
theorem row_eq (r : Fin 5000) :
    rowOf (iblk m c 0 t : Vec Ideal S1x5000x256 .f32) r
      = instRow (input m c) (bagIx (t.val / 10)) (blockRow (t.val % 10) r) := by
  funext k
  show (iblk m c 0 t : Vec Ideal S1x5000x256 .f32) (ix3 (0 : Fin 1) r k) = _
  rw [blk_x m c t r k]
  have ht := t_lt t
  unfold instRow input bagIx blockRow
  congr 1
  refine congrArg₂ (fun a b => ix3 a b k) (Fin.ext ?_) (Fin.ext ?_)
  · show t.val / 10 = t.val / 10 % 8
    omega
  · show 5000 * (t.val % 10) + r.val = (5000 * (t.val % 10) + r.val) % 50000
    have := r.isLt
    omega

/-- The block's scores at point `t`. -/
theorem scores_eq (r : Fin 5000) :
    k0_pay15 (hidden (iblk m c 0 t : Vec Ideal S1x5000x256 .f32) (iblk m c 1 t : Vec Ideal S256x128 .f32) (iblk m c 2 t : Vec Ideal S128 .f32) (iblk m c 3 t : Vec Ideal S128 .f32) (iblk m c 4 t : Vec Ideal S128 .f32) (iblk m c 5 t : Vec Ideal S128x128 .f32) (iblk m c 6 t : Vec Ideal S128 .f32) (iblk m c 7 t : Vec Ideal S128 .f32) (iblk m c 8 t : Vec Ideal S128 .f32) (iblk m c 9 t : Vec Ideal S128x128 .f32)) (k0_pay14 (iblk m c 10 t : Vec Ideal S128 .f32)) (iblk m c 11 t : Vec Ideal S1x128 .f32) (iblk m c 12 t : Vec Ideal S1 .f32) (ix2 r (0 : Fin 1))
      = bagS m c (t.val / 10) (blockRow (t.val % 10) r) := by
  unfold KStep.hidden
  rw [score_entry (agrees m c t) (iblk m c 0 t : Vec Ideal S1x5000x256 .f32) r, row_eq m c t r]
  rfl

/-- The block's features at point `t`. -/
theorem feats_eq (r : Fin 5000) (q : Fin 128) :
    feats (iblk m c 0 t : Vec Ideal S1x5000x256 .f32) (iblk m c 1 t : Vec Ideal S256x128 .f32) (iblk m c 2 t : Vec Ideal S128 .f32) (iblk m c 3 t : Vec Ideal S128 .f32) (iblk m c 4 t : Vec Ideal S128 .f32) (iblk m c 5 t : Vec Ideal S128x128 .f32) (iblk m c 6 t : Vec Ideal S128 .f32) (iblk m c 7 t : Vec Ideal S128 .f32) (iblk m c 8 t : Vec Ideal S128 .f32) (ix2 r q) = bagH m c (t.val / 10) (blockRow (t.val % 10) r) q := by
  unfold KStep.feats
  rw [feat_entry (agrees m c t) (iblk m c 0 t : Vec Ideal S1x5000x256 .f32) r q, row_eq m c t r]
  rfl

/-- What the three carried buffers hold after point `n`. -/
def Inv (n : ℕ) (hn : n < cfg0.N) : Prop :=
  (outsAt0 m c n hn).2.2.1 (ix2 (0 : Fin 1) (0 : Fin 1)) = (stAt m c n).m
  ∧ (outsAt0 m c n hn).2.2.2.1 (ix2 (0 : Fin 1) (0 : Fin 1)) = (stAt m c n).l
  ∧ ∀ q, (outsAt0 m c n hn).2.2.2.2 (ix2 (0 : Fin 1) q) = (stAt m c n).acc q

theorem inv_first (h0 : t.val % 10 = 0) : Inv m c t.val t.isLt := by
  have h1 : ¬t.val % 10 = 9 := by omega
  unfold Inv
  rw [outsAt0_A m c t h0 h1, stAt_first m c t.val h0]
  dsimp only
  exact first_state c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) ((hcond0_0 t).mpr h0) (fun h => h1 ((hcond0_1 t).mp h)) (iblk m c 0 t : Vec Ideal S1x5000x256 .f32) (iblk m c 1 t : Vec Ideal S256x128 .f32) (iblk m c 2 t : Vec Ideal S128 .f32) (iblk m c 3 t : Vec Ideal S128 .f32) (iblk m c 4 t : Vec Ideal S128 .f32) (iblk m c 5 t : Vec Ideal S128x128 .f32) (iblk m c 6 t : Vec Ideal S128 .f32) (iblk m c 7 t : Vec Ideal S128 .f32) (iblk m c 8 t : Vec Ideal S128 .f32) (iblk m c 9 t : Vec Ideal S128x128 .f32) (iblk m c 10 t : Vec Ideal S128 .f32) (iblk m c 11 t : Vec Ideal S1x128 .f32) (iblk m c 12 t : Vec Ideal S1 .f32) (iblk m c 13 t : Vec Ideal S128x128 .f32) (iblk m c 14 t : Vec Ideal S128 .f32) (iblk m c 15 t : Vec Ideal S128x2 .f32) (iblk m c 16 t : Vec Ideal S2 .f32) (iblk m c 17 t : Vec Ideal S128x64 .f32) (iblk m c 18 t : Vec Ideal S64 .f32) (iblk m c 19 t : Vec Ideal S64x1 .f32) (iblk m c 20 t : Vec Ideal S1 .f32)
    _ _ (scores_eq m c t) (feats_eq m c t)

theorem inv_mid (h0 : ¬t.val % 10 = 0) (h1 : ¬t.val % 10 = 9)
    (ih : Inv m c (t.val - 1) (Nat.lt_of_le_of_lt (Nat.sub_le _ _) t.isLt)) : Inv m c t.val t.isLt := by
  have hpos : 0 < t.val := by omega
  unfold Inv
  rw [outsAt0_B m c t h0 h1, stAt_next m c t.val hpos h0]
  dsimp only
  exact mid_state c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (fun h => h0 ((hcond0_0 t).mp h)) (fun h => h1 ((hcond0_1 t).mp h)) (iblk m c 0 t : Vec Ideal S1x5000x256 .f32) (iblk m c 1 t : Vec Ideal S256x128 .f32) (iblk m c 2 t : Vec Ideal S128 .f32) (iblk m c 3 t : Vec Ideal S128 .f32) (iblk m c 4 t : Vec Ideal S128 .f32) (iblk m c 5 t : Vec Ideal S128x128 .f32) (iblk m c 6 t : Vec Ideal S128 .f32) (iblk m c 7 t : Vec Ideal S128 .f32) (iblk m c 8 t : Vec Ideal S128 .f32) (iblk m c 9 t : Vec Ideal S128x128 .f32) (iblk m c 10 t : Vec Ideal S128 .f32) (iblk m c 11 t : Vec Ideal S1x128 .f32) (iblk m c 12 t : Vec Ideal S1 .f32) (iblk m c 13 t : Vec Ideal S128x128 .f32) (iblk m c 14 t : Vec Ideal S128 .f32) (iblk m c 15 t : Vec Ideal S128x2 .f32) (iblk m c 16 t : Vec Ideal S2 .f32) (iblk m c 17 t : Vec Ideal S128x64 .f32) (iblk m c 18 t : Vec Ideal S64 .f32) (iblk m c 19 t : Vec Ideal S64x1 .f32) (iblk m c 20 t : Vec Ideal S1 .f32)
    (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
    _ _ (scores_eq m c t) (feats_eq m c t) (stAt m c (t.val - 1)) ih.1 ih.2.1 ih.2.2

theorem inv_last (h0 : ¬t.val % 10 = 0) (h1 : t.val % 10 = 9)
    (ih : Inv m c (t.val - 1) (Nat.lt_of_le_of_lt (Nat.sub_le _ _) t.isLt)) : Inv m c t.val t.isLt := by
  have hpos : 0 < t.val := by omega
  unfold Inv
  rw [outsAt0_C m c t h0 h1, stAt_next m c t.val hpos h0]
  dsimp only
  exact last_state c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (fun h => h0 ((hcond0_0 t).mp h)) ((hcond0_1 t).mpr h1) (iblk m c 0 t : Vec Ideal S1x5000x256 .f32) (iblk m c 1 t : Vec Ideal S256x128 .f32) (iblk m c 2 t : Vec Ideal S128 .f32) (iblk m c 3 t : Vec Ideal S128 .f32) (iblk m c 4 t : Vec Ideal S128 .f32) (iblk m c 5 t : Vec Ideal S128x128 .f32) (iblk m c 6 t : Vec Ideal S128 .f32) (iblk m c 7 t : Vec Ideal S128 .f32) (iblk m c 8 t : Vec Ideal S128 .f32) (iblk m c 9 t : Vec Ideal S128x128 .f32) (iblk m c 10 t : Vec Ideal S128 .f32) (iblk m c 11 t : Vec Ideal S1x128 .f32) (iblk m c 12 t : Vec Ideal S1 .f32) (iblk m c 13 t : Vec Ideal S128x128 .f32) (iblk m c 14 t : Vec Ideal S128 .f32) (iblk m c 15 t : Vec Ideal S128x2 .f32) (iblk m c 16 t : Vec Ideal S2 .f32) (iblk m c 17 t : Vec Ideal S128x64 .f32) (iblk m c 18 t : Vec Ideal S64 .f32) (iblk m c 19 t : Vec Ideal S64x1 .f32) (iblk m c 20 t : Vec Ideal S1 .f32)
    (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
    _ _ (scores_eq m c t) (feats_eq m c t) (stAt m c (t.val - 1)) ih.1 ih.2.1 ih.2.2

/-- After every grid point the carried buffers hold the recurrence's state. -/
theorem inv_all : ∀ (n : ℕ) (hn : n < cfg0.N), Inv m c n hn
  | 0, hn => inv_first m c ⟨0, hn⟩ rfl
  | n + 1, hn => by
    by_cases h0 : (n + 1) % 10 = 0
    · exact inv_first m c ⟨n + 1, hn⟩ h0
    · have ih : Inv m c n (Nat.lt_of_succ_lt hn) := inv_all n _
      by_cases h1 : (n + 1) % 10 = 9
      · exact inv_last m c ⟨n + 1, hn⟩ h0 h1 ih
      · exact inv_mid m c ⟨n + 1, hn⟩ h0 h1 ih

/-- After a bag's last tile the first output block holds the class scores of the bag vector, blocked
    arrangement, and the second its risk. -/
theorem out_last (h1 : t.val % 10 = 9) :
    (∀ c' : Fin 2, (outsAt0 m c t.val t.isLt).1 (ix3 (0 : Fin 1) (0 : Fin 1) c')
        = logitsOf (params m c) (bagOfBlocked (params m c) (input m c) (bagIx (t.val / 10))) c')
    ∧ (outsAt0 m c t.val t.isLt).2.1 (ix3 (0 : Fin 1) (0 : Fin 1) (0 : Fin 1))
        = riskOf (params m c) (bagOfBlocked (params m c) (input m c) (bagIx (t.val / 10))) := by
  have h0 : ¬t.val % 10 = 0 := by omega
  have hpos : 0 < t.val := by omega
  have ih := inv_all m c (t.val - 1) (Nat.lt_of_le_of_lt (Nat.sub_le _ _) t.isLt)
  have hbag : (fun q => Ideal.div ((stAt m c t.val).acc q) (stAt m c t.val).l)
      = bagOfBlocked (params m c) (input m c) (bagIx (t.val / 10)) := by
    funext q
    unfold stAt
    rw [h1]
    rfl
  rw [outsAt0_C m c t h0 h1]
  dsimp only
  rw [← hbag, stAt_next m c t.val hpos h0]
  exact last_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (fun h => h0 ((hcond0_0 t).mp h)) ((hcond0_1 t).mpr h1) (iblk m c 0 t : Vec Ideal S1x5000x256 .f32) (iblk m c 1 t : Vec Ideal S256x128 .f32) (iblk m c 2 t : Vec Ideal S128 .f32) (iblk m c 3 t : Vec Ideal S128 .f32) (iblk m c 4 t : Vec Ideal S128 .f32) (iblk m c 5 t : Vec Ideal S128x128 .f32) (iblk m c 6 t : Vec Ideal S128 .f32) (iblk m c 7 t : Vec Ideal S128 .f32) (iblk m c 8 t : Vec Ideal S128 .f32) (iblk m c 9 t : Vec Ideal S128x128 .f32) (iblk m c 10 t : Vec Ideal S128 .f32) (iblk m c 11 t : Vec Ideal S1x128 .f32) (iblk m c 12 t : Vec Ideal S1 .f32) (iblk m c 13 t : Vec Ideal S128x128 .f32) (iblk m c 14 t : Vec Ideal S128 .f32) (iblk m c 15 t : Vec Ideal S128x2 .f32) (iblk m c 16 t : Vec Ideal S2 .f32) (iblk m c 17 t : Vec Ideal S128x64 .f32) (iblk m c 18 t : Vec Ideal S64 .f32) (iblk m c 19 t : Vec Ideal S64x1 .f32) (iblk m c 20 t : Vec Ideal S1 .f32)
    (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
    (params m c) (agrees m c t)
    _ _ (scores_eq m c t) (feats_eq m c t) (stAt m c (t.val - 1)) ih.1 ih.2.1 ih.2.2

end Cert.Mil.Induct

end
-- ==== Proof.MilOut.lean ====
/-
  The two output arrays, block by block, and the two reshapes that follow.

  The grid has 80 points, point t being tile t % 10 of bag t / 10.  The class scores are written as blocks
  [1,1,2] of an array [8,1,2] and the risks as blocks [1,1,1] of an array [8,1,1]; at point t both blocks
  sit at block index (t / 10, 0, 0), and both are written back exactly at a bag's last tile, t % 10 = 9.
  So the entry (b, 0, c) of either array lies in the block written back at point 10·b + 9, and every entry
  is covered; and a block of a function of the whole array, read at (0, 0, c), is the function at
  (t / 10, 0, c).  The two reshapes [8,1,2] → [8,2] and [8,1,1] → [8] keep the row-major position, so the
  entry (b, c) of the first reads (b, 0, c) and the entry b of the second reads (b, 0, 0).
-/
import proofs.«160597_j5995774345772_2_alg».proof.Proof.Gen.KernelIdeal.Frame.Runs
import Idealize.ShloMosaic.Lib.Pipeline.Value
import Idealize.ShloMosaic.Lib.ValueIdx
import Idealize.ShloMosaic.Lib.StableHlo.Run

noncomputable section

open Idealize.ShloMosaic Idealize.ShloMosaic.TcCoe Idealize.ShloMosaic.ValueIdx Idealize.SL.Sem

namespace Cert.Mil.Out

open Cert.KernelIdeal Cert.KernelIdeal.Gen

variable {F : FTy → Type} [FloatOps F] [Named F]

/-! ## Where the blocks sit -/

/-- The block index of the class scores' window at point t is (t / 10, 0, 0). -/
theorem index21 : ∀ t : Fin cfg0.N, win0_21.index t (0 : Fin 3) = t.val / 10
    ∧ win0_21.index t (1 : Fin 3) = 0 ∧ win0_21.index t (2 : Fin 3) = 0 :=
  (by decide +kernel : ∀ t : Fin grid0.N, _)

/-- The block index of the risks' window at point t is (t / 10, 0, 0). -/
theorem index22 : ∀ t : Fin cfg0.N, win0_22.index t (0 : Fin 3) = t.val / 10
    ∧ win0_22.index t (1 : Fin 3) = 0 ∧ win0_22.index t (2 : Fin 3) = 0 :=
  (by decide +kernel : ∀ t : Fin grid0.N, _)

/-- An entry of the [8,1,2] array is in point t's block iff each coordinate is in the block's range. -/
theorem mem_blk21 (t : Fin cfg0.N) (i : S8x1x2.Idx) :
    i ∈ ((cfg0.win 21).blk t).view.set ↔ ∀ a : Fin 3, win0_21.index t a * S1x1x2.size a ≤ (i a).val
      ∧ (i a).val < win0_21.index t a * S1x1x2.size a + S1x1x2.size a := by
  show i ∈ ((View.whole main_v1_0).slice (win0_21.rect t)).set ↔ _
  rw [View.set_slice_whole, Rect.mem_set_unit]
  exact Iff.rfl

/-- An entry of the [8,1,1] array is in point t's block iff each coordinate is in the block's range. -/
theorem mem_blk22 (t : Fin cfg0.N) (i : S8x1x1.Idx) :
    i ∈ ((cfg0.win 22).blk t).view.set ↔ ∀ a : Fin 3, win0_22.index t a * S1x1x1.size a ≤ (i a).val
      ∧ (i a).val < win0_22.index t a * S1x1x1.size a + S1x1x1.size a := by
  show i ∈ ((View.whole main_v1_1).slice (win0_22.rect t)).set ↔ _
  rw [View.set_slice_whole, Rect.mem_set_unit]
  exact Iff.rfl

/-! ## Every entry is written back -/

/-- Entry (b, 0, c) of the class scores is in the block written back at point 10·b + 9. -/
theorem cover21 (i : S8x1x2.Idx) :
    ∃ t : Fin cfg0.N, (cfg0.win 21).flush t = true ∧ i ∈ ((cfg0.win 21).blk t).view.set := by
  have hi0 : (i 0).val < 8 := (i 0).isLt
  have hi1 : (i 1).val < 1 := (i 1).isLt
  have hi2 : (i 2).val < 2 := (i 2).isLt
  have hN : cfg0.N = 80 := N_0
  have ht : 10 * (i 0).val + 9 < cfg0.N := by omega
  obtain ⟨e0, e1, e2⟩ := index21 ⟨10 * (i 0).val + 9, ht⟩
  have e0' : win0_21.index ⟨10 * (i 0).val + 9, ht⟩ (0 : Fin 3) = (10 * (i 0).val + 9) / 10 := e0
  refine ⟨⟨10 * (i 0).val + 9, ht⟩, (flush0_21 _).mpr (by show (10 * (i 0).val + 9) % 10 = 9; omega), ?_⟩
  rw [mem_blk21]
  intro a
  match a with
  | ⟨0, _⟩ =>
    show win0_21.index ⟨10 * (i 0).val + 9, ht⟩ (0 : Fin 3) * 1 ≤ (i 0).val
      ∧ (i 0).val < win0_21.index ⟨10 * (i 0).val + 9, ht⟩ (0 : Fin 3) * 1 + 1
    omega
  | ⟨1, _⟩ =>
    show win0_21.index ⟨10 * (i 0).val + 9, ht⟩ (1 : Fin 3) * 1 ≤ (i 1).val
      ∧ (i 1).val < win0_21.index ⟨10 * (i 0).val + 9, ht⟩ (1 : Fin 3) * 1 + 1
    omega
  | ⟨2, _⟩ =>
    show win0_21.index ⟨10 * (i 0).val + 9, ht⟩ (2 : Fin 3) * 2 ≤ (i 2).val
      ∧ (i 2).val < win0_21.index ⟨10 * (i 0).val + 9, ht⟩ (2 : Fin 3) * 2 + 2
    omega

/-- Entry (b, 0, 0) of the risks is in the block written back at point 10·b + 9. -/
theorem cover22 (i : S8x1x1.Idx) :
    ∃ t : Fin cfg0.N, (cfg0.win 22).flush t = true ∧ i ∈ ((cfg0.win 22).blk t).view.set := by
  have hi0 : (i 0).val < 8 := (i 0).isLt
  have hi1 : (i 1).val < 1 := (i 1).isLt
  have hi2 : (i 2).val < 1 := (i 2).isLt
  have hN : cfg0.N = 80 := N_0
  have ht : 10 * (i 0).val + 9 < cfg0.N := by omega
  obtain ⟨e0, e1, e2⟩ := index22 ⟨10 * (i 0).val + 9, ht⟩
  have e0' : win0_22.index ⟨10 * (i 0).val + 9, ht⟩ (0 : Fin 3) = (10 * (i 0).val + 9) / 10 := e0
  refine ⟨⟨10 * (i 0).val + 9, ht⟩, (flush0_22 _).mpr (by show (10 * (i 0).val + 9) % 10 = 9; omega), ?_⟩
  rw [mem_blk22]
  intro a
  match a with
  | ⟨0, _⟩ =>
    show win0_22.index ⟨10 * (i 0).val + 9, ht⟩ (0 : Fin 3) * 1 ≤ (i 0).val
      ∧ (i 0).val < win0_22.index ⟨10 * (i 0).val + 9, ht⟩ (0 : Fin 3) * 1 + 1
    omega
  | ⟨1, _⟩ =>
    show win0_22.index ⟨10 * (i 0).val + 9, ht⟩ (1 : Fin 3) * 1 ≤ (i 1).val
      ∧ (i 1).val < win0_22.index ⟨10 * (i 0).val + 9, ht⟩ (1 : Fin 3) * 1 + 1
    omega
  | ⟨2, _⟩ =>
    show win0_22.index ⟨10 * (i 0).val + 9, ht⟩ (2 : Fin 3) * 1 ≤ (i 2).val
      ∧ (i 2).val < win0_22.index ⟨10 * (i 0).val + 9, ht⟩ (2 : Fin 3) * 1 + 1
    omega

/-! ## A block of a function of the whole array -/

/-- The bag of point t. -/
theorem bag_lt (t : Fin cfg0.N) : t.val / 10 < 8 := by
  have hN : cfg0.N = 80 := N_0
  have := t.isLt
  omega

/-- Point t's block of a function of the class scores' array, at (0, 0, c), is the function at (t / 10, 0, c). -/
theorem read21 (G21 : S8x1x2.Idx → Elt F .f32) (t : Fin cfg0.N) (c' : Fin 2) :
    ((cfg0.win 21).blk t).view.read (Elt F) G21 (ix3 (0 : Fin 1) (0 : Fin 1) c')
      = G21 (ix3 ⟨t.val / 10, bag_lt t⟩ (0 : Fin 1) c') := by
  rw [View.read_apply]
  refine congrArg G21 (funext fun a => Fin.ext ?_)
  obtain ⟨e0, e1, e2⟩ := index21 t
  match a with
  | ⟨0, _⟩ => show win0_21.index t (0 : Fin 3) * 1 + 1 * 0 = t.val / 10; omega
  | ⟨1, _⟩ => show win0_21.index t (1 : Fin 3) * 1 + 1 * 0 = 0; omega
  | ⟨2, _⟩ => show win0_21.index t (2 : Fin 3) * 2 + 1 * c'.val = c'.val; omega

/-- Point t's block of a function of the risks' array, at (0, 0, 0), is the function at (t / 10, 0, 0). -/
theorem read22 (G22 : S8x1x1.Idx → Elt F .f32) (t : Fin cfg0.N) :
    ((cfg0.win 22).blk t).view.read (Elt F) G22 (ix3 (0 : Fin 1) (0 : Fin 1) (0 : Fin 1))
      = G22 (ix3 ⟨t.val / 10, bag_lt t⟩ (0 : Fin 1) (0 : Fin 1)) := by
  rw [View.read_apply]
  refine congrArg G22 (funext fun a => Fin.ext ?_)
  obtain ⟨e0, e1, e2⟩ := index22 t
  match a with
  | ⟨0, _⟩ => show win0_22.index t (0 : Fin 3) * 1 + 1 * 0 = t.val / 10; omega
  | ⟨1, _⟩ => show win0_22.index t (1 : Fin 3) * 1 + 1 * 0 = 0; omega
  | ⟨2, _⟩ => show win0_22.index t (2 : Fin 3) * 1 + 1 * 0 = 0; omega

/-- Two functions on a [1,1,2] block that agree at every (0, 0, c) are equal. -/
theorem ext112 {α : Type} (f g : S1x1x2.Idx → α) (h : ∀ c' : Fin 2, f (ix3 0 0 c') = g (ix3 0 0 c')) : f = g := by
  funext j
  have one : ∀ x : Fin 1, x = 0 := fun x => Subsingleton.elim _ _
  have hj : j = ix3 (0 : Fin 1) (0 : Fin 1) (j 2) := by
    funext a
    match a with
    | ⟨0, _⟩ => exact one (j 0)
    | ⟨1, _⟩ => exact one (j 1)
    | ⟨2, _⟩ => rfl
  exact (congrArg f hj).trans ((h (j 2)).trans (congrArg g hj).symm)

/-- Two functions on a [1,1,1] block that agree at (0, 0, 0) are equal. -/
theorem ext111 {α : Type} (f g : S1x1x1.Idx → α) (h : f (ix3 0 0 0) = g (ix3 0 0 0)) : f = g := by
  funext j
  have one : ∀ x : Fin 1, x = 0 := fun x => Subsingleton.elim _ _
  have hj : j = ix3 (0 : Fin 1) (0 : Fin 1) (0 : Fin 1) := by
    funext a
    match a with
    | ⟨0, _⟩ => exact one (j 0)
    | ⟨1, _⟩ => exact one (j 1)
    | ⟨2, _⟩ => exact one (j 2)
  exact (congrArg f hj).trans (h.trans (congrArg g hj).symm)

/-! ## The two reshapes after the region -/

/-- The class scores [8,2] read at (b, c) are the array [8,1,2] at (b, 0, c). -/
theorem tail_v2 (W : Valuation τ sig (Elt F)) (b : Fin 8) (c' : Fin 2) :
    (StableHlo.after hostOps1 W (Proc.devRef .tc main_v2) : S8x2.Idx → Elt F .f32) (ix2 b c')
      = (W (Proc.devRef .tc main_v1_0) : S8x1x2.Idx → Elt F .f32) (ix3 b (0 : Fin 1) c') := by
  have e : (StableHlo.after hostOps1 W (Proc.devRef .tc main_v2) : S8x2.Idx → Elt F .f32)
      = shapeCast S8x2 (W (Proc.devRef .tc main_v1_0) : S8x1x2.Idx → Elt F .f32) shapeCasts_S8x1x2_S8x2 := by
    after_results
    rfl
  refine (congrFun e (ix2 b c')).trans ?_
  refine shapeCast_apply _ _ (ix2 b c') (ix3 b (0 : Fin 1) c') ?_
  rw [Shape.rowMajor_val_three, Shape.rowMajor_val_two]
  show (b.val * 1 + 0) * 2 + c'.val = b.val * 2 + c'.val
  omega

/-- The risks [8] read at b are the array [8,1,1] at (b, 0, 0). -/
theorem tail_v3 (W : Valuation τ sig (Elt F)) (b : Fin 8) :
    (StableHlo.after hostOps1 W (Proc.devRef .tc main_v3) : S8.Idx → Elt F .f32) (ix1 b)
      = (W (Proc.devRef .tc main_v1_1) : S8x1x1.Idx → Elt F .f32) (ix3 b (0 : Fin 1) (0 : Fin 1)) := by
  have e : (StableHlo.after hostOps1 W (Proc.devRef .tc main_v3) : S8.Idx → Elt F .f32)
      = shapeCast S8 (W (Proc.devRef .tc main_v1_1) : S8x1x1.Idx → Elt F .f32) shapeCasts_S8x1x1_S8 := by
    after_results
    rfl
  refine (congrFun e (ix1 b)).trans ?_
  refine shapeCast_apply _ _ (ix1 b) (ix3 b (0 : Fin 1) (0 : Fin 1)) ?_
  rw [Shape.rowMajor_val_three, Shape.rowMajor_val_one]
  show (b.val * 1 + 0) * 1 + 0 = b.val
  omega

end Cert.Mil.Out

end
-- ==== Proof.MilFinal.lean ====
/-
  The two result arrays after the region.

  Output window 21 writes its [1,1,2] block back to row `b` of the class-score array only after bag `b`'s last
  tile, and what it writes is the class scores of bag `b`'s vector in the blocked arrangement; the eight write-backs
  cover the array, so it ends holding exactly those scores.  Likewise window 22 and the risks.
-/
import proofs.«160597_j5995774345772_2_alg».proof.Proof.MilInduct
import proofs.«160597_j5995774345772_2_alg».proof.Proof.MilOut

noncomputable section

namespace Cert.Mil.Final

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.GenP Cert.Mil Cert.Mil.Induct

variable (m : (ℓ : Loc nD τ sig) → Buf (Elt Ideal) ℓ) (c : Dev nD)

/-- The class-score array `[8,1,2]` the region leaves. -/
def G21 : S8x1x2.Idx → EReal :=
  fun i => logitsOf (params m c) (bagOfBlocked (params m c) (input m c) (i 0)) (i 2)

/-- The risk array `[8,1,1]` the region leaves. -/
def G22 : S8x1x1.Idx → EReal :=
  fun i => riskOf (params m c) (bagOfBlocked (params m c) (input m c) (i 0))

theorem bagIx_eq (t : Fin cfg0.N) : bagIx (t.val / 10) = ⟨t.val / 10, Out.bag_lt t⟩ := by
  have := Out.bag_lt t
  apply Fin.ext
  show t.val / 10 % 8 = t.val / 10
  omega

/-- What window 21 writes back after a bag's last tile is that bag's block of the class-score array. -/
theorem flushed21 (t : Fin cfg0.N) (hf : (cfg0.win 21).flush t = true) :
    (dats m 0 c).flushed 21 t = ((cfg0.win 21).blk t).view.read (Elt Ideal) (G21 m c) := by
  have h9 : t.val % 10 = 9 := (flush0_21 t).mp hf
  show (cfg0.win 21).cut (grid0.coords t) ((dats m 0 c).after 21 t) = _
  rw [after0_21]
  refine Out.ext112 _ _ (fun c' => ?_)
  rw [Out.read21]
  refine ((out_last m c t h9).1 c').trans ?_
  unfold G21
  rw [bagIx_eq t]

/-- What window 22 writes back after a bag's last tile is that bag's entry of the risk array. -/
theorem flushed22 (t : Fin cfg0.N) (hf : (cfg0.win 22).flush t = true) :
    (dats m 0 c).flushed 22 t = ((cfg0.win 22).blk t).view.read (Elt Ideal) (G22 m c) := by
  have h9 : t.val % 10 = 9 := (flush0_22 t).mp hf
  show (cfg0.win 22).cut (grid0.coords t) ((dats m 0 c).after 22 t) = _
  rw [after0_22]
  refine Out.ext111 _ _ ?_
  rw [Out.read22]
  refine (out_last m c t h9).2.trans ?_
  unfold G22
  rw [bagIx_eq t]

/-- The class-score array after the region. -/
theorem final21 : (dats m 0 c).arrAt 21 cfg0.N = G21 m c :=
  (dats m 0 c).arrAt_eq_of_cover 21 (G21 m c) (flushed21 m c) Out.cover21

/-- The risk array after the region. -/
theorem final22 : (dats m 0 c).arrAt 22 cfg0.N = G22 m c :=
  (dats m 0 c).arrAt_eq_of_cover 22 (G22 m c) (flushed22 m c) Out.cover22

end Cert.Mil.Final

end
-- ==== Proof.MilRun.lean ====
/-
  What the whole program leaves in memory, in terms of what its two output windows hold after the last
  grid point.

  The program is one transpose before the grid, the grid of 80 points, and two reshapes after it.  The run
  of the grid leaves every array a window stages at what the window's data say after the last point, and
  every other buffer as it was found.  From this:

  * the class scores [8, 2] are the reshape of the first output array [8, 1, 2]: entry (b, c) reads entry
    (b, 0, c) of what that window holds at the end;
  * the risks [8] are the reshape of the second output array [8, 1, 1]: entry b reads entry (b, 0, 0);
  * the twenty-one arguments end as they started: twenty are staged by input windows, which never write
    their arrays back, and the remaining one (the column that is transposed before the grid) is touched by
    no window and by neither reshape.

  The two reshapes enter as hypotheses: each says that the reshape's result at an index is its operand at
  the index with the same row-major position, for any memory contents before the reshapes.
-/
import proofs.«160597_j5995774345772_2_alg».proof.Proof.PatchedKernelIdealFrame
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.Mil.Run

open Cert.KernelIdeal Cert.KernelIdeal.Gen Cert.KernelIdeal.GenP

section AnyFloat

variable {F : FTy → Type} [FloatOps F] [Named F]
variable (m : (ℓ : Loc nD τ sig) → Buf (Elt F) ℓ) (ρ : Dev nD → PrngReg)

set_option maxHeartbeats 4000000 in
/-- For ANY window data whose arrays start as the grid finds them: if the run ends with every staged array at
    what the data say after the last point and every other buffer as the two reshapes leave it, then the two
    results are the reshapes of what the output windows hold at the end (`G21`, `G22`) and the arguments
    are unchanged. -/
theorem run_of_frame (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ)
      (Pipeline.FramePost cfgs dats 0 (Pipeline.afterTail₀ cfgs dats 0 (V0 m) [hostOps1])))
    (G21 : Dev nD → S8x1x2.Idx → Elt F .f32) (G22 : Dev nD → S8x1x1.Idx → Elt F .f32)
    (h21 : ∀ c, (dats 0 c).arrAt 21 cfg0.N = G21 c) (h22 : ∀ c, (dats 0 c).arrAt 22 cfg0.N = G22 c)
    (htail2 : ∀ (W : Valuation τ sig (Elt F)) (b : Fin 8) (c' : Fin 2),
      (StableHlo.after hostOps1 W (Proc.devRef .tc main_v2) : S8x2.Idx → Elt F .f32) (ix2 b c')
        = (W (Proc.devRef .tc main_v1_0) : S8x1x2.Idx → Elt F .f32) (ix3 b (0 : Fin 1) c'))
    (htail3 : ∀ (W : Valuation τ sig (Elt F)) (b : Fin 8),
      (StableHlo.after hostOps1 W (Proc.devRef .tc main_v3) : S8.Idx → Elt F .f32) (ix1 b)
        = (W (Proc.devRef .tc main_v1_1) : S8x1x1.Idx → Elt F .f32) (ix3 b (0 : Fin 1) (0 : Fin 1))) :
    θ_run defs (onTc (τ := τ) (main (F := F))) ⟨m, fun _ => 0, ρ⟩ (fun r => ∀ c : Dev nD,
      r.2.mem ((c.tc : Thread nD τ).loc main_v2) = (fun i => G21 c (ix3 (i 0) (0 : Fin 1) (i 1)))
      ∧ r.2.mem ((c.tc : Thread nD τ).loc main_v3) = (fun i => G22 c (ix3 (i 0) (0 : Fin 1) (0 : Fin 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) := by
  refine (θ_run defs _ _).mono (fun r h c => ⟨?_, ?_, ?_⟩) h
  · have hW : (Pipeline.withArrays spec0 c (V0 m c) (fun w => (dats 0 c).arrAt w cfg0.N)
        (Proc.devRef .tc main_v1_0) : S8x1x2.Idx → Elt F .f32) = G21 c :=
      (Pipeline.withArrays_arr spec0 launch0.win.arr_inj c (V0 m c) (fun w => (dats 0 c).arrAt w cfg0.N) 21).trans (h21 c)
    rw [(h c).2 main_v2 (Pipeline.mem_restRefs_of main_v2 (by decide) (by decide))]
    funext i
    obtain ⟨a, b, rfl⟩ : ∃ a b, i = ix2 a b := ⟨i 0, i 1, eq_ix2 i⟩
    unfold Pipeline.afterTail₀
    show StableHlo.after hostOps1 _ (Proc.devRef .tc main_v2) (ix2 a b) = _
    exact (htail2 _ a b).trans (congrFun hW (ix3 a (0 : Fin 1) b))
  · have hW : (Pipeline.withArrays spec0 c (V0 m c) (fun w => (dats 0 c).arrAt w cfg0.N)
        (Proc.devRef .tc main_v1_1) : S8x1x1.Idx → Elt F .f32) = G22 c :=
      (Pipeline.withArrays_arr spec0 launch0.win.arr_inj c (V0 m c) (fun w => (dats 0 c).arrAt w cfg0.N) 22).trans (h22 c)
    rw [(h c).2 main_v3 (Pipeline.mem_restRefs_of main_v3 (by decide) (by decide))]
    funext i
    obtain ⟨a, rfl⟩ : ∃ a, i = ix1 a := ⟨i 0, eq_ix1 i⟩
    unfold Pipeline.afterTail₀
    show StableHlo.after hostOps1 _ (Proc.devRef .tc main_v3) (ix1 a) = _
    exact (htail3 _ a).trans (congrFun hW (ix3 a (0 : Fin 1) (0 : Fin 1)))
  · exact ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).2 main_arg11 (Pipeline.mem_restRefs_of main_arg11 (by decide) (by decide))).trans (W_main_arg11 m dats c),
      ((h c).1 12).trans (((dats 0 c).arrAt_in 12 rfl _).trans ((hA c 12).trans (V_main_arg12 m c))),
      ((h c).1 13).trans (((dats 0 c).arrAt_in 13 rfl _).trans ((hA c 13).trans (V_main_arg13 m c))),
      ((h c).1 14).trans (((dats 0 c).arrAt_in 14 rfl _).trans ((hA c 14).trans (V_main_arg14 m c))),
      ((h c).1 15).trans (((dats 0 c).arrAt_in 15 rfl _).trans ((hA c 15).trans (V_main_arg15 m c))),
      ((h c).1 16).trans (((dats 0 c).arrAt_in 16 rfl _).trans ((hA c 16).trans (V_main_arg16 m c))),
      ((h c).1 17).trans (((dats 0 c).arrAt_in 17 rfl _).trans ((hA c 17).trans (V_main_arg17 m c))),
      ((h c).1 18).trans (((dats 0 c).arrAt_in 18 rfl _).trans ((hA c 18).trans (V_main_arg18 m c))),
      ((h c).1 19).trans (((dats 0 c).arrAt_in 19 rfl _).trans ((hA c 19).trans (V_main_arg19 m c))),
      ((h c).1 20).trans (((dats 0 c).arrAt_in 20 rfl _).trans ((hA c 20).trans (V_main_arg20 m c)))⟩

/-- The same for the window data of this kernel's run. -/
theorem kernel_run_of (G21 : Dev nD → S8x1x2.Idx → Elt F .f32) (G22 : Dev nD → S8x1x1.Idx → Elt F .f32)
    (h21 : ∀ c, (dats m 0 c).arrAt 21 cfg0.N = G21 c) (h22 : ∀ c, (dats m 0 c).arrAt 22 cfg0.N = G22 c)
    (htail2 : ∀ (W : Valuation τ sig (Elt F)) (b : Fin 8) (c' : Fin 2),
      (StableHlo.after hostOps1 W (Proc.devRef .tc main_v2) : S8x2.Idx → Elt F .f32) (ix2 b c')
        = (W (Proc.devRef .tc main_v1_0) : S8x1x2.Idx → Elt F .f32) (ix3 b (0 : Fin 1) c'))
    (htail3 : ∀ (W : Valuation τ sig (Elt F)) (b : Fin 8),
      (StableHlo.after hostOps1 W (Proc.devRef .tc main_v3) : S8.Idx → Elt F .f32) (ix1 b)
        = (W (Proc.devRef .tc main_v1_1) : S8x1x1.Idx → Elt F .f32) (ix3 b (0 : Fin 1) (0 : Fin 1))) :
    θ_run defs (onTc (τ := τ) (main (F := F))) ⟨m, fun _ => 0, ρ⟩ (fun r => ∀ c : Dev nD,
      r.2.mem ((c.tc : Thread nD τ).loc main_v2) = (fun i => G21 c (ix3 (i 0) (0 : Fin 1) (i 1)))
      ∧ r.2.mem ((c.tc : Thread nD τ).loc main_v3) = (fun i => G22 c (ix3 (i 0) (0 : Fin 1) (0 : Fin 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  run_of_frame m ρ (dats m) (A_eq m) (run_main m ρ) G21 G22 h21 h22 htail2 htail3

end AnyFloat

/-- Over the extended reals. -/
theorem kernel_run (m : (ℓ : Loc nD τ sig) → Buf (Elt Ideal) ℓ) (ρ : Dev nD → PrngReg)
    (G21 : Dev nD → S8x1x2.Idx → EReal) (G22 : Dev nD → S8x1x1.Idx → EReal)
    (h21 : ∀ c, (dats m 0 c).arrAt 21 cfg0.N = G21 c) (h22 : ∀ c, (dats m 0 c).arrAt 22 cfg0.N = G22 c)
    (htail2 : ∀ (W : Valuation τ sig (Elt Ideal)) (b : Fin 8) (c' : Fin 2),
      (StableHlo.after hostOps1 W (Proc.devRef .tc main_v2) : S8x2.Idx → Elt Ideal .f32) (ix2 b c')
        = (W (Proc.devRef .tc main_v1_0) : S8x1x2.Idx → Elt Ideal .f32) (ix3 b (0 : Fin 1) c'))
    (htail3 : ∀ (W : Valuation τ sig (Elt Ideal)) (b : Fin 8),
      (StableHlo.after hostOps1 W (Proc.devRef .tc main_v3) : S8.Idx → Elt Ideal .f32) (ix1 b)
        = (W (Proc.devRef .tc main_v1_1) : S8x1x1.Idx → Elt Ideal .f32) (ix3 b (0 : Fin 1) (0 : Fin 1))) :
    θ_run defs (onTc (τ := τ) (main (F := Ideal))) ⟨m, fun _ => 0, ρ⟩ (fun r => ∀ c : Dev nD,
      r.2.mem ((c.tc : Thread nD τ).loc main_v2) = (fun i => G21 c (ix3 (i 0) (0 : Fin 1) (i 1)))
      ∧ r.2.mem ((c.tc : Thread nD τ).loc main_v3) = (fun i => G22 c (ix3 (i 0) (0 : Fin 1) (0 : Fin 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  kernel_run_of m ρ G21 G22 h21 h22 htail2 htail3

end Cert.Mil.Run
-- ==== Proof.MilRef1.lean ====
/-
  The reference, first layer: the affine map of an instance's row, its layer normalisation and the clamp
  at zero, read element by element, are the specification's `hidden1`.
-/
import proofs.«160597_j5995774345772_2_alg».proof.Proof.Gen.ReferenceIdeal.Read
import proofs.«160597_j5995774345772_2_alg».proof.Proof.MilSpec

open Idealize.ShloMosaic Idealize.ShloMosaic.ValueIdx
open Cert.ReferenceIdeal Cert.ReferenceIdeal.Read
open scoped BigOperators

namespace Cert.Mil.Ref

noncomputable section

variable (x0 : (⟨S8x50000x256, .f32⟩ : BufTy).Contents (Elt Ideal)) (x1 : (⟨S256x128, .f32⟩ : BufTy).Contents (Elt Ideal)) (x2 x3 x4 : (⟨S128, .f32⟩ : BufTy).Contents (Elt Ideal))
  (x5 : (⟨S128x128, .f32⟩ : BufTy).Contents (Elt Ideal)) (x6 x7 x8 : (⟨S128, .f32⟩ : BufTy).Contents (Elt Ideal)) (x9 : (⟨S128x128, .f32⟩ : BufTy).Contents (Elt Ideal)) (x10 : (⟨S128, .f32⟩ : BufTy).Contents (Elt Ideal))
  (x11 : (⟨S128x1, .f32⟩ : BufTy).Contents (Elt Ideal)) (x12 : (⟨S1, .f32⟩ : BufTy).Contents (Elt Ideal)) (x13 : (⟨S128x128, .f32⟩ : BufTy).Contents (Elt Ideal)) (x14 : (⟨S128, .f32⟩ : BufTy).Contents (Elt Ideal))
  (x15 : (⟨S128x2, .f32⟩ : BufTy).Contents (Elt Ideal)) (x16 : (⟨S2, .f32⟩ : BufTy).Contents (Elt Ideal)) (x17 : (⟨S128x64, .f32⟩ : BufTy).Contents (Elt Ideal)) (x18 : (⟨S64, .f32⟩ : BufTy).Contents (Elt Ideal))
  (x19 : (⟨S64x1, .f32⟩ : BufTy).Contents (Elt Ideal)) (x20 : (⟨S1, .f32⟩ : BufTy).Contents (Elt Ideal))

/-! ### Where the first layer's operations read their operands -/

theorem lidx_v0 (b : Fin 8) (n : Fin 50000) (q : Fin 128) (k : Fin 256) :
    lidx_main_v0 (ix3 b n q) k = ix3 b n k := funext fun a => Fin.ext (by match a with | ⟨0, _⟩ => rfl | ⟨1, _⟩ => rfl | ⟨2, _⟩ => rfl)
theorem ridx_v0 (b : Fin 8) (n : Fin 50000) (q : Fin 128) (k : Fin 256) :
    ridx_main_v0 (ix3 b n q) k = ix2 k q := funext fun a => Fin.ext (by match a with | ⟨0, _⟩ => rfl | ⟨1, _⟩ => rfl)
theorem idx_v2 (b : Fin 8) (n : Fin 50000) (q : Fin 128) :
    idx_main_v1 (idx_main_v2 (ix3 b n q)) = ix1 q := funext fun a => Fin.ext (by match a with | ⟨0, _⟩ => rfl)
theorem idx_v5 (b : Fin 8) (n : Fin 50000) (z : Fin 1) (k : Fin 128) :
    idx_main_v4 (idx_main_v5 (ix3 b n z)) k = ix3 b n k := funext fun a => Fin.ext (by match a with | ⟨0, _⟩ => rfl | ⟨1, _⟩ => rfl | ⟨2, _⟩ => rfl)
theorem idx_v8 (b : Fin 8) (n : Fin 50000) (q : Fin 128) :
    idx_main_v8 (ix3 b n q) = ix3 b n (0 : Fin 1) := funext fun a => Fin.ext (by match a with | ⟨0, _⟩ => rfl | ⟨1, _⟩ => rfl | ⟨2, _⟩ => rfl)

/-- The first affine map at instance `n` of bag `b`, feature `q`. -/
theorem affine1_eq (b : Fin 8) (n : Fin 50000) (q : Fin 128) :
    val_main_v3 (F := Ideal) x0 x1 x2 (ix3 b n q)
      = affine (mkParams x1 x2 x3 x4 x5 x6 x7 x8 x9 x10 x11 x12 x13 x14 x15 x16 x17 x18 x19 x20).W1 (mkParams x1 x2 x3 x4 x5 x6 x7 x8 x9 x10 x11 x12 x13 x14 x15 x16 x17 x18 x19 x20).b1 (instRow x0 b n) q := by
  rw [val_main_v3_apply, val_main_v0_apply, val_main_v2_apply, val_main_v1_apply]
  simp only [lidx_v0, ridx_v0, idx_v2]
  rfl

/-- The mean of the first affine map's 128 features. -/
theorem mean1_eq (b : Fin 8) (n : Fin 50000) (z : Fin 1) :
    val_main_v7 (F := Ideal) x0 x1 x2 (ix3 b n z)
      = mean (affine (mkParams x1 x2 x3 x4 x5 x6 x7 x8 x9 x10 x11 x12 x13 x14 x15 x16 x17 x18 x19 x20).W1 (mkParams x1 x2 x3 x4 x5 x6 x7 x8 x9 x10 x11 x12 x13 x14 x15 x16 x17 x18 x19 x20).b1 (instRow x0 b n)) := by
  rw [val_main_v7_apply, val_main_v5_apply, val_main_v6_apply, val_main_cst_0_apply, val_main_v4_apply,
    val_main_cst_apply]
  simp only [idx_v5, affine1_eq x0 x1 x2 x3 x4 x5 x6 x7 x8 x9 x10 x11 x12 x13 x14 x15 x16 x17 x18 x19 x20,
    Ideal.ofBits_def, Ideal.ofBits_zero_f32, zero_add, Ideal.hostDivf_def]
  rfl

theorem idx_v12 (b : Fin 8) (n : Fin 50000) (z : Fin 1) (k : Fin 128) :
    idx_main_v11 (idx_main_v12 (ix3 b n z)) k = ix3 b n k := funext fun a => Fin.ext (by match a with | ⟨0, _⟩ => rfl | ⟨1, _⟩ => rfl | ⟨2, _⟩ => rfl)
theorem idx_v15 (b : Fin 8) (n : Fin 50000) (q : Fin 128) :
    idx_main_v15 (ix3 b n q) = ix3 b n (0 : Fin 1) := funext fun a => Fin.ext (by match a with | ⟨0, _⟩ => rfl | ⟨1, _⟩ => rfl | ⟨2, _⟩ => rfl)
theorem idx_v20 (b : Fin 8) (n : Fin 50000) (q : Fin 128) :
    idx_main_v20 (ix3 b n q) = ix3 b n (0 : Fin 1) := funext fun a => Fin.ext (by match a with | ⟨0, _⟩ => rfl | ⟨1, _⟩ => rfl | ⟨2, _⟩ => rfl)
theorem idx_v23 (b : Fin 8) (n : Fin 50000) (q : Fin 128) :
    idx_main_v22 (idx_main_v23 (ix3 b n q)) = ix1 q := funext fun a => Fin.ext (by match a with | ⟨0, _⟩ => rfl)
theorem idx_v26 (b : Fin 8) (n : Fin 50000) (q : Fin 128) :
    idx_main_v25 (idx_main_v26 (ix3 b n q)) = ix1 q := funext fun a => Fin.ext (by match a with | ⟨0, _⟩ => rfl)

/-- A feature's deviation from the mean (the copy that is squared). -/
theorem dev1_eq (b : Fin 8) (n : Fin 50000) (q : Fin 128) :
    val_main_v9 (F := Ideal) x0 x1 x2 (ix3 b n q)
      = (affine (mkParams x1 x2 x3 x4 x5 x6 x7 x8 x9 x10 x11 x12 x13 x14 x15 x16 x17 x18 x19 x20).W1 (mkParams x1 x2 x3 x4 x5 x6 x7 x8 x9 x10 x11 x12 x13 x14 x15 x16 x17 x18 x19 x20).b1 (instRow x0 b n)) q - mean (affine (mkParams x1 x2 x3 x4 x5 x6 x7 x8 x9 x10 x11 x12 x13 x14 x15 x16 x17 x18 x19 x20).W1 (mkParams x1 x2 x3 x4 x5 x6 x7 x8 x9 x10 x11 x12 x13 x14 x15 x16 x17 x18 x19 x20).b1 (instRow x0 b n)) := by
  rw [val_main_v9_apply, val_main_v8_apply, idx_v8, mean1_eq x0 x1 x2 x3 x4 x5 x6 x7 x8 x9 x10 x11 x12 x13 x14 x15 x16 x17 x18 x19 x20, affine1_eq x0 x1 x2 x3 x4 x5 x6 x7 x8 x9 x10 x11 x12 x13 x14 x15 x16 x17 x18 x19 x20]
  rfl

/-- A feature's deviation from the mean (the copy that is normalised). -/
theorem dev1'_eq (b : Fin 8) (n : Fin 50000) (q : Fin 128) :
    val_main_v16 (F := Ideal) x0 x1 x2 (ix3 b n q)
      = (affine (mkParams x1 x2 x3 x4 x5 x6 x7 x8 x9 x10 x11 x12 x13 x14 x15 x16 x17 x18 x19 x20).W1 (mkParams x1 x2 x3 x4 x5 x6 x7 x8 x9 x10 x11 x12 x13 x14 x15 x16 x17 x18 x19 x20).b1 (instRow x0 b n)) q - mean (affine (mkParams x1 x2 x3 x4 x5 x6 x7 x8 x9 x10 x11 x12 x13 x14 x15 x16 x17 x18 x19 x20).W1 (mkParams x1 x2 x3 x4 x5 x6 x7 x8 x9 x10 x11 x12 x13 x14 x15 x16 x17 x18 x19 x20).b1 (instRow x0 b n)) := by
  rw [val_main_v16_apply, val_main_v15_apply, idx_v15, mean1_eq x0 x1 x2 x3 x4 x5 x6 x7 x8 x9 x10 x11 x12 x13 x14 x15 x16 x17 x18 x19 x20, affine1_eq x0 x1 x2 x3 x4 x5 x6 x7 x8 x9 x10 x11 x12 x13 x14 x15 x16 x17 x18 x19 x20]
  rfl

/-- The reciprocal square root of the variance plus the offset. -/
theorem rstd1_eq (b : Fin 8) (n : Fin 50000) (z : Fin 1) :
    val_main_v19 (F := Ideal) x0 x1 x2 (ix3 b n z)
      = Ideal.rsqrt (Ideal.div (∑ j, ((affine (mkParams x1 x2 x3 x4 x5 x6 x7 x8 x9 x10 x11 x12 x13 x14 x15 x16 x17 x18 x19 x20).W1 (mkParams x1 x2 x3 x4 x5 x6 x7 x8 x9 x10 x11 x12 x13 x14 x15 x16 x17 x18 x19 x20).b1 (instRow x0 b n)) j - mean (affine (mkParams x1 x2 x3 x4 x5 x6 x7 x8 x9 x10 x11 x12 x13 x14 x15 x16 x17 x18 x19 x20).W1 (mkParams x1 x2 x3 x4 x5 x6 x7 x8 x9 x10 x11 x12 x13 x14 x15 x16 x17 x18 x19 x20).b1 (instRow x0 b n))) * ((affine (mkParams x1 x2 x3 x4 x5 x6 x7 x8 x9 x10 x11 x12 x13 x14 x15 x16 x17 x18 x19 x20).W1 (mkParams x1 x2 x3 x4 x5 x6 x7 x8 x9 x10 x11 x12 x13 x14 x15 x16 x17 x18 x19 x20).b1 (instRow x0 b n)) j - mean (affine (mkParams x1 x2 x3 x4 x5 x6 x7 x8 x9 x10 x11 x12 x13 x14 x15 x16 x17 x18 x19 x20).W1 (mkParams x1 x2 x3 x4 x5 x6 x7 x8 x9 x10 x11 x12 x13 x14 x15 x16 x17 x18 x19 x20).b1 (instRow x0 b n)))) c128W + epsW) := by
  rw [val_main_v19_apply, val_main_v18_apply, val_main_v14_apply, val_main_v12_apply, val_main_v13_apply,
    val_main_cst_2_apply, val_main_v17_apply, val_main_cst_3_apply, val_main_v11_apply, val_main_cst_1_apply]
  simp only [idx_v12, val_main_v10_apply, dev1_eq x0 x1 x2 x3 x4 x5 x6 x7 x8 x9 x10 x11 x12 x13 x14 x15 x16 x17 x18 x19 x20,
    Ideal.ofBits_def, Ideal.ofBits_zero_f32, zero_add, Ideal.hostDivf_def, Ideal.hostUnary_rsqrt_def, Ideal.addf_def,
    Ideal.mulf_def]
  rfl

/-- The first layer normalisation. -/
theorem lnorm1_eq (b : Fin 8) (n : Fin 50000) (q : Fin 128) :
    val_main_v27 (F := Ideal) x0 x1 x2 x3 x4 (ix3 b n q)
      = lnorm (mkParams x1 x2 x3 x4 x5 x6 x7 x8 x9 x10 x11 x12 x13 x14 x15 x16 x17 x18 x19 x20).g1 (mkParams x1 x2 x3 x4 x5 x6 x7 x8 x9 x10 x11 x12 x13 x14 x15 x16 x17 x18 x19 x20).be1 (affine (mkParams x1 x2 x3 x4 x5 x6 x7 x8 x9 x10 x11 x12 x13 x14 x15 x16 x17 x18 x19 x20).W1 (mkParams x1 x2 x3 x4 x5 x6 x7 x8 x9 x10 x11 x12 x13 x14 x15 x16 x17 x18 x19 x20).b1 (instRow x0 b n)) q := by
  rw [val_main_v27_apply, val_main_v24_apply, val_main_v21_apply, val_main_v20_apply, idx_v20,
    val_main_v23_apply, val_main_v22_apply, idx_v23, val_main_v26_apply, val_main_v25_apply, idx_v26,
    dev1'_eq x0 x1 x2 x3 x4 x5 x6 x7 x8 x9 x10 x11 x12 x13 x14 x15 x16 x17 x18 x19 x20, rstd1_eq x0 x1 x2 x3 x4 x5 x6 x7 x8 x9 x10 x11 x12 x13 x14 x15 x16 x17 x18 x19 x20]
  rfl

/-- The first hidden layer. -/
theorem hidden1_eq (b : Fin 8) (n : Fin 50000) (q : Fin 128) :
    val_main_v28 (F := Ideal) x0 x1 x2 x3 x4 (ix3 b n q)
      = hidden1 (mkParams x1 x2 x3 x4 x5 x6 x7 x8 x9 x10 x11 x12 x13 x14 x15 x16 x17 x18 x19 x20) (instRow x0 b n) q := by
  rw [val_main_v28_apply, val_main_call0_v0_apply, val_main_call0_cst_apply, lnorm1_eq x0 x1 x2 x3 x4 x5 x6 x7 x8 x9 x10 x11 x12 x13 x14 x15 x16 x17 x18 x19 x20]
  rfl

end

end Cert.Mil.Ref
-- ==== Proof.MilRef2.lean ====
/-
  The reference, second layer: the affine map of the first hidden layer, its layer normalisation and the
  clamp at zero are the specification's features `feat`.
-/
import proofs.«160597_j5995774345772_2_alg».proof.Proof.MilRef1

open Idealize.ShloMosaic Idealize.ShloMosaic.ValueIdx
open Cert.ReferenceIdeal Cert.ReferenceIdeal.Read
open scoped BigOperators

namespace Cert.Mil.Ref

noncomputable section

variable (x0 : (⟨S8x50000x256, .f32⟩ : BufTy).Contents (Elt Ideal)) (x1 : (⟨S256x128, .f32⟩ : BufTy).Contents (Elt Ideal)) (x2 x3 x4 : (⟨S128, .f32⟩ : BufTy).Contents (Elt Ideal))
  (x5 : (⟨S128x128, .f32⟩ : BufTy).Contents (Elt Ideal)) (x6 x7 x8 : (⟨S128, .f32⟩ : BufTy).Contents (Elt Ideal)) (x9 : (⟨S128x128, .f32⟩ : BufTy).Contents (Elt Ideal)) (x10 : (⟨S128, .f32⟩ : BufTy).Contents (Elt Ideal))
  (x11 : (⟨S128x1, .f32⟩ : BufTy).Contents (Elt Ideal)) (x12 : (⟨S1, .f32⟩ : BufTy).Contents (Elt Ideal)) (x13 : (⟨S128x128, .f32⟩ : BufTy).Contents (Elt Ideal)) (x14 : (⟨S128, .f32⟩ : BufTy).Contents (Elt Ideal))
  (x15 : (⟨S128x2, .f32⟩ : BufTy).Contents (Elt Ideal)) (x16 : (⟨S2, .f32⟩ : BufTy).Contents (Elt Ideal)) (x17 : (⟨S128x64, .f32⟩ : BufTy).Contents (Elt Ideal)) (x18 : (⟨S64, .f32⟩ : BufTy).Contents (Elt Ideal))
  (x19 : (⟨S64x1, .f32⟩ : BufTy).Contents (Elt Ideal)) (x20 : (⟨S1, .f32⟩ : BufTy).Contents (Elt Ideal))

/-! ### Where the second layer's operations read their operands -/

theorem lidx_v29 (b : Fin 8) (n : Fin 50000) (q : Fin 128) (k : Fin 128) :
    lidx_main_v29 (ix3 b n q) k = ix3 b n k := funext fun a => Fin.ext (by match a with | ⟨0, _⟩ => rfl | ⟨1, _⟩ => rfl | ⟨2, _⟩ => rfl)
theorem ridx_v29 (b : Fin 8) (n : Fin 50000) (q : Fin 128) (k : Fin 128) :
    ridx_main_v29 (ix3 b n q) k = ix2 k q := funext fun a => Fin.ext (by match a with | ⟨0, _⟩ => rfl | ⟨1, _⟩ => rfl)
theorem idx_v31 (b : Fin 8) (n : Fin 50000) (q : Fin 128) :
    idx_main_v30 (idx_main_v31 (ix3 b n q)) = ix1 q := funext fun a => Fin.ext (by match a with | ⟨0, _⟩ => rfl)
theorem idx_v34 (b : Fin 8) (n : Fin 50000) (z : Fin 1) (k : Fin 128) :
    idx_main_v33 (idx_main_v34 (ix3 b n z)) k = ix3 b n k := funext fun a => Fin.ext (by match a with | ⟨0, _⟩ => rfl | ⟨1, _⟩ => rfl | ⟨2, _⟩ => rfl)
theorem idx_v37 (b : Fin 8) (n : Fin 50000) (q : Fin 128) :
    idx_main_v37 (ix3 b n q) = ix3 b n (0 : Fin 1) := funext fun a => Fin.ext (by match a with | ⟨0, _⟩ => rfl | ⟨1, _⟩ => rfl | ⟨2, _⟩ => rfl)
theorem idx_v41 (b : Fin 8) (n : Fin 50000) (z : Fin 1) (k : Fin 128) :
    idx_main_v40 (idx_main_v41 (ix3 b n z)) k = ix3 b n k := funext fun a => Fin.ext (by match a with | ⟨0, _⟩ => rfl | ⟨1, _⟩ => rfl | ⟨2, _⟩ => rfl)
theorem idx_v44 (b : Fin 8) (n : Fin 50000) (q : Fin 128) :
    idx_main_v44 (ix3 b n q) = ix3 b n (0 : Fin 1) := funext fun a => Fin.ext (by match a with | ⟨0, _⟩ => rfl | ⟨1, _⟩ => rfl | ⟨2, _⟩ => rfl)
theorem idx_v49 (b : Fin 8) (n : Fin 50000) (q : Fin 128) :
    idx_main_v49 (ix3 b n q) = ix3 b n (0 : Fin 1) := funext fun a => Fin.ext (by match a with | ⟨0, _⟩ => rfl | ⟨1, _⟩ => rfl | ⟨2, _⟩ => rfl)
theorem idx_v52 (b : Fin 8) (n : Fin 50000) (q : Fin 128) :
    idx_main_v51 (idx_main_v52 (ix3 b n q)) = ix1 q := funext fun a => Fin.ext (by match a with | ⟨0, _⟩ => rfl)
theorem idx_v55 (b : Fin 8) (n : Fin 50000) (q : Fin 128) :
    idx_main_v54 (idx_main_v55 (ix3 b n q)) = ix1 q := funext fun a => Fin.ext (by match a with | ⟨0, _⟩ => rfl)

/-- The second affine map at instance `n` of bag `b`, feature `q`. -/
theorem affine2_eq (b : Fin 8) (n : Fin 50000) (q : Fin 128) :
    val_main_v32 (F := Ideal) x0 x1 x2 x3 x4 x5 x6 (ix3 b n q) = (affine (mkParams x1 x2 x3 x4 x5 x6 x7 x8 x9 x10 x11 x12 x13 x14 x15 x16 x17 x18 x19 x20).W2 (mkParams x1 x2 x3 x4 x5 x6 x7 x8 x9 x10 x11 x12 x13 x14 x15 x16 x17 x18 x19 x20).b2 (hidden1 (mkParams x1 x2 x3 x4 x5 x6 x7 x8 x9 x10 x11 x12 x13 x14 x15 x16 x17 x18 x19 x20) (instRow x0 b n))) q := by
  rw [val_main_v32_apply, val_main_v29_apply, val_main_v31_apply, val_main_v30_apply]
  simp only [lidx_v29, ridx_v29, idx_v31, hidden1_eq x0 x1 x2 x3 x4 x5 x6 x7 x8 x9 x10 x11 x12 x13 x14 x15 x16 x17 x18 x19 x20]
  rfl

/-- The mean of the second affine map's 128 features. -/
theorem mean2_eq (b : Fin 8) (n : Fin 50000) (z : Fin 1) :
    val_main_v36 (F := Ideal) x0 x1 x2 x3 x4 x5 x6 (ix3 b n z) = mean (affine (mkParams x1 x2 x3 x4 x5 x6 x7 x8 x9 x10 x11 x12 x13 x14 x15 x16 x17 x18 x19 x20).W2 (mkParams x1 x2 x3 x4 x5 x6 x7 x8 x9 x10 x11 x12 x13 x14 x15 x16 x17 x18 x19 x20).b2 (hidden1 (mkParams x1 x2 x3 x4 x5 x6 x7 x8 x9 x10 x11 x12 x13 x14 x15 x16 x17 x18 x19 x20) (instRow x0 b n))) := by
  rw [val_main_v36_apply, val_main_v34_apply, val_main_v35_apply, val_main_cst_5_apply, val_main_v33_apply,
    val_main_cst_4_apply]
  simp only [idx_v34, affine2_eq x0 x1 x2 x3 x4 x5 x6 x7 x8 x9 x10 x11 x12 x13 x14 x15 x16 x17 x18 x19 x20,
    Ideal.ofBits_def, Ideal.ofBits_zero_f32, zero_add, Ideal.hostDivf_def]
  rfl

/-- A feature's deviation from the mean (the copy that is squared). -/
theorem dev2_eq (b : Fin 8) (n : Fin 50000) (q : Fin 128) :
    val_main_v38 (F := Ideal) x0 x1 x2 x3 x4 x5 x6 (ix3 b n q) = (affine (mkParams x1 x2 x3 x4 x5 x6 x7 x8 x9 x10 x11 x12 x13 x14 x15 x16 x17 x18 x19 x20).W2 (mkParams x1 x2 x3 x4 x5 x6 x7 x8 x9 x10 x11 x12 x13 x14 x15 x16 x17 x18 x19 x20).b2 (hidden1 (mkParams x1 x2 x3 x4 x5 x6 x7 x8 x9 x10 x11 x12 x13 x14 x15 x16 x17 x18 x19 x20) (instRow x0 b n))) q - mean (affine (mkParams x1 x2 x3 x4 x5 x6 x7 x8 x9 x10 x11 x12 x13 x14 x15 x16 x17 x18 x19 x20).W2 (mkParams x1 x2 x3 x4 x5 x6 x7 x8 x9 x10 x11 x12 x13 x14 x15 x16 x17 x18 x19 x20).b2 (hidden1 (mkParams x1 x2 x3 x4 x5 x6 x7 x8 x9 x10 x11 x12 x13 x14 x15 x16 x17 x18 x19 x20) (instRow x0 b n))) := by
  rw [val_main_v38_apply, val_main_v37_apply, idx_v37, mean2_eq x0 x1 x2 x3 x4 x5 x6 x7 x8 x9 x10 x11 x12 x13 x14 x15 x16 x17 x18 x19 x20, affine2_eq x0 x1 x2 x3 x4 x5 x6 x7 x8 x9 x10 x11 x12 x13 x14 x15 x16 x17 x18 x19 x20]
  rfl

/-- A feature's deviation from the mean (the copy that is normalised). -/
theorem dev2'_eq (b : Fin 8) (n : Fin 50000) (q : Fin 128) :
    val_main_v45 (F := Ideal) x0 x1 x2 x3 x4 x5 x6 (ix3 b n q) = (affine (mkParams x1 x2 x3 x4 x5 x6 x7 x8 x9 x10 x11 x12 x13 x14 x15 x16 x17 x18 x19 x20).W2 (mkParams x1 x2 x3 x4 x5 x6 x7 x8 x9 x10 x11 x12 x13 x14 x15 x16 x17 x18 x19 x20).b2 (hidden1 (mkParams x1 x2 x3 x4 x5 x6 x7 x8 x9 x10 x11 x12 x13 x14 x15 x16 x17 x18 x19 x20) (instRow x0 b n))) q - mean (affine (mkParams x1 x2 x3 x4 x5 x6 x7 x8 x9 x10 x11 x12 x13 x14 x15 x16 x17 x18 x19 x20).W2 (mkParams x1 x2 x3 x4 x5 x6 x7 x8 x9 x10 x11 x12 x13 x14 x15 x16 x17 x18 x19 x20).b2 (hidden1 (mkParams x1 x2 x3 x4 x5 x6 x7 x8 x9 x10 x11 x12 x13 x14 x15 x16 x17 x18 x19 x20) (instRow x0 b n))) := by
  rw [val_main_v45_apply, val_main_v44_apply, idx_v44, mean2_eq x0 x1 x2 x3 x4 x5 x6 x7 x8 x9 x10 x11 x12 x13 x14 x15 x16 x17 x18 x19 x20, affine2_eq x0 x1 x2 x3 x4 x5 x6 x7 x8 x9 x10 x11 x12 x13 x14 x15 x16 x17 x18 x19 x20]
  rfl

/-- The reciprocal square root of the variance plus the offset. -/
theorem rstd2_eq (b : Fin 8) (n : Fin 50000) (z : Fin 1) :
    val_main_v48 (F := Ideal) x0 x1 x2 x3 x4 x5 x6 (ix3 b n z)
      = Ideal.rsqrt (Ideal.div (∑ j, ((affine (mkParams x1 x2 x3 x4 x5 x6 x7 x8 x9 x10 x11 x12 x13 x14 x15 x16 x17 x18 x19 x20).W2 (mkParams x1 x2 x3 x4 x5 x6 x7 x8 x9 x10 x11 x12 x13 x14 x15 x16 x17 x18 x19 x20).b2 (hidden1 (mkParams x1 x2 x3 x4 x5 x6 x7 x8 x9 x10 x11 x12 x13 x14 x15 x16 x17 x18 x19 x20) (instRow x0 b n))) j - mean (affine (mkParams x1 x2 x3 x4 x5 x6 x7 x8 x9 x10 x11 x12 x13 x14 x15 x16 x17 x18 x19 x20).W2 (mkParams x1 x2 x3 x4 x5 x6 x7 x8 x9 x10 x11 x12 x13 x14 x15 x16 x17 x18 x19 x20).b2 (hidden1 (mkParams x1 x2 x3 x4 x5 x6 x7 x8 x9 x10 x11 x12 x13 x14 x15 x16 x17 x18 x19 x20) (instRow x0 b n)))) * ((affine (mkParams x1 x2 x3 x4 x5 x6 x7 x8 x9 x10 x11 x12 x13 x14 x15 x16 x17 x18 x19 x20).W2 (mkParams x1 x2 x3 x4 x5 x6 x7 x8 x9 x10 x11 x12 x13 x14 x15 x16 x17 x18 x19 x20).b2 (hidden1 (mkParams x1 x2 x3 x4 x5 x6 x7 x8 x9 x10 x11 x12 x13 x14 x15 x16 x17 x18 x19 x20) (instRow x0 b n))) j - mean (affine (mkParams x1 x2 x3 x4 x5 x6 x7 x8 x9 x10 x11 x12 x13 x14 x15 x16 x17 x18 x19 x20).W2 (mkParams x1 x2 x3 x4 x5 x6 x7 x8 x9 x10 x11 x12 x13 x14 x15 x16 x17 x18 x19 x20).b2 (hidden1 (mkParams x1 x2 x3 x4 x5 x6 x7 x8 x9 x10 x11 x12 x13 x14 x15 x16 x17 x18 x19 x20) (instRow x0 b n))))) c128W + epsW) := by
  rw [val_main_v48_apply, val_main_v47_apply, val_main_v43_apply, val_main_v41_apply, val_main_v42_apply,
    val_main_cst_7_apply, val_main_v46_apply, val_main_cst_8_apply, val_main_v40_apply, val_main_cst_6_apply]
  simp only [idx_v41, val_main_v39_apply, dev2_eq x0 x1 x2 x3 x4 x5 x6 x7 x8 x9 x10 x11 x12 x13 x14 x15 x16 x17 x18 x19 x20,
    Ideal.ofBits_def, Ideal.ofBits_zero_f32, zero_add, Ideal.hostDivf_def, Ideal.hostUnary_rsqrt_def, Ideal.addf_def,
    Ideal.mulf_def]
  rfl

/-- The second layer normalisation. -/
theorem lnorm2_eq (b : Fin 8) (n : Fin 50000) (q : Fin 128) :
    val_main_v56 (F := Ideal) x0 x1 x2 x3 x4 x5 x6 x7 x8 (ix3 b n q) = lnorm (mkParams x1 x2 x3 x4 x5 x6 x7 x8 x9 x10 x11 x12 x13 x14 x15 x16 x17 x18 x19 x20).g2 (mkParams x1 x2 x3 x4 x5 x6 x7 x8 x9 x10 x11 x12 x13 x14 x15 x16 x17 x18 x19 x20).be2 (affine (mkParams x1 x2 x3 x4 x5 x6 x7 x8 x9 x10 x11 x12 x13 x14 x15 x16 x17 x18 x19 x20).W2 (mkParams x1 x2 x3 x4 x5 x6 x7 x8 x9 x10 x11 x12 x13 x14 x15 x16 x17 x18 x19 x20).b2 (hidden1 (mkParams x1 x2 x3 x4 x5 x6 x7 x8 x9 x10 x11 x12 x13 x14 x15 x16 x17 x18 x19 x20) (instRow x0 b n))) q := by
  rw [val_main_v56_apply, val_main_v53_apply, val_main_v50_apply, val_main_v49_apply, idx_v49,
    val_main_v52_apply, val_main_v51_apply, idx_v52, val_main_v55_apply, val_main_v54_apply, idx_v55,
    dev2'_eq x0 x1 x2 x3 x4 x5 x6 x7 x8 x9 x10 x11 x12 x13 x14 x15 x16 x17 x18 x19 x20, rstd2_eq x0 x1 x2 x3 x4 x5 x6 x7 x8 x9 x10 x11 x12 x13 x14 x15 x16 x17 x18 x19 x20]
  rfl

/-- The features of an instance. -/
theorem feat_eq (b : Fin 8) (n : Fin 50000) (q : Fin 128) :
    val_main_v57 (F := Ideal) x0 x1 x2 x3 x4 x5 x6 x7 x8 (ix3 b n q) = feat (mkParams x1 x2 x3 x4 x5 x6 x7 x8 x9 x10 x11 x12 x13 x14 x15 x16 x17 x18 x19 x20) (instRow x0 b n) q := by
  rw [val_main_v57_apply, val_main_call1_v0_apply, val_main_call1_cst_apply, lnorm2_eq x0 x1 x2 x3 x4 x5 x6 x7 x8 x9 x10 x11 x12 x13 x14 x15 x16 x17 x18 x19 x20]
  rfl

end

end Cert.Mil.Ref
-- ==== Proof.MilRef3.lean ====
/-
  The reference's attention score of an instance: an affine map of the features, a hyperbolic tangent, a
  weighted sum of the 128 results and the division by the temperature are the specification's `scoreDiv`.
-/
import proofs.«160597_j5995774345772_2_alg».proof.Proof.MilRef2

open Idealize.ShloMosaic Idealize.ShloMosaic.ValueIdx
open Cert.ReferenceIdeal Cert.ReferenceIdeal.Read
open scoped BigOperators

namespace Cert.Mil.Ref

noncomputable section

variable (x0 : (⟨S8x50000x256, .f32⟩ : BufTy).Contents (Elt Ideal)) (x1 : (⟨S256x128, .f32⟩ : BufTy).Contents (Elt Ideal)) (x2 x3 x4 : (⟨S128, .f32⟩ : BufTy).Contents (Elt Ideal))
  (x5 : (⟨S128x128, .f32⟩ : BufTy).Contents (Elt Ideal)) (x6 x7 x8 : (⟨S128, .f32⟩ : BufTy).Contents (Elt Ideal)) (x9 : (⟨S128x128, .f32⟩ : BufTy).Contents (Elt Ideal)) (x10 : (⟨S128, .f32⟩ : BufTy).Contents (Elt Ideal))
  (x11 : (⟨S128x1, .f32⟩ : BufTy).Contents (Elt Ideal)) (x12 : (⟨S1, .f32⟩ : BufTy).Contents (Elt Ideal)) (x13 : (⟨S128x128, .f32⟩ : BufTy).Contents (Elt Ideal)) (x14 : (⟨S128, .f32⟩ : BufTy).Contents (Elt Ideal))
  (x15 : (⟨S128x2, .f32⟩ : BufTy).Contents (Elt Ideal)) (x16 : (⟨S2, .f32⟩ : BufTy).Contents (Elt Ideal)) (x17 : (⟨S128x64, .f32⟩ : BufTy).Contents (Elt Ideal)) (x18 : (⟨S64, .f32⟩ : BufTy).Contents (Elt Ideal))
  (x19 : (⟨S64x1, .f32⟩ : BufTy).Contents (Elt Ideal)) (x20 : (⟨S1, .f32⟩ : BufTy).Contents (Elt Ideal))

/-! ### Where the score's operations read their operands -/

theorem lidx_v58 (b : Fin 8) (n : Fin 50000) (q : Fin 128) (k : Fin 128) :
    lidx_main_v58 (ix3 b n q) k = ix3 b n k := funext fun a => Fin.ext (by match a with | ⟨0, _⟩ => rfl | ⟨1, _⟩ => rfl | ⟨2, _⟩ => rfl)
theorem ridx_v58 (b : Fin 8) (n : Fin 50000) (q : Fin 128) (k : Fin 128) :
    ridx_main_v58 (ix3 b n q) k = ix2 k q := funext fun a => Fin.ext (by match a with | ⟨0, _⟩ => rfl | ⟨1, _⟩ => rfl)
theorem idx_v60 (b : Fin 8) (n : Fin 50000) (q : Fin 128) :
    idx_main_v59 (idx_main_v60 (ix3 b n q)) = ix1 q := funext fun a => Fin.ext (by match a with | ⟨0, _⟩ => rfl)
theorem lidx_v63 (b : Fin 8) (n : Fin 50000) (z : Fin 1) (k : Fin 128) :
    lidx_main_v63 (ix3 b n z) k = ix3 b n k := funext fun a => Fin.ext (by match a with | ⟨0, _⟩ => rfl | ⟨1, _⟩ => rfl | ⟨2, _⟩ => rfl)
theorem ridx_v63 (b : Fin 8) (n : Fin 50000) (k : Fin 128) :
    ridx_main_v63 (ix3 b n (0 : Fin 1)) k = ix2 k (0 : Fin 1) := funext fun a => Fin.ext (by match a with | ⟨0, _⟩ => rfl | ⟨1, _⟩ => rfl)
theorem idx_v65 (b : Fin 8) (n : Fin 50000) (z : Fin 1) :
    idx_main_v64 (idx_main_v65 (ix3 b n z)) = ix1 (0 : Fin 1) := funext fun a => Fin.ext (by match a with | ⟨0, _⟩ => rfl)

/-- The affine map of the features that the hyperbolic tangent is applied to. -/
theorem attn_eq (b : Fin 8) (n : Fin 50000) (q : Fin 128) :
    val_main_v61 (F := Ideal) x0 x1 x2 x3 x4 x5 x6 x7 x8 x9 x10 (ix3 b n q)
      = affine (mkParams x1 x2 x3 x4 x5 x6 x7 x8 x9 x10 x11 x12 x13 x14 x15 x16 x17 x18 x19 x20).Wa1 (mkParams x1 x2 x3 x4 x5 x6 x7 x8 x9 x10 x11 x12 x13 x14 x15 x16 x17 x18 x19 x20).ba1 (feat (mkParams x1 x2 x3 x4 x5 x6 x7 x8 x9 x10 x11 x12 x13 x14 x15 x16 x17 x18 x19 x20) (instRow x0 b n)) q := by
  rw [val_main_v61_apply, val_main_v58_apply, val_main_v60_apply, val_main_v59_apply]
  simp only [lidx_v58, ridx_v58, idx_v60, feat_eq x0 x1 x2 x3 x4 x5 x6 x7 x8 x9 x10 x11 x12 x13 x14 x15 x16 x17 x18 x19 x20]
  rfl

/-- The score before the temperature. -/
theorem rawScore_eq (b : Fin 8) (n : Fin 50000) (z : Fin 1) :
    val_main_v66 (F := Ideal) x0 x1 x2 x3 x4 x5 x6 x7 x8 x9 x10 x11 x12 (ix3 b n z) = rawScore (mkParams x1 x2 x3 x4 x5 x6 x7 x8 x9 x10 x11 x12 x13 x14 x15 x16 x17 x18 x19 x20) (instRow x0 b n) := by
  obtain rfl : z = 0 := Subsingleton.elim _ _
  rw [val_main_v66_apply, val_main_v63_apply, val_main_v65_apply, val_main_v64_apply]
  simp only [lidx_v63, ridx_v63, idx_v65, val_main_v62_apply, attn_eq x0 x1 x2 x3 x4 x5 x6 x7 x8 x9 x10 x11 x12 x13 x14 x15 x16 x17 x18 x19 x20, Ideal.hostUnary_tanh_def]
  rfl

/-- The score: the quotient by the temperature's word. -/
theorem scoreDiv_eq (b : Fin 8) (n : Fin 50000) (z : Fin 1) :
    val_main_v68 (F := Ideal) x0 x1 x2 x3 x4 x5 x6 x7 x8 x9 x10 x11 x12 (ix3 b n z) = scoreDiv (mkParams x1 x2 x3 x4 x5 x6 x7 x8 x9 x10 x11 x12 x13 x14 x15 x16 x17 x18 x19 x20) (instRow x0 b n) := by
  rw [val_main_v68_apply, val_main_v67_apply, val_main_cst_9_apply, rawScore_eq x0 x1 x2 x3 x4 x5 x6 x7 x8 x9 x10 x11 x12 x13 x14 x15 x16 x17 x18 x19 x20]
  rfl

end

end Cert.Mil.Ref
-- ==== Proof.MilRef4.lean ====
/-
  The reference's pooling of a bag: the maximum of the 50000 scores (started at minus infinity and once more
  compared with it), the exponentials of the shifted scores, their sum, the quotients, and the sum of the
  features weighted by the quotients are the specification's `bagOfPlain`.
-/
import proofs.«160597_j5995774345772_2_alg».proof.Proof.MilRef3

open Idealize.ShloMosaic Idealize.ShloMosaic.ValueIdx
open Cert.ReferenceIdeal Cert.ReferenceIdeal.Read Cert.ReferenceIdeal.Gen
open scoped BigOperators

namespace Cert.Mil.Ref

noncomputable section

variable (x0 : (⟨S8x50000x256, .f32⟩ : BufTy).Contents (Elt Ideal)) (x1 : (⟨S256x128, .f32⟩ : BufTy).Contents (Elt Ideal)) (x2 x3 x4 : (⟨S128, .f32⟩ : BufTy).Contents (Elt Ideal))
  (x5 : (⟨S128x128, .f32⟩ : BufTy).Contents (Elt Ideal)) (x6 x7 x8 : (⟨S128, .f32⟩ : BufTy).Contents (Elt Ideal)) (x9 : (⟨S128x128, .f32⟩ : BufTy).Contents (Elt Ideal)) (x10 : (⟨S128, .f32⟩ : BufTy).Contents (Elt Ideal))
  (x11 : (⟨S128x1, .f32⟩ : BufTy).Contents (Elt Ideal)) (x12 : (⟨S1, .f32⟩ : BufTy).Contents (Elt Ideal)) (x13 : (⟨S128x128, .f32⟩ : BufTy).Contents (Elt Ideal)) (x14 : (⟨S128, .f32⟩ : BufTy).Contents (Elt Ideal))
  (x15 : (⟨S128x2, .f32⟩ : BufTy).Contents (Elt Ideal)) (x16 : (⟨S2, .f32⟩ : BufTy).Contents (Elt Ideal)) (x17 : (⟨S128x64, .f32⟩ : BufTy).Contents (Elt Ideal)) (x18 : (⟨S64, .f32⟩ : BufTy).Contents (Elt Ideal))
  (x19 : (⟨S64x1, .f32⟩ : BufTy).Contents (Elt Ideal)) (x20 : (⟨S1, .f32⟩ : BufTy).Contents (Elt Ideal))

/-! ### Where the pooling's operations read their operands -/

/-- A bag's index with instance `k` put back on the reduced axis. -/
theorem lift_v69 (h : S8x50000x1.Reduces [1] S8x1) (b : Fin 8) (z : Fin 1) (k : Fin (S8x50000x1.size 1)) :
    h.lift (ix2 b z) k = ix3 b (⟨k.val, k.isLt⟩ : Fin 50000) z := funext fun a => Fin.ext (by match a with | ⟨0, _⟩ => rfl | ⟨1, _⟩ => rfl | ⟨2, _⟩ => rfl)
theorem idx_v73 (b : Fin 8) (n : Fin 50000) (z : Fin 1) :
    idx_main_v72 (idx_main_v73 (ix3 b n z)) = ix2 b (0 : Fin 1) := funext fun a => Fin.ext (by match a with | ⟨0, _⟩ => rfl | ⟨1, _⟩ => rfl)
theorem idx_v76 (b : Fin 8) (z : Fin 1) (k : Fin 50000) :
    idx_main_v76 (ix2 b z) k = ix3 b k z := funext fun a => Fin.ext (by match a with | ⟨0, _⟩ => rfl | ⟨1, _⟩ => rfl | ⟨2, _⟩ => rfl)
theorem idx_v78 (b : Fin 8) (n : Fin 50000) (z : Fin 1) :
    idx_main_v77 (idx_main_v78 (ix3 b n z)) = ix2 b (0 : Fin 1) := funext fun a => Fin.ext (by match a with | ⟨0, _⟩ => rfl | ⟨1, _⟩ => rfl)
theorem idx_v80 (b : Fin 8) (n : Fin 50000) (q : Fin 128) :
    idx_main_v80 (ix3 b n q) = ix3 b n (0 : Fin 1) := funext fun a => Fin.ext (by match a with | ⟨0, _⟩ => rfl | ⟨1, _⟩ => rfl | ⟨2, _⟩ => rfl)
theorem idx_v82 (b : Fin 8) (q : Fin 128) (k : Fin 50000) :
    idx_main_v82 (ix2 b q) k = ix3 b k q := funext fun a => Fin.ext (by match a with | ⟨0, _⟩ => rfl | ⟨1, _⟩ => rfl | ⟨2, _⟩ => rfl)

/-- The maximum over a bag's instances, started at minus infinity, is the fold of `max` over the scores. -/
theorem rowmax_eq (b : Fin 8) (z : Fin 1) :
    val_main_v69 (F := Ideal) x0 x1 x2 x3 x4 x5 x6 x7 x8 x9 x10 x11 x12 (ix2 b z)
      = Finset.univ.fold max negInfW (fun n : Fin 50000 => scoreDiv (mkParams x1 x2 x3 x4 x5 x6 x7 x8 x9 x10 x11 x12 x13 x14 x15 x16 x17 x18 x19 x20) (instRow x0 b n)) := by
  have h : S8x50000x1.Reduces [1] S8x1 := by decide
  unfold val_main_v69
  refine (Host.reduce_eq_fold_single (FloatOps.maximumf (F := Ideal) (φ := .f32)) (val_main_v68 (F := Ideal) x0 x1 x2 x3 x4 x5 x6 x7 x8 x9 x10 x11 x12)
    (val_main_cst_10 (F := Ideal)) reducesTo_S8x50000x1_S8x1_d1 h h_S_ (ix2 b z)).trans ?_
  have hf : ((val_main_v68 (F := Ideal) x0 x1 x2 x3 x4 x5 x6 x7 x8 x9 x10 x11 x12) ∘ h.lift (ix2 b z)) = (fun n : Fin 50000 => scoreDiv (mkParams x1 x2 x3 x4 x5 x6 x7 x8 x9 x10 x11 x12 x13 x14 x15 x16 x17 x18 x19 x20) (instRow x0 b n)) :=
    funext fun k => (congrArg (val_main_v68 (F := Ideal) x0 x1 x2 x3 x4 x5 x6 x7 x8 x9 x10 x11 x12) (lift_v69 h b z k)).trans
      (scoreDiv_eq x0 x1 x2 x3 x4 x5 x6 x7 x8 x9 x10 x11 x12 x13 x14 x15 x16 x17 x18 x19 x20 b ⟨k.val, k.isLt⟩ z)
  exact congrArg (fun f => Finset.fold max negInfW f (Finset.univ : Finset (Fin 50000))) hf

/-- The shift of a bag's scores. -/
theorem max_eq (b : Fin 8) (z : Fin 1) :
    val_main_v71 (F := Ideal) x0 x1 x2 x3 x4 x5 x6 x7 x8 x9 x10 x11 x12 (ix2 b z) = (max negInfW (Finset.univ.fold max negInfW (fun n : Fin 50000 => scoreDiv (mkParams x1 x2 x3 x4 x5 x6 x7 x8 x9 x10 x11 x12 x13 x14 x15 x16 x17 x18 x19 x20) (instRow x0 b n)))) := by
  rw [val_main_v71_apply, val_main_v70_apply, val_main_cst_11_apply, rowmax_eq x0 x1 x2 x3 x4 x5 x6 x7 x8 x9 x10 x11 x12 x13 x14 x15 x16 x17 x18 x19 x20]
  rfl

/-- The exponential of an instance's shifted score. -/
theorem expo_eq (b : Fin 8) (n : Fin 50000) (z : Fin 1) :
    val_main_v75 (F := Ideal) x0 x1 x2 x3 x4 x5 x6 x7 x8 x9 x10 x11 x12 (ix3 b n z)
      = Ideal.exp (scoreDiv (mkParams x1 x2 x3 x4 x5 x6 x7 x8 x9 x10 x11 x12 x13 x14 x15 x16 x17 x18 x19 x20) (instRow x0 b n) - (max negInfW (Finset.univ.fold max negInfW (fun n : Fin 50000 => scoreDiv (mkParams x1 x2 x3 x4 x5 x6 x7 x8 x9 x10 x11 x12 x13 x14 x15 x16 x17 x18 x19 x20) (instRow x0 b n))))) := by
  rw [val_main_v75_apply, val_main_v74_apply, val_main_v73_apply, val_main_v72_apply, idx_v73,
    max_eq x0 x1 x2 x3 x4 x5 x6 x7 x8 x9 x10 x11 x12 x13 x14 x15 x16 x17 x18 x19 x20, scoreDiv_eq x0 x1 x2 x3 x4 x5 x6 x7 x8 x9 x10 x11 x12 x13 x14 x15 x16 x17 x18 x19 x20]
  rfl

/-- The softmax's normaliser. -/
theorem norm_eq (b : Fin 8) (z : Fin 1) :
    val_main_v76 (F := Ideal) x0 x1 x2 x3 x4 x5 x6 x7 x8 x9 x10 x11 x12 (ix2 b z)
      = ∑ n' : Fin 50000, Ideal.exp (scoreDiv (mkParams x1 x2 x3 x4 x5 x6 x7 x8 x9 x10 x11 x12 x13 x14 x15 x16 x17 x18 x19 x20) (instRow x0 b n') - (max negInfW (Finset.univ.fold max negInfW (fun n : Fin 50000 => scoreDiv (mkParams x1 x2 x3 x4 x5 x6 x7 x8 x9 x10 x11 x12 x13 x14 x15 x16 x17 x18 x19 x20) (instRow x0 b n))))) := by
  rw [val_main_v76_apply, val_main_cst_12_apply]
  simp only [idx_v76, expo_eq x0 x1 x2 x3 x4 x5 x6 x7 x8 x9 x10 x11 x12 x13 x14 x15 x16 x17 x18 x19 x20, Ideal.ofBits_def, Ideal.ofBits_zero_f32, zero_add]

/-- An instance's softmax weight. -/
theorem weight_eq (b : Fin 8) (n : Fin 50000) (z : Fin 1) :
    val_main_v79 (F := Ideal) x0 x1 x2 x3 x4 x5 x6 x7 x8 x9 x10 x11 x12 (ix3 b n z)
      = Ideal.div (Ideal.exp (scoreDiv (mkParams x1 x2 x3 x4 x5 x6 x7 x8 x9 x10 x11 x12 x13 x14 x15 x16 x17 x18 x19 x20) (instRow x0 b n) - (max negInfW (Finset.univ.fold max negInfW (fun n : Fin 50000 => scoreDiv (mkParams x1 x2 x3 x4 x5 x6 x7 x8 x9 x10 x11 x12 x13 x14 x15 x16 x17 x18 x19 x20) (instRow x0 b n))))))
          (∑ n' : Fin 50000, Ideal.exp (scoreDiv (mkParams x1 x2 x3 x4 x5 x6 x7 x8 x9 x10 x11 x12 x13 x14 x15 x16 x17 x18 x19 x20) (instRow x0 b n') - (max negInfW (Finset.univ.fold max negInfW (fun n : Fin 50000 => scoreDiv (mkParams x1 x2 x3 x4 x5 x6 x7 x8 x9 x10 x11 x12 x13 x14 x15 x16 x17 x18 x19 x20) (instRow x0 b n)))))) := by
  rw [val_main_v79_apply, val_main_v78_apply, val_main_v77_apply, idx_v78, norm_eq x0 x1 x2 x3 x4 x5 x6 x7 x8 x9 x10 x11 x12 x13 x14 x15 x16 x17 x18 x19 x20, expo_eq x0 x1 x2 x3 x4 x5 x6 x7 x8 x9 x10 x11 x12 x13 x14 x15 x16 x17 x18 x19 x20]
  rfl

/-- The bag vector. -/
theorem bag_eq (b : Fin 8) (q : Fin 128) :
    val_main_v82 (F := Ideal) x0 x1 x2 x3 x4 x5 x6 x7 x8 x9 x10 x11 x12 (ix2 b q) = bagOfPlain (mkParams x1 x2 x3 x4 x5 x6 x7 x8 x9 x10 x11 x12 x13 x14 x15 x16 x17 x18 x19 x20) x0 b q := by
  rw [val_main_v82_apply, val_main_cst_13_apply]
  simp only [idx_v82, val_main_v81_apply, val_main_v80_apply, idx_v80, feat_eq x0 x1 x2 x3 x4 x5 x6 x7 x8 x9 x10 x11 x12 x13 x14 x15 x16 x17 x18 x19 x20, weight_eq x0 x1 x2 x3 x4 x5 x6 x7 x8 x9 x10 x11 x12 x13 x14 x15 x16 x17 x18 x19 x20,
    Ideal.ofBits_def, Ideal.ofBits_zero_f32, zero_add, Ideal.mulf_def]
  unfold bagOfPlain bagPlain
  rfl

end

end Cert.Mil.Ref
-- ==== Proof.MilRef5.lean ====
/-
  The reference's two heads: each is an affine map of the bag vector, a clamp at zero and a second affine
  map; they are the specification's `logitsOf` and `riskOf` of the bag vector.
-/
import proofs.«160597_j5995774345772_2_alg».proof.Proof.MilRef4

open Idealize.ShloMosaic Idealize.ShloMosaic.ValueIdx
open Cert.ReferenceIdeal Cert.ReferenceIdeal.Read
open scoped BigOperators

namespace Cert.Mil.Ref

noncomputable section

variable (x0 : (⟨S8x50000x256, .f32⟩ : BufTy).Contents (Elt Ideal)) (x1 : (⟨S256x128, .f32⟩ : BufTy).Contents (Elt Ideal)) (x2 x3 x4 : (⟨S128, .f32⟩ : BufTy).Contents (Elt Ideal))
  (x5 : (⟨S128x128, .f32⟩ : BufTy).Contents (Elt Ideal)) (x6 x7 x8 : (⟨S128, .f32⟩ : BufTy).Contents (Elt Ideal)) (x9 : (⟨S128x128, .f32⟩ : BufTy).Contents (Elt Ideal)) (x10 : (⟨S128, .f32⟩ : BufTy).Contents (Elt Ideal))
  (x11 : (⟨S128x1, .f32⟩ : BufTy).Contents (Elt Ideal)) (x12 : (⟨S1, .f32⟩ : BufTy).Contents (Elt Ideal)) (x13 : (⟨S128x128, .f32⟩ : BufTy).Contents (Elt Ideal)) (x14 : (⟨S128, .f32⟩ : BufTy).Contents (Elt Ideal))
  (x15 : (⟨S128x2, .f32⟩ : BufTy).Contents (Elt Ideal)) (x16 : (⟨S2, .f32⟩ : BufTy).Contents (Elt Ideal)) (x17 : (⟨S128x64, .f32⟩ : BufTy).Contents (Elt Ideal)) (x18 : (⟨S64, .f32⟩ : BufTy).Contents (Elt Ideal))
  (x19 : (⟨S64x1, .f32⟩ : BufTy).Contents (Elt Ideal)) (x20 : (⟨S1, .f32⟩ : BufTy).Contents (Elt Ideal))

/-! ### Where the heads' operations read their operands -/

theorem lidx_v83 (b : Fin 8) (j : Fin 128) (k : Fin 128) : lidx_main_v83 (ix2 b j) k = ix2 b k := funext fun a => Fin.ext (by match a with | ⟨0, _⟩ => rfl | ⟨1, _⟩ => rfl)
theorem ridx_v83 (b : Fin 8) (j : Fin 128) (k : Fin 128) : ridx_main_v83 (ix2 b j) k = ix2 k j := funext fun a => Fin.ext (by match a with | ⟨0, _⟩ => rfl | ⟨1, _⟩ => rfl)
theorem idx_v85 (b : Fin 8) (j : Fin 128) : idx_main_v84 (idx_main_v85 (ix2 b j)) = ix1 j := funext fun a => Fin.ext (by match a with | ⟨0, _⟩ => rfl)
theorem lidx_v88 (b : Fin 8) (c : Fin 2) (k : Fin 128) : lidx_main_v88 (ix2 b c) k = ix2 b k := funext fun a => Fin.ext (by match a with | ⟨0, _⟩ => rfl | ⟨1, _⟩ => rfl)
theorem ridx_v88 (b : Fin 8) (c : Fin 2) (k : Fin 128) : ridx_main_v88 (ix2 b c) k = ix2 k c := funext fun a => Fin.ext (by match a with | ⟨0, _⟩ => rfl | ⟨1, _⟩ => rfl)
theorem idx_v90 (b : Fin 8) (c : Fin 2) : idx_main_v89 (idx_main_v90 (ix2 b c)) = ix1 c := funext fun a => Fin.ext (by match a with | ⟨0, _⟩ => rfl)
theorem lidx_v92 (b : Fin 8) (j : Fin 64) (k : Fin 128) : lidx_main_v92 (ix2 b j) k = ix2 b k := funext fun a => Fin.ext (by match a with | ⟨0, _⟩ => rfl | ⟨1, _⟩ => rfl)
theorem ridx_v92 (b : Fin 8) (j : Fin 64) (k : Fin 128) : ridx_main_v92 (ix2 b j) k = ix2 k j := funext fun a => Fin.ext (by match a with | ⟨0, _⟩ => rfl | ⟨1, _⟩ => rfl)
theorem idx_v94 (b : Fin 8) (j : Fin 64) : idx_main_v93 (idx_main_v94 (ix2 b j)) = ix1 j := funext fun a => Fin.ext (by match a with | ⟨0, _⟩ => rfl)
theorem lidx_v97 (b : Fin 8) (z : Fin 1) (k : Fin 64) : lidx_main_v97 (ix2 b z) k = ix2 b k := funext fun a => Fin.ext (by match a with | ⟨0, _⟩ => rfl | ⟨1, _⟩ => rfl)
theorem ridx_v97 (b : Fin 8) (k : Fin 64) : ridx_main_v97 (ix2 b (0 : Fin 1)) k = ix2 k (0 : Fin 1) := funext fun a => Fin.ext (by match a with | ⟨0, _⟩ => rfl | ⟨1, _⟩ => rfl)
theorem idx_v99 (b : Fin 8) (z : Fin 1) : idx_main_v98 (idx_main_v99 (ix2 b z)) = ix1 (0 : Fin 1) := funext fun a => Fin.ext (by match a with | ⟨0, _⟩ => rfl)
theorem idx_v101 (b : Fin 8) : idx_main_v101 (ix1 b) = ix2 b (0 : Fin 1) :=
  funext fun a => Fin.ext (by match a with | ⟨0, _⟩ => exact Nat.div_one _ | ⟨1, _⟩ => rfl)

/-! ### The class scores -/

theorem chid_eq (b : Fin 8) (j : Fin 128) :
    val_main_v86 (F := Ideal) x0 x1 x2 x3 x4 x5 x6 x7 x8 x9 x10 x11 x12 x13 x14 (ix2 b j) = affine (mkParams x1 x2 x3 x4 x5 x6 x7 x8 x9 x10 x11 x12 x13 x14 x15 x16 x17 x18 x19 x20).Wc1 (mkParams x1 x2 x3 x4 x5 x6 x7 x8 x9 x10 x11 x12 x13 x14 x15 x16 x17 x18 x19 x20).bc1 (bagOfPlain (mkParams x1 x2 x3 x4 x5 x6 x7 x8 x9 x10 x11 x12 x13 x14 x15 x16 x17 x18 x19 x20) x0 b) j := by
  rw [val_main_v86_apply, val_main_v83_apply, val_main_v85_apply, val_main_v84_apply]
  simp only [lidx_v83, ridx_v83, idx_v85, bag_eq x0 x1 x2 x3 x4 x5 x6 x7 x8 x9 x10 x11 x12 x13 x14 x15 x16 x17 x18 x19 x20]
  rfl

theorem crelu_eq (b : Fin 8) (j : Fin 128) :
    val_main_v87 (F := Ideal) x0 x1 x2 x3 x4 x5 x6 x7 x8 x9 x10 x11 x12 x13 x14 (ix2 b j) = relu (affine (mkParams x1 x2 x3 x4 x5 x6 x7 x8 x9 x10 x11 x12 x13 x14 x15 x16 x17 x18 x19 x20).Wc1 (mkParams x1 x2 x3 x4 x5 x6 x7 x8 x9 x10 x11 x12 x13 x14 x15 x16 x17 x18 x19 x20).bc1 (bagOfPlain (mkParams x1 x2 x3 x4 x5 x6 x7 x8 x9 x10 x11 x12 x13 x14 x15 x16 x17 x18 x19 x20) x0 b) j) := by
  rw [val_main_v87_apply, val_main_call2_v0_apply, val_main_call2_cst_apply, chid_eq x0 x1 x2 x3 x4 x5 x6 x7 x8 x9 x10 x11 x12 x13 x14 x15 x16 x17 x18 x19 x20]
  rfl

theorem logit_eq (b : Fin 8) (c : Fin 2) :
    val_main_v91 (F := Ideal) x0 x1 x2 x3 x4 x5 x6 x7 x8 x9 x10 x11 x12 x13 x14 x15 x16 (ix2 b c) = logitsOf (mkParams x1 x2 x3 x4 x5 x6 x7 x8 x9 x10 x11 x12 x13 x14 x15 x16 x17 x18 x19 x20) (bagOfPlain (mkParams x1 x2 x3 x4 x5 x6 x7 x8 x9 x10 x11 x12 x13 x14 x15 x16 x17 x18 x19 x20) x0 b) c := by
  rw [val_main_v91_apply, val_main_v88_apply, val_main_v90_apply, val_main_v89_apply]
  simp only [lidx_v88, ridx_v88, idx_v90, crelu_eq x0 x1 x2 x3 x4 x5 x6 x7 x8 x9 x10 x11 x12 x13 x14 x15 x16 x17 x18 x19 x20]
  rfl

/-! ### The risk -/

theorem shid_eq (b : Fin 8) (j : Fin 64) :
    val_main_v95 (F := Ideal) x0 x1 x2 x3 x4 x5 x6 x7 x8 x9 x10 x11 x12 x17 x18 (ix2 b j) = affine (mkParams x1 x2 x3 x4 x5 x6 x7 x8 x9 x10 x11 x12 x13 x14 x15 x16 x17 x18 x19 x20).Ws1 (mkParams x1 x2 x3 x4 x5 x6 x7 x8 x9 x10 x11 x12 x13 x14 x15 x16 x17 x18 x19 x20).bs1 (bagOfPlain (mkParams x1 x2 x3 x4 x5 x6 x7 x8 x9 x10 x11 x12 x13 x14 x15 x16 x17 x18 x19 x20) x0 b) j := by
  rw [val_main_v95_apply, val_main_v92_apply, val_main_v94_apply, val_main_v93_apply]
  simp only [lidx_v92, ridx_v92, idx_v94, bag_eq x0 x1 x2 x3 x4 x5 x6 x7 x8 x9 x10 x11 x12 x13 x14 x15 x16 x17 x18 x19 x20]
  rfl

theorem srelu_eq (b : Fin 8) (j : Fin 64) :
    val_main_v96 (F := Ideal) x0 x1 x2 x3 x4 x5 x6 x7 x8 x9 x10 x11 x12 x17 x18 (ix2 b j) = relu (affine (mkParams x1 x2 x3 x4 x5 x6 x7 x8 x9 x10 x11 x12 x13 x14 x15 x16 x17 x18 x19 x20).Ws1 (mkParams x1 x2 x3 x4 x5 x6 x7 x8 x9 x10 x11 x12 x13 x14 x15 x16 x17 x18 x19 x20).bs1 (bagOfPlain (mkParams x1 x2 x3 x4 x5 x6 x7 x8 x9 x10 x11 x12 x13 x14 x15 x16 x17 x18 x19 x20) x0 b) j) := by
  rw [val_main_v96_apply, val_main_call3_v0_apply, val_main_call3_cst_apply, shid_eq x0 x1 x2 x3 x4 x5 x6 x7 x8 x9 x10 x11 x12 x13 x14 x15 x16 x17 x18 x19 x20]
  rfl

theorem risk_col_eq (b : Fin 8) (z : Fin 1) :
    val_main_v100 (F := Ideal) x0 x1 x2 x3 x4 x5 x6 x7 x8 x9 x10 x11 x12 x17 x18 x19 x20 (ix2 b z) = riskOf (mkParams x1 x2 x3 x4 x5 x6 x7 x8 x9 x10 x11 x12 x13 x14 x15 x16 x17 x18 x19 x20) (bagOfPlain (mkParams x1 x2 x3 x4 x5 x6 x7 x8 x9 x10 x11 x12 x13 x14 x15 x16 x17 x18 x19 x20) x0 b) := by
  obtain rfl : z = 0 := Subsingleton.elim _ _
  rw [val_main_v100_apply, val_main_v97_apply, val_main_v99_apply, val_main_v98_apply]
  simp only [lidx_v97, ridx_v97, idx_v99, srelu_eq x0 x1 x2 x3 x4 x5 x6 x7 x8 x9 x10 x11 x12 x13 x14 x15 x16 x17 x18 x19 x20]
  rfl

theorem risk_row_eq (b : Fin 8) :
    val_main_v101 (F := Ideal) x0 x1 x2 x3 x4 x5 x6 x7 x8 x9 x10 x11 x12 x17 x18 x19 x20 (ix1 b) = riskOf (mkParams x1 x2 x3 x4 x5 x6 x7 x8 x9 x10 x11 x12 x13 x14 x15 x16 x17 x18 x19 x20) (bagOfPlain (mkParams x1 x2 x3 x4 x5 x6 x7 x8 x9 x10 x11 x12 x13 x14 x15 x16 x17 x18 x19 x20) x0 b) := by
  rw [val_main_v101_apply, idx_v101, risk_col_eq x0 x1 x2 x3 x4 x5 x6 x7 x8 x9 x10 x11 x12 x13 x14 x15 x16 x17 x18 x19 x20]

end

end Cert.Mil.Ref
-- ==== Proof.MilRef.lean ====
/-
  The reference's two results are the specification's plain arrangement: the class scores `logitsPlain`
  and the risks `riskPlain` of the twenty weight arrays and the input array.
-/
import proofs.«160597_j5995774345772_2_alg».proof.Proof.MilRef5

open Idealize.ShloMosaic Idealize.ShloMosaic.ValueIdx Idealize.ShloMosaic.TcCoe Idealize.SL.Sem
open Cert.ReferenceIdeal Cert.ReferenceIdeal.Read
open scoped BigOperators

namespace Cert.Mil.Ref

noncomputable section

/-- The class scores `[8,2]` the reference ends with. -/
theorem logits_eq (m : (ℓ : Loc nD τ sig) → Buf (Elt Ideal) ℓ) (c : Dev nD) :
    Cert.ReferenceIdeal.Value.res_main_v91 (F := Ideal) m c
      = logitsPlain (mkParams
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
        (m ((c.tc : Thread nD τ).loc main_arg14))
        (m ((c.tc : Thread nD τ).loc main_arg15))
        (m ((c.tc : Thread nD τ).loc main_arg16))
        (m ((c.tc : Thread nD τ).loc main_arg17))
        (m ((c.tc : Thread nD τ).loc main_arg18))
        (m ((c.tc : Thread nD τ).loc main_arg19))
        (m ((c.tc : Thread nD τ).loc main_arg20)))
        (m ((c.tc : Thread nD τ).loc main_arg0)) := by
  rw [val_main_v91_eq]
  funext i
  obtain ⟨b, c', rfl⟩ : ∃ (b : Fin 8) (c' : Fin 2), i = ix2 b c' := ⟨i 0, i 1, eq_ix2 i⟩
  exact logit_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) b c'

/-- The risks `[8]` the reference ends with. -/
theorem risk_eq (m : (ℓ : Loc nD τ sig) → Buf (Elt Ideal) ℓ) (c : Dev nD) :
    Cert.ReferenceIdeal.Value.res_main_v101 (F := Ideal) m c
      = riskPlain (mkParams
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
        (m ((c.tc : Thread nD τ).loc main_arg14))
        (m ((c.tc : Thread nD τ).loc main_arg15))
        (m ((c.tc : Thread nD τ).loc main_arg16))
        (m ((c.tc : Thread nD τ).loc main_arg17))
        (m ((c.tc : Thread nD τ).loc main_arg18))
        (m ((c.tc : Thread nD τ).loc main_arg19))
        (m ((c.tc : Thread nD τ).loc main_arg20)))
        (m ((c.tc : Thread nD τ).loc main_arg0)) := by
  rw [val_main_v101_eq]
  funext i
  obtain ⟨b, rfl⟩ : ∃ (b : Fin 8), i = ix1 b := ⟨i 0, eq_ix1 i⟩
  exact risk_row_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) b

end

end Cert.Mil.Ref
-- ==== Proof.MilSoftmax.lean ====
/-
  Two facts about the attention pooling, over the extended reals.

  * The temperature.  The word of the temperature denotes the real 5033165 / 2^24, which is not zero, so
    dividing any extended real by it is multiplying by its reciprocal 2^24 / 5033165.

  * The pooling.  Ten consecutive blocks of 5000 instances, folded into a running maximum, a running
    normaliser and a running weighted sum, give the softmax-weighted sum over all 50000 instances once
    every score and every feature is a real number.  The online recurrence is already known to produce the
    softmax over the pairs (block, row in block); what is left is to renumber those pairs as the 50000
    instances, instance 5000 j + k being row k of block j, in the maximum and in both sums, and to
    note that a maximum started at minus infinity does not change when compared with minus infinity again.
-/
import proofs.«160597_j5995774345772_2_alg».proof.Proof.MilSpec

open Idealize.ShloMosaic
open scoped BigOperators

namespace Cert.Mil

noncomputable section

/-! ### The two words -/

/-- The temperature's word: exponent field 125 and significand 2^23 + 1677722 = 10066330, that is
    10066330 · 2^(125 − 150) = 5033165 / 2^24. -/
theorem tauW_eq : tauW = ((5033165 / 16777216 : ℝ) : EReal) := by
  unfold tauW
  simp [Ideal.ofBits, Ideal.ieee, -EReal.coe_mul]
  norm_num

/-- The word with the sign bit set, all exponent bits set and no fraction bit set is minus infinity. -/
theorem negInfW_eq : negInfW = ⊥ := by
  unfold negInfW
  simp [Ideal.ofBits, Ideal.ieee]

/-! ### The temperature -/

/-- Dividing by the temperature's word is multiplying by its exact reciprocal, for every extended real
    numerator, the infinities included. -/
theorem scoreDiv_eq_scoreMul (P : Params) (xr : Fin 256 → EReal) : scoreDiv P xr = scoreMul P xr := by
  unfold scoreDiv scoreMul invTau
  rw [tauW_eq, Ideal.div_coe (by norm_num)]
  congr 2
  norm_num

/-! ### Renumbering the pairs (block, row) as instances -/

/-- The pair (block j, row k) is instance 5000 j + k: a bijection of the 10 × 5000 pairs with the
    50000 instances. -/
def blockEquiv : Fin 10 × Fin 5000 ≃ Fin 50000 :=
  finProdFinEquiv.trans (finCongr (by norm_num))

theorem blockEquiv_apply (jk : Fin 10 × Fin 5000) : blockEquiv jk = blockRow jk.1 jk.2 := by
  apply Fin.ext
  have h1 := jk.1.isLt
  have h2 := jk.2.isLt
  simp only [blockEquiv, blockRow, Equiv.trans_apply, finCongr_apply, Fin.coe_cast,
    finProdFinEquiv_apply_val]
  omega

/-- A sum over the pairs (block, row) of a function of the instance is the sum over the instances. -/
theorem sum_blockRow (F : Fin 50000 → EReal) :
    ∑ jk : Fin 10 × Fin 5000, F (blockRow jk.1 jk.2) = ∑ n, F n :=
  Fintype.sum_equiv blockEquiv _ _ (fun jk => by rw [blockEquiv_apply])

/-- The maximum over the pairs (block, row) of a function of the instance is the maximum over the
    instances. -/
theorem fold_max_blockRow (s : Fin 50000 → EReal) :
    Finset.univ.fold max ⊥ (fun jk : Fin 10 × Fin 5000 => s (blockRow jk.1 jk.2))
      = Finset.univ.fold max ⊥ s := by
  rw [← Finset.map_univ_equiv blockEquiv, Finset.fold_map]
  congr 1
  funext jk
  simp only [Function.comp_apply, Equiv.coe_toEmbedding, blockEquiv_apply]

/-! ### The pooling -/

/-- The blocked pooling is the plain pooling, for real scores and real features. -/
theorem bagBlocked_eq_bagPlain (s : Fin 50000 → EReal) (H : Fin 50000 → Fin 128 → EReal)
    (hs : ∀ n, ∃ r : ℝ, s n = (r : EReal)) (hH : ∀ n d, ∃ r : ℝ, H n d = (r : EReal)) :
    bagBlocked s H = bagPlain s H := by
  funext q
  unfold bagBlocked blockedState bagPlain
  rw [OnlineSoftmax.after_div_eq 10 (by norm_num) _ _ (fun j _ k => hs _) (fun j _ k d => hH _ _) q,
    negInfW_eq, max_bot_left]
  have hM := fold_max_blockRow s
  have hL := sum_blockRow (fun n => Ideal.exp (s n - Finset.univ.fold max ⊥ s))
  calc _ = ∑ jk : Fin 10 × Fin 5000,
            Ideal.div (Ideal.exp (s (blockRow jk.1 jk.2) - Finset.univ.fold max ⊥ s))
              (∑ n, Ideal.exp (s n - Finset.univ.fold max ⊥ s)) * H (blockRow jk.1 jk.2) q := by
        simp only [hM, hL]
    _ = ∑ n, Ideal.div (Ideal.exp (s n - Finset.univ.fold max ⊥ s))
          (∑ n', Ideal.exp (s n' - Finset.univ.fold max ⊥ s)) * H n q :=
        sum_blockRow (fun n => Ideal.div (Ideal.exp (s n - Finset.univ.fold max ⊥ s))
          (∑ n', Ideal.exp (s n' - Finset.univ.fold max ⊥ s)) * H n q)
    _ = _ := Finset.sum_congr rfl (fun n _ => mul_comm _ _)

end

end Cert.Mil
-- ==== Proof.LibRealEntries.lean ====
/-
  Reusable lemmas: arrays over the extended reals all of whose entries are real numbers.

  An extended real is either a real number or one of the two infinities.  Sums and products of real numbers are real,
  the cosine and the sine of a real number are real, a quotient of a real number by a non-zero real number is real,
  and the 32-bit float patterns whose exponent field is not all ones denote real numbers.  The operations that only
  re-index an array (a broadcast along named axes, a reshape, a transpose, a concatenation) read each result entry
  from an operand entry, so they carry "every entry is real" from the operands to the result; so do the entrywise
  product, negation, cosine, sine and quotient, and a matrix product (a finite sum of products).

  The last part is the one algebraic law the file is for: for matrices with real entries the product is associative,
  entry by entry, as an identity between extended reals — (A·B)·C = A·(B·C).  Over the extended reals this needs the
  entries to be real: with infinities a product does not distribute over a sum.
-/
import Idealize.ShloMosaic.PureOps.Ideal.Laws
import Idealize.ShloMosaic.Lib.ValueIdx

noncomputable section

namespace Cert.RealEntries

open Idealize.ShloMosaic Idealize.ShloMosaic.ValueIdx

/-! ## Real numbers among the extended reals -/

/-- The extended real is a real number. -/
def IsR (x : EReal) : Prop := ∃ r : ℝ, x = (r : EReal)

theorem IsR.coe (r : ℝ) : IsR (r : EReal) := ⟨r, rfl⟩

theorem IsR.zero : IsR 0 := ⟨0, rfl⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.neg {x : EReal} (hx : IsR x) : IsR (-x) := by
  obtain ⟨a, rfl⟩ := hx; exact ⟨-a, (EReal.coe_neg a).symm⟩

theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

theorem IsR.cos {x : EReal} (hx : IsR x) : IsR (Ideal.cos x) := by
  obtain ⟨a, rfl⟩ := hx; exact ⟨Real.cos a, rfl⟩

theorem IsR.sin {x : EReal} (hx : IsR x) : IsR (Ideal.sin x) := by
  obtain ⟨a, rfl⟩ := hx; exact ⟨Real.sin a, rfl⟩

/-- A real number divided by a non-zero real number. -/
theorem IsR.div {x y : EReal} (hx : IsR x) {b : ℝ} (hy : y = (b : EReal)) (hb : b ≠ 0) : IsR (Ideal.div x y) := by
  subst hy
  rw [Ideal.div_coe hb]
  exact hx.mul (IsR.coe _)

/-- A 32-bit float pattern whose exponent field is not all ones denotes a real number. -/
theorem isR_ofBits_f32 (w : BitVec 32) (h : (w.extractLsb' 23 8).toNat ≠ 255) : IsR (Ideal.ofBits .f32 w) := by
  show IsR (Ideal.ieee 8 23 w)
  unfold Ideal.ieee
  dsimp only
  rw [if_neg (by norm_num; exact h)]
  split_ifs <;> exact ⟨_, rfl⟩

/-- The pattern of 2.0 denotes the real number 2. -/
theorem ofBits_two : Ideal.ofBits .f32 0x40000000#32 = ((2 : ℝ) : EReal) := by
  simp [Ideal.ofBits, Ideal.ieee, -EReal.coe_mul]; norm_num

/-! ## Arrays of real numbers -/

variable {s t : Shape} {φ : FTy}

/-- Every entry of the array is a real number. -/
def AllReal (x : FVec Ideal s φ) : Prop := ∀ i, IsR (x i)

/-- A broadcast along named axes reads every entry from the operand. -/
theorem AllReal.of_broadcastInDim {x : FVec Ideal s φ} (hx : AllReal x) (dims : Fin s.rank → Fin t.rank)
    (h : s.BroadcastsInDim t dims) : AllReal (φ := φ) (broadcastInDim t dims h x) := by
  intro j; unfold Idealize.ShloMosaic.broadcastInDim; exact hx _

/-- A reshape reads every entry from the operand. -/
theorem AllReal.of_shapeCast {x : FVec Ideal s φ} (hx : AllReal x) (h : s.ShapeCasts t) :
    AllReal (φ := φ) (shapeCast t x h) := by
  intro j; unfold Idealize.ShloMosaic.shapeCast; exact hx _

/-- A transpose reads every entry from the operand. -/
theorem AllReal.of_transpose {x : FVec Ideal s φ} (hx : AllReal x) (perm : List (Fin s.rank)) (h : s.Transposes perm t) :
    AllReal (φ := φ) (transpose t perm x h) := by
  intro j; unfold Idealize.ShloMosaic.transpose; exact hx _

/-- A concatenation reads every entry from one of the pieces. -/
theorem AllReal.of_concatenate (a : Fin t.rank) (xs : List ((s : Shape) × (s.Idx → EReal)))
    (h : Shape.Concatenates (xs.map (·.1)) t a) (hxs : ∀ p ∈ xs, ∀ i, IsR (p.2 i)) :
    AllReal (φ := φ) (concatenate t a xs h) := by
  intro j; unfold Idealize.ShloMosaic.concatenate; dsimp only
  exact hxs _ (List.getElem_mem _) _

/-- A concatenation of two pieces. -/
theorem AllReal.of_concatenate₂ {s₁ s₂ : Shape} (a : Fin t.rank) {x : FVec Ideal s₁ φ} {y : FVec Ideal s₂ φ}
    (hx : AllReal x) (hy : AllReal y) (h : Shape.Concatenates [s₁, s₂] t a) :
    AllReal (φ := φ) (concatenate t a [⟨s₁, x⟩, ⟨s₂, y⟩] h) :=
  AllReal.of_concatenate a [⟨s₁, x⟩, ⟨s₂, y⟩] h fun p hp => by
    simp only [List.mem_cons, List.not_mem_nil, or_false] at hp
    rcases hp with rfl | rfl
    · exact hx
    · exact hy

/-- The entrywise product. -/
theorem AllReal.of_mulf {x y : FVec Ideal s φ} (hx : AllReal x) (hy : AllReal y) : AllReal (mulf x y) :=
  fun i => (hx i).mul (hy i)

/-- The entrywise negation on the host. -/
theorem AllReal.of_hostNegf {x : FVec Ideal s φ} (hx : AllReal x) : AllReal (Host.negf x) :=
  fun i => (hx i).neg

/-- The entrywise cosine on the host. -/
theorem AllReal.of_hostCos {x : FVec Ideal s φ} (hx : AllReal x) : AllReal (Host.cos x) :=
  fun i => (hx i).cos

/-- The entrywise sine on the host. -/
theorem AllReal.of_hostSin {x : FVec Ideal s φ} (hx : AllReal x) : AllReal (Host.sin x) :=
  fun i => (hx i).sin

/-- The entrywise quotient on the host by the splat of the float 2.0. -/
theorem AllReal.of_hostDivTwo {x : FVec Ideal s .f32} (hx : AllReal x) :
    AllReal (Host.divf x (constant (F := Ideal) s .f32 0x40000000#32)) :=
  fun i => (hx i).div ofBits_two (by norm_num)

/-- A table of 32-bit float patterns none of whose exponent fields is all ones. -/
theorem AllReal.ofTable (f : s.Idx → BitVec 32) (h : ∀ i, ((f i).extractLsb' 23 8).toNat ≠ 255) :
    AllReal (φ := .f32) (fun i => (FloatOps.ofBits (F := Ideal) .f32 (f i) : Ideal .f32)) :=
  fun i => isR_ofBits_f32 _ (h i)

/-! ## Matrices of real numbers -/

variable {M K N L : Nat}

/-- A matrix product of two matrices of real numbers, read at each entry as the sum over the inner index, has real
    entries. -/
theorem allReal_of_sum {x : FVec Ideal ⟨2, ![M, N]⟩ φ} (a : Fin M → Fin K → EReal) (b : Fin K → Fin N → EReal)
    (ha : ∀ p k, IsR (a p k)) (hb : ∀ k q, IsR (b k q))
    (hx : ∀ p q, x (ix2 p q) = ∑ k : Fin K, a p k * b k q) : AllReal x := by
  intro j
  obtain ⟨p, q, rfl⟩ : ∃ (p : Fin M) (q : Fin N), j = ix2 p q := ⟨j 0, j 1, eq_ix2 j⟩
  rw [hx]
  exact IsR.sum _ _ fun k _ => (ha _ k).mul (hb k _)

/-- The coercion from the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- ASSOCIATIVITY of the product of matrices of real numbers, entry by entry, over the extended reals:
    Σ_j (Σ_i A[p,i]·B[i,j])·C[j,q] = Σ_i A[p,i]·(Σ_j B[i,j]·C[j,q]). -/
theorem matmul_assoc (A : Fin M → Fin K → EReal) (B : Fin K → Fin L → EReal) (C : Fin L → Fin N → EReal)
    (hA : ∀ p i, IsR (A p i)) (hB : ∀ i j, IsR (B i j)) (hC : ∀ j q, IsR (C j q)) (p : Fin M) (q : Fin N) :
    ∑ j : Fin L, (∑ i : Fin K, A p i * B i j) * C j q = ∑ i : Fin K, A p i * ∑ j : Fin L, B i j * C j q := by
  choose a ha using hA
  choose b hb using hB
  choose c hc using hC
  simp only [ha, hb, hc, ← EReal.coe_mul, ← coe_sum]
  rw [EReal.coe_eq_coe_iff]
  simp only [Finset.sum_mul, Finset.mul_sum]
  rw [Finset.sum_comm]
  exact Finset.sum_congr rfl fun i _ => Finset.sum_congr rfl fun j _ => mul_assoc _ _ _

end Cert.RealEntries

end
-- ==== Proof.LibRealBounds.lean ====
/-
  Real numbers inside the extended reals: facts a quantisation kernel's algebra needs.

  An extended real that is neither infinity is a real number, so anything squeezed between two real numbers is one; the
  maximum of two real numbers is one; a value clamped into [lo, hi] with real ends is one whatever was clamped; a running
  maximum from the bottom element over a non-empty family of real numbers is one. And for real numbers a sum of products
  times a product of two factors distributes: (Σ aₖ·cₖ)·(S·T) = Σ (aₖ·S)·(cₖ·T) — the step that moves two scales out of (or
  into) a contraction, false at the infinities.
-/
import proofs.«160597_j5995774345772_2_alg».proof.Proof.LibRealEntries

noncomputable section

namespace Cert.RealBounds

open Cert.RealEntries

/-- Neither infinity: a real number. -/
theorem isR_of_ne {z : EReal} (h1 : z ≠ ⊥) (h2 : z ≠ ⊤) : IsR z := by
  induction z using EReal.rec with
  | bot => exact absurd rfl h1
  | coe r => exact ⟨r, rfl⟩
  | top => exact absurd rfl h2

theorem isR_ne_bot {z : EReal} (h : IsR z) : z ≠ ⊥ := by obtain ⟨r, rfl⟩ := h; exact EReal.coe_ne_bot r
theorem isR_ne_top {z : EReal} (h : IsR z) : z ≠ ⊤ := by obtain ⟨r, rfl⟩ := h; exact EReal.coe_ne_top r

/-- Between two real numbers: a real number. -/
theorem isR_of_between {lo hi z : EReal} (hlo : IsR lo) (hhi : IsR hi) (h1 : lo ≤ z) (h2 : z ≤ hi) : IsR z :=
  isR_of_ne (fun e => isR_ne_bot hlo (le_bot_iff.mp (e ▸ h1))) (fun e => isR_ne_top hhi (top_le_iff.mp (e ▸ h2)))

theorem isR_max {x y : EReal} (hx : IsR x) (hy : IsR y) : IsR (max x y) := by
  rcases le_total x y with h | h
  · rw [max_eq_right h]; exact hy
  · rw [max_eq_left h]; exact hx

/-- A clamp with real ends is a real number, whatever is clamped (an infinity too). -/
theorem isR_clamp {lo hi : EReal} (hlo : IsR lo) (hhi : IsR hi) (y : EReal) : IsR (min hi (max lo y)) := by
  rcases le_total hi (max lo y) with h | h
  · rw [min_eq_left h]; exact hhi
  · rw [min_eq_right h]; exact isR_of_between hlo hhi (le_max_left _ _) h

/-- A running maximum from the bottom element over a non-empty family of real numbers is a real number. -/
theorem isR_foldMax {n : ℕ} (hn : 0 < n) (g : Fin n → EReal) (hg : ∀ k, IsR (g k)) :
    IsR ((Finset.univ : Finset (Fin n)).fold max ⊥ g) := by
  have hlo : g ⟨0, hn⟩ ≤ (Finset.univ : Finset (Fin n)).fold max ⊥ g :=
    (Finset.le_fold_max _).mpr (Or.inr ⟨_, Finset.mem_univ _, le_rfl⟩)
  refine isR_of_ne (fun e => isR_ne_bot (hg ⟨0, hn⟩) (le_bot_iff.mp (e ▸ hlo))) (ne_of_lt ?_)
  exact (Finset.fold_max_lt _).mpr ⟨bot_lt_top, fun k _ => lt_top_iff_ne_top.mpr (isR_ne_top (hg k))⟩

/-- Distributivity over real numbers: a sum of products times a product of two factors. -/
theorem sum_mul_scales {n : ℕ} (a c : Fin n → EReal) (S T : EReal) (ha : ∀ k, IsR (a k)) (hc : ∀ k, IsR (c k))
    (hS : IsR S) (hT : IsR T) : (∑ k, a k * c k) * (S * T) = ∑ k, (a k * S) * (c k * T) := by
  obtain ⟨S', rfl⟩ := hS
  obtain ⟨T', rfl⟩ := hT
  choose a' ha' using ha
  choose c' hc' using hc
  obtain rfl : a = fun k => ((a' k : ℝ) : EReal) := funext ha'
  obtain rfl : c = fun k => ((c' k : ℝ) : EReal) := funext hc'
  simp only [← EReal.coe_mul, ← coe_sum]
  congr 1
  rw [Finset.sum_mul]
  exact Finset.sum_congr rfl fun k _ => by ring

end Cert.RealBounds

end
-- ==== Proof.MilReal.lean ====
/-
  Every feature and every score of an instance is a real number when the instance and the weights are.

  Over the extended reals a sum or a product of real numbers is a real number, so an affine map of a real
  vector by real weights is real.  The mean divides by the word of 128, a non-zero real number, so it is
  real; the variance is a sum of squares of real numbers divided by 128, a real number that is not
  negative; the variance offset is the word of a positive real number, 10995116 · 2^(-40); so the
  argument of the reciprocal square root is a positive real number, where that function is the real
  (√r)⁻¹.  The clamp at zero is a maximum of two real numbers and the hyperbolic tangent of a real number
  is real.  The reciprocal of the temperature is a real number by definition.
-/
import proofs.«160597_j5995774345772_2_alg».proof.Proof.MilSpec
import proofs.«160597_j5995774345772_2_alg».proof.Proof.LibRealBounds

open Idealize.ShloMosaic
open Cert.RealEntries Cert.RealBounds
open scoped BigOperators

namespace Cert.Mil

noncomputable section

/-- the twelve weight families the features and the score read are real numbers -/
structure RealParams (P : Params) : Prop where
  W1 : ∀ k q, ∃ r : ℝ, P.W1 k q = (r : EReal)
  b1 : ∀ q, ∃ r : ℝ, P.b1 q = (r : EReal)
  g1 : ∀ q, ∃ r : ℝ, P.g1 q = (r : EReal)
  be1 : ∀ q, ∃ r : ℝ, P.be1 q = (r : EReal)
  W2 : ∀ k q, ∃ r : ℝ, P.W2 k q = (r : EReal)
  b2 : ∀ q, ∃ r : ℝ, P.b2 q = (r : EReal)
  g2 : ∀ q, ∃ r : ℝ, P.g2 q = (r : EReal)
  be2 : ∀ q, ∃ r : ℝ, P.be2 q = (r : EReal)
  Wa1 : ∀ k q, ∃ r : ℝ, P.Wa1 k q = (r : EReal)
  ba1 : ∀ q, ∃ r : ℝ, P.ba1 q = (r : EReal)
  Wa2 : ∀ k, ∃ r : ℝ, P.Wa2 k = (r : EReal)
  ba2 : ∃ r : ℝ, P.ba2 = (r : EReal)

/-! ## The three words -/

/-- The word of 0 denotes 0. -/
theorem zeroW_eq : zeroW = 0 := Ideal.ofBits_zero_f32

/-- The word of 128 denotes the real number 128. -/
theorem c128W_eq : c128W = ((128 : ℝ) : EReal) := by
  unfold c128W
  simp [Ideal.ofBits, Ideal.ieee, -EReal.coe_mul]; norm_num

/-- The word of the variance offset denotes a positive real number: significand 10995116, exponent
    field 110, so 10995116 · 2^(110 − 150). -/
theorem epsW_pos : ∃ e : ℝ, 0 < e ∧ epsW = (e : EReal) := by
  refine ⟨10995116 * (2 : ℝ) ^ (-40 : ℤ), by positivity, ?_⟩
  unfold epsW
  simp [Ideal.ofBits, Ideal.ieee, -EReal.coe_mul]

/-! ## Closure of the real numbers under the network's operations -/

theorem isR_sub {x y : EReal} (hx : IsR x) (hy : IsR y) : IsR (x - y) := by
  rw [sub_eq_add_neg]; exact hx.add hy.neg

theorem isR_sumUniv {n : ℕ} (f : Fin n → EReal) (h : ∀ i, IsR (f i)) : IsR (∑ i, f i) :=
  IsR.sum _ _ fun i _ => h i

/-- An affine map of a real vector by real weights. -/
theorem isR_affine {K N : ℕ} (W : Fin K → Fin N → EReal) (b : Fin N → EReal) (v : Fin K → EReal)
    (hW : ∀ k q, IsR (W k q)) (hb : ∀ q, IsR (b q)) (hv : ∀ k, IsR (v k)) (q : Fin N) :
    IsR (affine W b v q) :=
  (isR_sumUniv _ fun k => (hv k).mul (hW k q)).add (hb q)

/-- The mean of 128 real numbers. -/
theorem isR_mean (h : Fin 128 → EReal) (hh : ∀ j, IsR (h j)) : IsR (mean h) :=
  (isR_sumUniv _ hh).div c128W_eq (by norm_num)

/-- The mean of the squares of 128 real numbers is a real number that is not negative. -/
theorem var_nonneg (d : Fin 128 → EReal) (hd : ∀ j, IsR (d j)) :
    ∃ v : ℝ, 0 ≤ v ∧ Ideal.div (∑ j, d j * d j) c128W = (v : EReal) := by
  choose r hr using hd
  obtain rfl : d = fun j => ((r j : ℝ) : EReal) := funext hr
  refine ⟨(∑ j, r j * r j) * (1 / 128), ?_, ?_⟩
  · exact mul_nonneg (Finset.sum_nonneg fun j _ => mul_self_nonneg _) (by norm_num)
  · rw [c128W_eq, Ideal.div_coe (by norm_num)]
    simp only [← EReal.coe_mul, ← coe_sum]

/-- The reciprocal square root of a positive real number. -/
theorem isR_rsqrt_pos {r : ℝ} (h : 0 < r) : IsR (Ideal.rsqrt (r : EReal)) := by
  rw [Ideal.rsqrt_coe, if_neg (not_lt.mpr h.le), if_neg h.ne']
  exact ⟨_, rfl⟩

/-- Layer normalisation of 128 real numbers with real gain and offset. -/
theorem isR_lnorm (g be h : Fin 128 → EReal) (hg : ∀ q, IsR (g q)) (hbe : ∀ q, IsR (be q))
    (hh : ∀ q, IsR (h q)) (q : Fin 128) : IsR (lnorm g be h q) := by
  have hd : ∀ j, IsR (h j - mean h) := fun j => isR_sub (hh j) (isR_mean h hh)
  obtain ⟨v, hv0, hv⟩ := var_nonneg (fun j => h j - mean h) hd
  obtain ⟨e, he0, he⟩ := epsW_pos
  have hrs : IsR (Ideal.rsqrt (Ideal.div (∑ j, (h j - mean h) * (h j - mean h)) c128W + epsW)) := by
    rw [hv, he, ← EReal.coe_add]
    exact isR_rsqrt_pos (add_pos_of_nonneg_of_pos hv0 he0)
  unfold lnorm
  exact (((hd q).mul hrs).mul (hg q)).add (hbe q)

/-- The clamp at zero of a real number. -/
theorem isR_relu {v : EReal} (hv : IsR v) : IsR (relu v) :=
  isR_max hv (zeroW_eq ▸ IsR.zero)

/-- The hyperbolic tangent of a real number. -/
theorem isR_tanh {v : EReal} (hv : IsR v) : IsR (Ideal.tanh v) := by
  obtain ⟨r, rfl⟩ := hv; exact ⟨Real.tanh r, rfl⟩

/-! ## The features and the score -/

theorem hidden1_real (P : Params) (hP : RealParams P) (xr : Fin 256 → EReal)
    (hx : ∀ k, ∃ r : ℝ, xr k = (r : EReal)) (q : Fin 128) : ∃ r : ℝ, hidden1 P xr q = (r : EReal) :=
  isR_relu (isR_lnorm _ _ _ hP.g1 hP.be1 (isR_affine _ _ _ hP.W1 hP.b1 hx) q)

theorem feat_real (P : Params) (hP : RealParams P) (xr : Fin 256 → EReal)
    (hx : ∀ k, ∃ r : ℝ, xr k = (r : EReal)) (q : Fin 128) : ∃ r : ℝ, feat P xr q = (r : EReal) :=
  isR_relu (isR_lnorm _ _ _ hP.g2 hP.be2 (isR_affine _ _ _ hP.W2 hP.b2 (hidden1_real P hP xr hx)) q)

theorem rawScore_real (P : Params) (hP : RealParams P) (xr : Fin 256 → EReal)
    (hx : ∀ k, ∃ r : ℝ, xr k = (r : EReal)) : ∃ r : ℝ, rawScore P xr = (r : EReal) :=
  IsR.add (isR_sumUniv _ fun k =>
    (isR_tanh (isR_affine _ _ _ hP.Wa1 hP.ba1 (feat_real P hP xr hx) k)).mul (hP.Wa2 k)) hP.ba2

theorem scoreMul_real (P : Params) (hP : RealParams P) (xr : Fin 256 → EReal)
    (hx : ∀ k, ∃ r : ℝ, xr k = (r : EReal)) : ∃ r : ℝ, scoreMul P xr = (r : EReal) :=
  IsR.mul (rawScore_real P hP xr hx) (IsR.coe _)

end

end Cert.Mil
-- ==== Proof.MilBridge.lean ====
/-
  The two arrangements of the network give the same class scores and the same risks on real inputs.

  The score as a quotient by the temperature's word equals the score as a product with its exact
  reciprocal; with real weights and a real instance array every score and every feature is a real number,
  and for real scores and features the bag vector folded block by block equals the bag vector of the plain
  softmax.  So each bag's vector is the same in both arrangements, and the two heads read the same values
  off it.
-/
import proofs.«160597_j5995774345772_2_alg».proof.Proof.MilSoftmax
import proofs.«160597_j5995774345772_2_alg».proof.Proof.MilReal

open Idealize.ShloMosaic Idealize.ShloMosaic.ValueIdx
open scoped BigOperators

namespace Cert.Mil

/-- Every entry of an instance row of a real array is real. -/
theorem instRow_real (x : (⟨3, ![8, 50000, 256]⟩ : Shape).Idx → EReal) (hx : ∀ i, ∃ r : ℝ, x i = (r : EReal))
    (b : Fin 8) (n : Fin 50000) (k : Fin 256) : ∃ r : ℝ, instRow x b n k = (r : EReal) :=
  hx (ix3 b n k)

/-- The bag vector of a bag is the same in both arrangements. -/
theorem bagOfBlocked_eq_bagOfPlain (P : Params) (x : (⟨3, ![8, 50000, 256]⟩ : Shape).Idx → EReal)
    (hP : RealParams P) (hx : ∀ i, ∃ r : ℝ, x i = (r : EReal)) (b : Fin 8) :
    bagOfBlocked P x b = bagOfPlain P x b := by
  unfold bagOfBlocked bagOfPlain
  rw [show (fun n => scoreDiv P (instRow x b n)) = fun n => scoreMul P (instRow x b n) from
    funext fun n => scoreDiv_eq_scoreMul P (instRow x b n)]
  exact bagBlocked_eq_bagPlain _ _
    (fun n => scoreMul_real P hP (instRow x b n) (instRow_real x hx b n))
    (fun n d => feat_real P hP (instRow x b n) (instRow_real x hx b n) d)

theorem blocked_eq_plain (P : Params) (x : (⟨3, ![8, 50000, 256]⟩ : Shape).Idx → EReal) (hP : RealParams P)
    (hx : ∀ i, ∃ r : ℝ, x i = (r : EReal)) :
    logitsBlocked P x = logitsPlain P x ∧ riskBlocked P x = riskPlain P x := by
  constructor
  · funext i
    exact congrArg (fun bag => logitsOf P bag (i 1)) (bagOfBlocked_eq_bagOfPlain P x hP hx (i 0))
  · funext i
    exact congrArg (fun bag => riskOf P bag) (bagOfBlocked_eq_bagOfPlain P x hP hx (i 0))

end Cert.Mil
-- ==== Proof.LibFiniteInputs.lean ====
/-
  A reusable lemma: what the precondition "every entry is finite" says over the extended reals.

  The precondition is written as all(|x| < +∞): the entrywise absolute value compared, by the ordered "less than", with
  the splat of the float pattern of +∞, and the comparisons reduced by "and" over every axis from the constant true.
  Over the extended reals the pattern of +∞ denotes ⊤, the absolute value of x is max x (−x), and max x (−x) < ⊤ holds
  exactly when x is neither ⊤ nor ⊥: so the reduction being true says that every entry is a real number.
-/
import proofs.«160597_j5995774345772_2_alg».proof.Proof.LibRealEntries
import Idealize.ShloMosaic.Lib.ReduceAll

noncomputable section

namespace Cert.RealEntries

open Idealize.ShloMosaic

/-- The float pattern of +∞ denotes ⊤. -/
theorem ofBits_inf : Ideal.ofBits .f32 0x7F800000#32 = ⊤ := by
  simp [Ideal.ofBits, Ideal.ieee]

/-- |x| < ⊤ says that x is a real number. -/
theorem isR_of_abs_lt_top (x : EReal) (h : Ideal.cmp .olt (max x (-x)) ⊤ = 1#1) : IsR x := by
  have h' : max x (-x) < ⊤ := by
    have h1 : Ideal.cmp .olt (max x (-x)) ⊤ = BitVec.ofBool (decide (max x (-x) < ⊤)) := rfl
    rw [h1] at h
    by_contra hn
    rw [decide_eq_false hn] at h
    exact absurd h (by decide)
  induction x using EReal.rec with
  | bot => simp at h'
  | coe r => exact ⟨r, rfl⟩
  | top => simp at h'

/-- all(|x| < +∞) reduced over every axis is true: every entry of x is a real number. -/
theorem allReal_of_all_finite {s t u : Shape} {axes : List (Fin s.rank)} [Subsingleton t.Idx] (x : FVec Ideal s .f32)
    (hb : (⟨0, ![]⟩ : Shape).BroadcastsInDim s (![] : Fin 0 → Fin s.rank)) (init : u.Idx → BitVec 1)
    (h : s.ReducesTo axes t) (hu : 0 < u.numel) (j : t.Idx)
    (e : Host.reduce IntOp.andi
        (cmpf .olt (Host.absf x) (broadcastInDim s ![] hb (constant (F := Ideal) ⟨0, ![]⟩ .f32 0x7F800000#32))) init h hu j = 1#1) :
    AllReal x := fun i => by
  have hi := Host.reduce_andi_all _ init h hu j e i
  refine isR_of_abs_lt_top (x i) ?_
  rw [← ofBits_inf]
  exact hi

end Cert.RealEntries

end
-- ==== Proof.MilPre.lean ====
/-
  The precondition decoded: every argument array holds real numbers only.

  The precondition is a conjunction, one conjunct per argument array, each of the form all(|a| < +∞): the
  entrywise absolute value compared with the splat of the word of +∞ and the comparisons reduced by "and"
  over every axis.  The conjunction being true makes every conjunct true, and a conjunct being true says
  that no entry of its array is an infinity, that is, every entry is a real number.  Read at the
  coordinates the weights are read at, this gives that the instance array and the twelve weight families
  the features and the score read are real.
-/
import proofs.«160597_j5995774345772_2_alg».proof.Defs
import proofs.«160597_j5995774345772_2_alg».proof.Proof.Gen.Pre_finite_inputs
import proofs.«160597_j5995774345772_2_alg».proof.Proof.LibFiniteInputs
import proofs.«160597_j5995774345772_2_alg».proof.Proof.MilReal

open Idealize.ShloMosaic Idealize.ShloMosaic.ValueIdx Idealize.SL.Sem
open Cert.RealEntries
open Cert.Pre_finite_inputs (S8x50000x256 S256x128 S128 S128x128 S128x1 S1 S128x2 S2 S128x64 S64 S64x1 S_)

namespace Cert.Mil

/-- The shape with no axes has one index. -/
instance subsingleton_scalarIdx : Subsingleton (⟨0, ![]⟩ : Shape).Idx := ⟨fun a b => funext fun d => d.elim0⟩

/-- The conjunction of the twenty-one "every entry is finite" tests is true: every array has real entries. -/
theorem fn_real [Cert.Pre_finite_inputs.Facts] (a0 : FVec Ideal S8x50000x256 .f32) (a1 : FVec Ideal S256x128 .f32) (a2 : FVec Ideal S128 .f32) (a3 : FVec Ideal S128 .f32) (a4 : FVec Ideal S128 .f32) (a5 : FVec Ideal S128x128 .f32) (a6 : FVec Ideal S128 .f32) (a7 : FVec Ideal S128 .f32) (a8 : FVec Ideal S128 .f32) (a9 : FVec Ideal S128x128 .f32) (a10 : FVec Ideal S128 .f32) (a11 : FVec Ideal S128x1 .f32) (a12 : FVec Ideal S1 .f32) (a13 : FVec Ideal S128x128 .f32) (a14 : FVec Ideal S128 .f32) (a15 : FVec Ideal S128x2 .f32) (a16 : FVec Ideal S2 .f32) (a17 : FVec Ideal S128x64 .f32) (a18 : FVec Ideal S64 .f32) (a19 : FVec Ideal S64x1 .f32) (a20 : FVec Ideal S1 .f32)
    (h : Cert.Pre_finite_inputs.fn (F := Ideal) a0 a1 a2 a3 a4 a5 a6 a7 a8 a9 a10 a11 a12 a13 a14 a15 a16 a17 a18 a19 a20 = fun _ => 1#1) :
    AllReal a0 ∧ AllReal a1 ∧ AllReal a2 ∧ AllReal a3 ∧ AllReal a4 ∧ AllReal a5 ∧ AllReal a6 ∧ AllReal a7 ∧ AllReal a8 ∧ AllReal a9 ∧ AllReal a10 ∧ AllReal a11 ∧ AllReal a12 ∧ AllReal a13 ∧ AllReal a14 ∧ AllReal a15 ∧ AllReal a16 ∧ AllReal a17 ∧ AllReal a18 ∧ AllReal a19 ∧ AllReal a20 := by
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Idealize.ShloMosaic.andi] at h0
  obtain ⟨h0, e20⟩ := IntOp.andi_eq_one.1 h0
  obtain ⟨h0, e19⟩ := IntOp.andi_eq_one.1 h0
  obtain ⟨h0, e18⟩ := IntOp.andi_eq_one.1 h0
  obtain ⟨h0, e17⟩ := IntOp.andi_eq_one.1 h0
  obtain ⟨h0, e16⟩ := IntOp.andi_eq_one.1 h0
  obtain ⟨h0, e15⟩ := IntOp.andi_eq_one.1 h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨allReal_of_all_finite _ _ _ _ _ _ e0,
    allReal_of_all_finite _ _ _ _ _ _ e1,
    allReal_of_all_finite _ _ _ _ _ _ e2,
    allReal_of_all_finite _ _ _ _ _ _ e3,
    allReal_of_all_finite _ _ _ _ _ _ e4,
    allReal_of_all_finite _ _ _ _ _ _ e5,
    allReal_of_all_finite _ _ _ _ _ _ e6,
    allReal_of_all_finite _ _ _ _ _ _ e7,
    allReal_of_all_finite _ _ _ _ _ _ e8,
    allReal_of_all_finite _ _ _ _ _ _ e9,
    allReal_of_all_finite _ _ _ _ _ _ e10,
    allReal_of_all_finite _ _ _ _ _ _ e11,
    allReal_of_all_finite _ _ _ _ _ _ e12,
    allReal_of_all_finite _ _ _ _ _ _ e13,
    allReal_of_all_finite _ _ _ _ _ _ e14,
    allReal_of_all_finite _ _ _ _ _ _ e15,
    allReal_of_all_finite _ _ _ _ _ _ e16,
    allReal_of_all_finite _ _ _ _ _ _ e17,
    allReal_of_all_finite _ _ _ _ _ _ e18,
    allReal_of_all_finite _ _ _ _ _ _ e19,
    allReal_of_all_finite _ _ _ _ _ _ e20⟩

/-- Under the precondition the instance array and the weights the features and the score read are real. -/
theorem pre_real [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ RealParams (mkParams
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15))
        (m ((c.tc : Thread Cert.KernelIdeal.nD Cert.KernelIdeal.τ).loc Cert.KernelIdeal.main_arg16))
        (m ((c.tc : Thread Cert.KernelIdeal.nD Cert.KernelIdeal.τ).loc Cert.KernelIdeal.main_arg17))
        (m ((c.tc : Thread Cert.KernelIdeal.nD Cert.KernelIdeal.τ).loc Cert.KernelIdeal.main_arg18))
        (m ((c.tc : Thread Cert.KernelIdeal.nD Cert.KernelIdeal.τ).loc Cert.KernelIdeal.main_arg19))
        (m ((c.tc : Thread Cert.KernelIdeal.nD Cert.KernelIdeal.τ).loc Cert.KernelIdeal.main_arg20))) := by
  obtain ⟨h0, h1, h2, h3, h4, h5, h6, h7, h8, h9, h10, h11, h12, -⟩ := fn_real _ _ _ _ _ _ _ _ _ _ _ _ _ _ _ _ _ _ _ _ _ (hpre c)
  exact ⟨h0,
    { W1 := fun k q => h1 (ix2 k q), b1 := fun q => h2 (ix1 q), g1 := fun q => h3 (ix1 q), be1 := fun q => h4 (ix1 q)
      W2 := fun k q => h5 (ix2 k q), b2 := fun q => h6 (ix1 q), g2 := fun q => h7 (ix1 q), be2 := fun q => h8 (ix1 q)
      Wa1 := fun k q => h9 (ix2 k q), ba1 := fun q => h10 (ix1 q), Wa2 := fun k => h11 (ix2 k (0 : Fin 1))
      ba2 := h12 (ix1 (0 : Fin 1)) }⟩

end Cert.Mil
-- ==== Proof.lean ====
/-
  The kernel and its reference compute the same class scores and risks over the extended reals.

  Both programs push every instance through the same two normalised layers and the same score; the reference pools
  a bag by the softmax over all 50000 instances, dividing the score by the temperature, while the kernel folds the
  bag in ten blocks of 5000 instances into a running maximum, normaliser and weighted sum, multiplying the score by
  the exact reciprocal of the temperature's word (the one named constant of the idealized kernel).  The kernel's run
  is read off the frame run: by induction on the grid point the carried buffers hold the block recurrence's state,
  the last tile of a bag writes the two heads of the blocked bag vector, and the two host reshapes after the region
  drop the unit axis.  The reference's run is read operation by operation as the plain arrangement.  For finite
  inputs every score and feature is a real number, the block recurrence equals the plain softmax-weighted sum, and
  the quotient by the temperature's word is the product with its reciprocal; so the two pairs of results agree.
-/
import proofs.«160597_j5995774345772_2_alg».proof.Defs
import proofs.«160597_j5995774345772_2_alg».proof.Proof.Gen.Kernel
import proofs.«160597_j5995774345772_2_alg».proof.Proof.Gen.KernelIdeal
import proofs.«160597_j5995774345772_2_alg».proof.Proof.Gen.ReferenceIdeal
import proofs.«160597_j5995774345772_2_alg».proof.Proof.Gen.Pre_finite_inputs
import proofs.«160597_j5995774345772_2_alg».proof.Proof.Gen.ReferenceIdeal.Run
import proofs.«160597_j5995774345772_2_alg».proof.Proof.Gen.ReferenceIdeal.Read
import proofs.«160597_j5995774345772_2_alg».proof.Proof.PatchedKernelFrame
import proofs.«160597_j5995774345772_2_alg».proof.Proof.PatchedKernelIdealFrame
import proofs.«160597_j5995774345772_2_alg».proof.Proof.MilFinal
import proofs.«160597_j5995774345772_2_alg».proof.Proof.MilRun
import proofs.«160597_j5995774345772_2_alg».proof.Proof.MilRef
import proofs.«160597_j5995774345772_2_alg».proof.Proof.MilBridge
import proofs.«160597_j5995774345772_2_alg».proof.Proof.MilPre
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.GenP.frame m ρ

/-- The idealized kernel runs and leaves its arguments unchanged. -/
theorem frame_kernelIdeal : Cert.frame_KernelIdeal := fun m ρ _ => Cert.KernelIdeal.GenP.frame m ρ

/-- The reference runs and leaves its arguments unchanged: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The one rewrite of the idealization: the word 0x40555555 is read as the exact reciprocal 16777216/5033165 of
    the number the temperature's word denotes. -/
theorem preserves : Cert.preserves_Kernel_KernelIdeal :=
  IdealRules.named_const.statement Cert.KernelIdeal.κ "inv_tau" .f32 0x40555555#32 ((16777216 / 5033165 : ℝ) : EReal) rfl

/-- From memories agreeing on the arguments, both idealized programs end with the class scores and the risks of
    the blocked arrangement. -/
theorem algebraic : Cert.algebraic_KernelIdeal_ReferenceIdeal := by
  intro m ρ m' ρ' hpre hagree
  refine ⟨fun c => Cert.Mil.logitsBlocked (Cert.Mil.Induct.params m c) (Cert.Mil.Induct.input m c),
    fun c => Cert.Mil.riskBlocked (Cert.Mil.Induct.params m c) (Cert.Mil.Induct.input m c), ?_, ?_⟩
  · exact Cert.Mil.Run.kernel_run m ρ (Cert.Mil.Final.G21 m) (Cert.Mil.Final.G22 m) (Cert.Mil.Final.final21 m)
      (Cert.Mil.Final.final22 m) (fun W b c' => Cert.Mil.Out.tail_v2 W b c') (fun W b => Cert.Mil.Out.tail_v3 W b)
  · refine (θ_run Cert.ReferenceIdeal.defs _ _).mono (fun _ h c => ?_) (Cert.ReferenceIdeal.Value.run (F := Ideal) m' ρ')
    obtain ⟨e0, e1, e2, e3, e4, e5, e6, e7, e8, e9, e10, e11, e12, e13, e14, e15, e16, e17, e18, e19, e20⟩ := hagree c
    obtain ⟨hx, hP⟩ := Cert.Mil.pre_real m hpre c
    obtain ⟨hl, hr⟩ := Cert.Mil.blocked_eq_plain _ _ hP hx
    refine ⟨(h c).1.trans ?_, (h c).2.1.trans ?_, (h c).2.2⟩
    · rw [Cert.Mil.Ref.logits_eq, e0, e1, e2, e3, e4, e5, e6, e7, e8, e9, e10, e11, e12, e13, e14, e15, e16, e17, e18, e19, e20]
      exact hl.symm
    · rw [Cert.Mil.Ref.risk_eq, e0, e1, e2, e3, e4, e5, e6, e7, e8, e9, e10, e11, e12, e13, e14, e15, e16, e17, e18, e19, e20]
      exact hr.symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
